-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096 : Shape := ⟨2, ![8, 4096]⟩
abbrev S8x512x3 : Shape := ⟨3, ![8, 512, 3]⟩
abbrev S8x256x3 : Shape := ⟨3, ![8, 256, 3]⟩
abbrev S8x512 : Shape := ⟨2, ![8, 512]⟩
abbrev S8x512x1 : Shape := ⟨3, ![8, 512, 1]⟩
abbrev S8x256 : Shape := ⟨2, ![8, 256]⟩
abbrev S8x1x256 : Shape := ⟨3, ![8, 1, 256]⟩
abbrev S8x512x256 : Shape := ⟨3, ![8, 512, 256]⟩
abbrev S_ : Shape := ⟨0, ![]⟩
abbrev S8 : Shape := ⟨1, ![8]⟩

abbrev nBuf : Space → Nat
  | .hbm => 19
  | .vmem => 14
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x256x3, .f32⟩
  | .local _ .vmem, ⟨3, _⟩ => ⟨S8x256x3, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512x3, .f32⟩
  | .local _ .vmem, ⟨8, _⟩ => ⟨S8x512x3, .f32⟩
  | .local _ .vmem, ⟨9, _⟩ => ⟨S8x256x3, .f32⟩
  | .local _ .vmem, ⟨10, _⟩ => ⟨S8x256x3, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_14 : BitVec 32 := 0#32
  let v28 : BitVec 1 := Scalar.cmpi .ne v27 c0_i32_14
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x256x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S8x512x3_S8x512x3_0_0_0 : ∀ a, (![0, 0, 0] : Fin 3 → Nat) a + S8x512x3.size a ≤ S8x512x3.size a
  h_S8x512x3 : 0 < S8x512x3.numel
  inb_S8x256x3_S8x256x3_0_0_0 : ∀ a, (![0, 0, 0] : Fin 3 → Nat) a + S8x256x3.size a ≤ S8x256x3.size a
  h_S8x256x3 : 0 < S8x256x3.numel
  reduces_S8x512x3_S8x512 : S8x512x3.Reduces [2] S8x512
  shapeCasts_S8x512_S8x512x1 : S8x512.ShapeCasts S8x512x1
  reduces_S8x256x3_S8x256 : S8x256x3.Reduces [2] S8x256
  shapeCasts_S8x256_S8x1x256 : S8x256.ShapeCasts S8x1x256
  bitsLt_bf16_f32 : FTy.bits .bf16 < FTy.bits .f32
  broadcasts_S8x512x1_S8x512x256 : S8x512x1.Broadcasts S8x512x256
  broadcasts_S8x1x256_S8x512x256 : S8x1x256.Broadcasts S8x512x256
  reduces_S8x512x256_S8x512 : S8x512x256.Reduces [2] S8x512
  reducesTo_S8x4096_S8_d1 : S8x4096.ReducesTo [1] S8
  h_S_ : 0 < S_.numel
  bcast_S_S8 : S_.BroadcastsInDim S8 (![] : Fin 0 → Fin S8.rank)
  reducesTo_S8_S_d0 : S8.ReducesTo [0] S_
  dot_S8x512x3_S8x256x3_S8x512x256_2_2_1_1_0_0_wf : DotDims.WF S8x512x3 S8x256x3 S8x512x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3.size a ≤ S8x4096x3.size a
  hwx0_1 : ∀ i : grid0.Coords, EltTy.bits .f32 = 32 ∨ (Rect.block (s := S8x4096x3) S8x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x3.size a ≤ S8x4096x3.size a
  hwx1_0 : ∀ i : grid1.Coords, EltTy.bits .f32 = 32 ∨ (Rect.block (s := S8x4096x3) S8x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x3.size a ≤ S8x4096x3.size a
  hwx1_1 : ∀ i : grid1.Coords, EltTy.bits .f32 = 32 ∨ (Rect.block (s := S8x4096x3) S8x256x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)

variable [Facts₀]

def dot_S8x512x3_S8x256x3_S8x512x256_2_2_1_1_0_0 : DotDims S8x512x3 S8x256x3 S8x512x256 where
  lhsContracting := [2]
  rhsContracting := [2]
  lhsNonContracting := [1]
  rhsNonContracting := [1]
  lhsBatch := [0]
  rhsBatch := [0]
  wf := dot_S8x512x3_S8x256x3_S8x512x256_2_2_1_1_0_0_wf

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S8x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x256x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Bits.Runs0.lean ====
/-
  The first pallas_call of the program, one grid point at a time.

  The grid has 8 x 16 points; point t has query tile t / 16 and key tile t % 16.  At every point the body holds a
  block of 512 query points (window 0), a block of 256 key points (window 1), the output block of the query tile
  (window 2) and a scratch buffer of one value per query point, which survives from point to point.  The body
  * refills the scratch with the top value when the key tile is the first (t % 16 = 0),
  * lowers every scratch entry by the least distance to the 256 key points of the block, and
  * copies the scratch into the output block when the key tile is the last (t % 16 = 15), which is also the only
    point of a query tile at which the output block is written back.
  So three kinds of point occur: first key tile, inner key tile, last key tile.  This file states, for each kind, what
  a run of the body leaves in the scratch and in the output block, as the lists of pieces its stores wrote.
-/
import proofs.«137223_j18863496364104_1_alg».proof.Proof.Gen.Kernel.Launch
import proofs.«137223_j18863496364104_1_alg».proof.Proof.Gen.Kernel.Skeleton
import proofs.«137223_j18863496364104_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement below is relative to them
variable (V : (c : Dev nD) → (b : Ref sig .tc) → Buf (Elt F) ((c : Thread nD τ).loc b))

/-! ## The blocks of the windows -/

/-- The block of window `w` at point `t`, cut out of the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's buffer holds the query block of the point at every point: it is fetched when the query tile
    changes and otherwise the block has not moved. -/
theorem query_before_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key window's buffer holds the key block of the point at every point (it is fetched at every point). -/
theorem key_before_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions of the body, over the grid -/

/-- "This is the first key tile": the body's first condition, as it computes it from the key-tile coordinate. -/
abbrev isFirst (i : grid0.Coords) : Prop := (Scalar.cmpi .ne (Scalar.extui (Scalar.cmpi .eq (BitVec.ofNat 32 (i 1).val) 0#32)) 0#32) = 1#1
/-- It holds exactly at the points whose key tile is 0. -/
theorem first_iff : ∀ t : Fin cfg0.N, isFirst (grid0.coords t) ↔ t.val % 16 = 0 :=
  (by decide +kernel : ∀ t : Fin grid0.N, isFirst (grid0.coords t) ↔ t.val % 16 = 0)

/-- "This is the last key tile": the body's second condition. -/
abbrev isLast (i : grid0.Coords) : Prop := k0_cond2 i = 1#1
/-- It holds exactly at the points whose key tile is 15. -/
theorem last_iff : ∀ t : Fin cfg0.N, isLast (grid0.coords t) ↔ t.val % 16 = 15 :=
  (by decide +kernel : ∀ t : Fin grid0.N, isLast (grid0.coords t) ↔ t.val % 16 = 15)

/-! ## Where the windows are idle -/

theorem query_live : ∀ t : Fin cfg0.N, cfg0.idle 0 (grid0.coords t) = false := by decide +kernel
theorem key_live : ∀ t : Fin cfg0.N, cfg0.idle 1 (grid0.coords t) = false := by decide +kernel
/-- Away from the last key tile the body stores nothing into the output block: the window is idle there, -/
theorem out_idle : ∀ t : Fin cfg0.N, ¬isLast (grid0.coords t) → cfg0.idle 2 (grid0.coords t) = true := by decide +kernel
/-- and the block is not written back there. -/
theorem out_noFlush : ∀ t : Fin cfg0.N, ¬isLast (grid0.coords t) → (cfg0.win 2).flush t = false := by decide +kernel
/-- At the last key tile the output block is live. -/
theorem out_live : ∀ t : Fin cfg0.N, isLast (grid0.coords t) → cfg0.idle 2 (grid0.coords t) = false := by decide +kernel

/-! ## The memrefs the body is called with -/

abbrev qM (t : Fin cfg0.N) : Memref sig .tc .vmem S8x512x3 .f32 := win0_0.stage (cfg0.slots t 0)
abbrev qW (t : Fin cfg0.N) : (qM t).IsWhole := hstage0_0 ((cfg0.slots t 0).cast nbuf0_0)
abbrev kM (t : Fin cfg0.N) : Memref sig .tc .vmem S8x256x3 .f32 := win0_1.stage (cfg0.slots t 1)
abbrev kW (t : Fin cfg0.N) : (kM t).IsWhole := hstage0_1 ((cfg0.slots t 1).cast nbuf0_1)
abbrev oM (t : Fin cfg0.N) : Memref sig .tc .vmem S8x512 .f32 := win0_2.stage (cfg0.slots t 2)
abbrev oW (t : Fin cfg0.N) : (oM t).IsWhole := hstage0_2 ((cfg0.slots t 2).cast nbuf0_2)
/-- The scratch: a whole buffer of the kernel's own, the same at every point. -/
abbrev accM : Memref sig .tc .vmem S8x512 .f32 := Memref.whole cc0_scratch0
/-- One view through which the scratch's contents are stated, and one for the output block's. -/
abbrev accV : View sig .tc .vmem S8x512 .f32 := accM.view
abbrev outV : View sig .tc .vmem S8x512 .f32 := (Memref.whole cc0_stg2_0 : Memref sig .tc .vmem S8x512 .f32).view

/-- The scoped buffers of the program's other pallas_call, each at some contents: this region never touches them, and
    they ride through it inside its invariant. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- With nothing known about the scratch, the region's invariant is: the scratch at some contents, the other call's
    buffers, and the generator register at some state. -/
theorem restOpen_in (c : Dev nD) :
    (Pipeline.ΦA spec0 c : sProp 𝕄)
      ⊢ iprop(((∃ d, owns (c : Thread nD τ) accM fullShare d) ∗ otherScoped c) ∗ (∃ r, prngReg c r)) := by
  unfold Pipeline.ΦA otherScoped; rw [scopedRest0_eq]; simp only [accM, owns_whole]
  iintro ⟨⟨HS, H1, H2, H3, H4, H5, H6, H7⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- And back: whatever the scratch holds, those three make the invariant again. -/
theorem restOpen_out (c : Dev nD) :
    iprop(((∃ d, owns (c : Thread nD τ) accM fullShare d) ∗ otherScoped (F := F) c) ∗ (∃ r, prngReg c r))
      ⊢ (Pipeline.ΦA spec0 c : sProp 𝕄) := by
  unfold Pipeline.ΦA otherScoped; rw [scopedRest0_eq]; simp only [accM, owns_whole]
  iintro ⟨⟨HS, H1, H2, H3, H4, H5, H6, H7⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-! ## The body at each kind of point -/

set_option maxHeartbeats 1000000 in
/-- FIRST KEY TILE.  From the query and key blocks, the output block at anything (handed back untouched) and the
    scratch at anything, the body ends with the scratch overwritten by the pieces `LS` (the refill, then the
    lowered values), found by running it. -/
noncomputable def runFirst (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) :
    { LS : List (View.Piece (Elt F) S8x512 .f32) //
      ∀ (xo : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__rowmin_kernel i arg2 harg2 arg3 harg3 arg4 harg4 arg5 harg5) K } := by
  refine ⟨?_, fun xo E K => ?run⟩
  case run =>
    simp only [cc0__rowmin_kernel_eq_skeleton]; unfold cc0__rowmin_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- INNER KEY TILE.  The same with the scratch at the contents `xs` the point before left: it ends overwritten by
    the pieces `LS` (the lowered values). -/
noncomputable def runInner (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) :
    { LS : List (View.Piece (Elt F) S8x512 .f32) //
      ∀ (xo : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__rowmin_kernel i arg2 harg2 arg3 harg3 arg4 harg4 arg5 harg5) K } := by
  refine ⟨?_, fun xo E K => ?run⟩
  case run =>
    simp only [cc0__rowmin_kernel_eq_skeleton]; unfold cc0__rowmin_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- LAST KEY TILE.  The scratch at `xs`, the output block at anything: the scratch ends overwritten by `LS` (the
    lowered values) and the output block by `LO` (a copy of the scratch). -/
noncomputable def runLast (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) :
    Σ' (LO : List (View.Piece (Elt F) S8x512 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__rowmin_kernel i arg2 harg2 arg3 harg3 arg4 harg4 arg5 harg5) K } := by
  refine ⟨?_, ?_, fun E K => ?run⟩
  case run =>
    simp only [cc0__rowmin_kernel_eq_skeleton]; unfold cc0__rowmin_kernel_skel
    unfold owns
    iintro ⟨⟨%f0, %hf0, H0⟩, ⟨%f1, %hf1, H1⟩, ⟨%d4, %fo, -, HO⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.Kernel.Region0

end
-- ==== Proof.Bits.Region0.lean ====
/-
  The first pallas_call as a whole: what its scratch and its output block hold after every grid point, the proof data
  of its pipeline, and the body's obligation at every point.

  Point t belongs to query tile t / 16 and key tile t % 16.  After a point of the first key tile the scratch holds the
  refill lowered by that tile; after any later point it holds what the point before left, lowered by this point's key
  tile; at the last key tile the output block receives a copy.  The scratch is therefore defined by recursion on the
  point, and the region's invariant before a point that is not the very first says that the scratch holds exactly what
  the point before left.  Before the very first point, and after the last, the scratch is just some buffer.
-/
import proofs.«137223_j18863496364104_1_alg».proof.Proof.Bits.Runs0

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves, read back from the pieces its run found -/

/-- A point of the first key tile: the scratch afterwards. -/
def accFirst (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) : Vec F S8x512 .f32 :=
  accV.read (Elt F) (accV.writes (Elt F) accV.junk (runFirst c i arg2 harg2 arg3 harg3 arg4 harg4 arg5 harg5 hc0 hc1 x0 x1).1)
/-- Its pieces tile the scratch, so they cover it. -/
theorem accFirst_cover (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) (y : S8x512.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S8x512.size (by sl_kernel_rfl) y

/-- A point of an inner key tile: the scratch afterwards, from what it held before (`xs`). -/
def accInner (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) : Vec F S8x512 .f32 :=
  accV.read (Elt F) (accV.writes (Elt F) accV.junk (runInner c i arg2 harg2 arg3 harg3 arg4 harg4 arg5 harg5 hc0 hc1 x0 x1 xs).1)
theorem accInner_cover (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) (y : S8x512.Idx) :
    ∃ pc ∈ (runInner c i arg2 harg2 arg3 harg3 arg4 harg4 arg5 harg5 hc0 hc1 x0 x1 xs).1, y ∈ pc.1.set :=
  View.cover_of_tiledL (runInner c i arg2 harg2 arg3 harg3 arg4 harg4 arg5 harg5 hc0 hc1 x0 x1 xs).1 S8x512.size (by sl_kernel_rfl) y

/-- A point of the last key tile: the scratch afterwards, -/
def accLast (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) : Vec F S8x512 .f32 :=
  accV.read (Elt F) (accV.writes (Elt F) accV.junk (runLast c i arg2 harg2 arg3 harg3 arg4 harg4 arg5 harg5 hc0 hc1 x0 x1 xs).2.1)
theorem accLast_cover (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) (y : S8x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S8x512.size (by sl_kernel_rfl) y
/-- and the output block. -/
def outLast (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) : Vec F S8x512 .f32 :=
  outV.read (Elt F) (outV.writes (Elt F) outV.junk (runLast c i arg2 harg2 arg3 harg3 arg4 harg4 arg5 harg5 hc0 hc1 x0 x1 xs).1)
theorem outLast_cover (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) (y : S8x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S8x512.size (by sl_kernel_rfl) y

/-- The output block where the body does not store into it: a placeholder nothing consults (the window is idle and
    not written back at those points). -/
def idleOut : Vec F S8x512 .f32 := outV.read (Elt F) (outV.writes (Elt F) outV.junk [])

/-! ## Point by point -/

/-- What the output block (first component) and the scratch (second) hold after the body at point `n`. -/
def pointAfter (c : Dev nD) : (n : ℕ) → n < cfg0.N → Vec F S8x512 .f32 × Vec F S8x512 .f32
  | 0, hn => (idleOut, accFirst c (grid0.coords ⟨0, hn⟩) (qM ⟨0, hn⟩) (qW ⟨0, hn⟩) (kM ⟨0, hn⟩) (kW ⟨0, hn⟩) (oM ⟨0, hn⟩) (oW ⟨0, hn⟩) accM (Memref.isWhole_whole _) ((first_iff ⟨0, hn⟩).mpr (Nat.zero_mod _)) (fun h => (fun h => by (try dsimp only at h); omega) ((last_iff ⟨0, hn⟩).mp h)) (blockAt V c 0 ⟨0, hn⟩) (blockAt V c 1 ⟨0, hn⟩))
  | n + 1, hn =>
    if h0 : (n + 1) % 16 = 0 then
      if h1 : (n + 1) % 16 = 15 then
        False.elim (by omega)
      else
        (idleOut, accFirst c (grid0.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) ((first_iff ⟨n + 1, hn⟩).mpr h0) (fun h => h1 ((last_iff ⟨n + 1, hn⟩).mp h)) (blockAt V c 0 ⟨n + 1, hn⟩) (blockAt V c 1 ⟨n + 1, hn⟩))
    else
      if h1 : (n + 1) % 16 = 15 then
        (outLast c (grid0.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) ((last_iff ⟨n + 1, hn⟩).mpr h1) (blockAt V c 0 ⟨n + 1, hn⟩) (blockAt V c 1 ⟨n + 1, hn⟩) (pointAfter c n (Nat.lt_of_succ_lt hn)).2,
         accLast c (grid0.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) ((last_iff ⟨n + 1, hn⟩).mpr h1) (blockAt V c 0 ⟨n + 1, hn⟩) (blockAt V c 1 ⟨n + 1, hn⟩) (pointAfter c n (Nat.lt_of_succ_lt hn)).2)
      else
        (idleOut, accInner c (grid0.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) (fun h => h1 ((last_iff ⟨n + 1, hn⟩).mp h)) (blockAt V c 0 ⟨n + 1, hn⟩) (blockAt V c 1 ⟨n + 1, hn⟩) (pointAfter c n (Nat.lt_of_succ_lt hn)).2)

/-- At a point of the first key tile. -/
theorem pointAfter_first (c : Dev nD) (t : Fin cfg0.N) (h0 : t.val % 16 = 0) (h1 : ¬t.val % 16 = 15) :
    pointAfter V c t.val t.isLt = (idleOut, accFirst c (grid0.coords t) (qM t) (qW t) (kM t) (kW t) (oM t) (oW t) accM (Memref.isWhole_whole _) ((first_iff t).mpr h0) (fun h => h1 ((last_iff t).mp h)) (blockAt V c 0 t) (blockAt V c 1 t)) := by
  obtain ⟨n, hn⟩ := t
  cases n with
  | zero => exact rfl
  | succ n => exact (dif_pos h0).trans ((dif_neg h1).trans rfl)

/-- At a point of an inner key tile: over what the point before left in the scratch. -/
theorem pointAfter_inner (c : Dev nD) (t : Fin cfg0.N) (h0 : ¬t.val % 16 = 0) (h1 : ¬t.val % 16 = 15) :
    pointAfter V c t.val t.isLt = (idleOut, accInner c (grid0.coords t) (qM t) (qW t) (kM t) (kW t) (oM t) (oW t) accM (Memref.isWhole_whole _) (fun h => h0 ((first_iff t).mp h)) (fun h => h1 ((last_iff t).mp h)) (blockAt V c 0 t) (blockAt V c 1 t) (pointAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the last key tile. -/
theorem pointAfter_last (c : Dev nD) (t : Fin cfg0.N) (h0 : ¬t.val % 16 = 0) (h1 : t.val % 16 = 15) :
    pointAfter V c t.val t.isLt = (outLast c (grid0.coords t) (qM t) (qW t) (kM t) (kW t) (oM t) (oW t) accM (Memref.isWhole_whole _) (fun h => h0 ((first_iff t).mp h)) ((last_iff t).mpr h1) (blockAt V c 0 t) (blockAt V c 1 t) (pointAfter V c (t.val - 1) (Nat.lt_of_le_of_lt (Nat.sub_le _ _) t.isLt)).2,
      accLast c (grid0.coords t) (qM t) (qW t) (kM t) (kW t) (oM t) (oW t) accM (Memref.isWhole_whole _) (fun h => h0 ((first_iff t).mp h)) ((last_iff t).mpr h1) (blockAt V c 0 t) (blockAt V c 1 t) (pointAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch is carried from point to point -/

/-- Before position `n`: at the very start the region's plain invariant (the scratch at anything); afterwards the scratch
    at what point `n - 1` left, beside the other call's buffers and the generator register. -/
def carried (c : Dev nD) : (n : ℕ) → n ≤ cfg0.N → sProp 𝕄
  | 0, _ => Pipeline.ΦA spec0 c
  | n + 1, hn => iprop((owns (c : Thread nD τ) accM fullShare ((pointAfter V c n hn).2) ∗ otherScoped c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop((owns (c : Thread nD τ) accM fullShare ((pointAfter V c n hn).2) ∗ otherScoped c) ∗ (∃ r, prngReg c r)) := rfl

theorem carried_pos (c : Dev nD) (n : ℕ) (h : n ≤ cfg0.N) (hz : n ≠ 0) :
    carried V c n h = iprop((owns (c : Thread nD τ) accM fullShare ((pointAfter V c (n - 1) (by omega)).2) ∗ otherScoped c) ∗ (∃ r, prngReg c r)) := by
  cases n with
  | zero => exact absurd rfl hz
  | succ n => rfl

/-! ## The pipeline's proof data -/

/-- The arrays as the region finds them; after the body each input buffer at its block and the output buffer at
    `pointAfter`'s first component; the invariant `carried`; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => (pointAfter V c t.val t.isLt).1
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem carried_castSucc (c : Dev nD) (t : Fin cfg0.N) :
    (dat V c).Φ t.castSucc = carried V c t.val (Nat.le_of_lt t.isLt) := by
  dsimp only [dat]; simp only [Fin.coe_castSucc]

theorem after_query (c : Dev nD) (t : Fin cfg0.N) : (dat V c).after 0 t = blockAt V c 0 t := by dsimp only [dat]
theorem after_key (c : Dev nD) (t : Fin cfg0.N) : (dat V c).after 1 t = blockAt V c 1 t := by dsimp only [dat]
theorem after_out (c : Dev nD) (t : Fin cfg0.N) : (dat V c).after 2 t = (pointAfter V c t.val t.isLt).1 := by dsimp only [dat]

theorem before_query (c : Dev nD) (t : Fin cfg0.N) (d) : (dat V c).before 0 t d = blockAt V c 0 t :=
  query_before_of V (dat V c) (A_eq V c 0) (after_query V c) t d
theorem before_key (c : Dev nD) (t : Fin cfg0.N) (d) : (dat V c).before 1 t d = blockAt V c 1 t :=
  key_before_of V (dat V c) (A_eq V c 1) (after_key V c) t d

/-! ## The body's obligation at a point -/

/-- What the body is called with at point `t`: the invariant, the core owing nothing, and the three windows' current
    buffers at what they hold before the body. -/
def bodyPre (c : Dev nD) (t : Fin cfg0.N) : sProp 𝕄 :=
  iprop((dat V c).Φ t.castSucc ∗ (dat V c).owesAt () t.castSucc
    ∗ (∃ d, owns (c : Thread nD τ) (qM t) fullShare ((dat V c).before 0 t d))
    ∗ (∃ d, owns (c : Thread nD τ) (kM t) fullShare ((dat V c).before 1 t d))
    ∗ (∃ d, owns (c : Thread nD τ) (oM t) fullShare ((dat V c).before 2 t d)))

/-- What it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point.  The inputs' buffers hold their blocks; `t % 16` says which kind of point it is; the
    invariant hands over the scratch (at what the point before left, or at anything at the very first point, where the
    body overwrites it before reading), the run of that kind applies, and the scratch goes back into the invariant at
    this point's contents.  The output block is handed back untouched except at the last key tile. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_query, before_key]
  rw [show (dat V c).owesAt () t.succ = (dat V c).owesAt () t.castSucc from rfl]
  rw [show (dat V c).Φ t.succ = carried V c (t.val + 1) t.isLt from rfl, carried_succ]
  have hN : t.val < 128 := lt_of_lt_of_eq t.isLt (show cfg0.N = 128 from N_0)
  rw [show (dat V c).leavesExact 0 t = owns (c : Thread nD τ) (qM t) fullShare ((dat V c).after 0 t) from by
    unfold Dat.leavesExact; rw [query_live t], after_query]
  rw [show (dat V c).leavesExact 1 t = owns (c : Thread nD τ) (kM t) fullShare ((dat V c).after 1 t) from by
    unfold Dat.leavesExact; rw [key_live t], after_key]
  by_cases h0 : t.val % 16 = 0
  · have h1 : ¬t.val % 16 = 15 := by omega
    rw [Dat.leavesExact_idle (dat V c) 2 t (out_idle t (fun h => h1 ((last_iff t).mp h))) (out_noFlush t (fun h => h1 ((last_iff t).mp h)))]
    rw [pointAfter_first V c t h0 h1]
    unfold accFirst; (try dsimp only)
    by_cases hz : t.val = 0
    · rw [carried_castSucc V c t, carried_zero V c _ _ hz]
      refine (sep_mono (restOpen_in c) .rfl).trans ?_
      iintro ⟨⟨⟨HS, Hoth⟩, Hg⟩, Ho, ⟨%d0, H0⟩, ⟨%d1, H1⟩, ⟨%d2, H2⟩⟩
      iapply ((runFirst c (grid0.coords t) _ _ _ _ _ _ _ _ ((first_iff t).mpr h0) (fun h => h1 ((last_iff t).mp h)) (blockAt V c 0 t) (blockAt V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
    · rw [carried_castSucc V c t, carried_pos V c _ _ hz]
      iintro ⟨⟨⟨HS, Hoth⟩, Hg⟩, Ho, ⟨%d0, H0⟩, ⟨%d1, H1⟩, ⟨%d2, H2⟩⟩
      iapply ((runFirst c (grid0.coords t) _ _ _ _ _ _ _ _ ((first_iff t).mpr h0) (fun h => h1 ((last_iff t).mp h)) (blockAt V c 0 t) (blockAt V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (oM t) fullShare ((dat V c).after 2 t) from by
        unfold Dat.leavesExact; rw [out_live t ((last_iff t).mpr h1)], after_out]
      rw [pointAfter_last V c t h0 h1]
      unfold outLast accLast; (try dsimp only)
      rw [carried_castSucc V c t, carried_pos V c _ _ hz]
      iintro ⟨⟨⟨HS, Hoth⟩, Hg⟩, Ho, ⟨%d0, H0⟩, ⟨%d1, H1⟩, ⟨%d2, H2⟩⟩
      iapply ((runLast c (grid0.coords t) _ _ _ _ _ _ _ _ (fun h => h0 ((first_iff t).mp h)) ((last_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · rw [Dat.leavesExact_idle (dat V c) 2 t (out_idle t (fun h => h1 ((last_iff t).mp h))) (out_noFlush t (fun h => h1 ((last_iff t).mp h)))]
      rw [pointAfter_inner V c t h0 h1]
      unfold accInner; (try dsimp only)
      rw [carried_castSucc V c t, carried_pos V c _ _ hz]
      iintro ⟨⟨⟨HS, Hoth⟩, Hg⟩, Ho, ⟨%d0, H0⟩, ⟨%d1, H1⟩, ⟨%d2, H2⟩⟩
      iapply ((runInner c (grid0.coords t) _ _ _ _ _ _ _ _ (fun h => h0 ((first_iff t).mp h)) (fun h => h1 ((last_iff t).mp h)) (blockAt V c 0 t) (blockAt V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accInner_cover c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem carried_in (c : Dev nD) : Pipeline.ΦA spec0 c ⊢ (dat V c).Φ 0 := by
  rw [show (dat V c).Φ 0 = carried V c 0 (Nat.zero_le _) from rfl, carried_zero V c 0 _ rfl]
  try exact Idealize.SL.BI.Entails.refl _

/-- After any point the invariant gives the plain one back: what the scratch holds is forgotten. -/
theorem carried_out (c : Dev nD) (t : Fin (cfg0.N + 1)) (ht : t.val ≠ 0) : (dat V c).Φ t ⊢ Pipeline.ΦA spec0 c := by
  rw [show (dat V c).Φ t = carried V c t.val (Nat.le_of_lt_succ t.isLt) from rfl, carried_pos V c _ _ ht]
  refine .trans ?_ (restOpen_out c)
  iintro ⟨⟨HS, Hoth⟩, Hg⟩
  isplitl [HS Hoth]
  · isplitl [HS]; · iexists _; iexact HS
    iexact Hoth
  iexact Hg

/-- In particular after the last point. -/
theorem carried_last (c : Dev nD) : (dat V c).Φ (Fin.last cfg0.N) ⊢ Pipeline.ΦA spec0 c :=
  carried_out V c _ (by rw [Fin.val_last]; have : cfg0.N = 128 := N_0; omega)

end Cert.Kernel.Region0

end
-- ==== Proof.Bits.Runs1.lean ====
/-
  The second pallas_call of the program, one grid point at a time.

  The grid has 8 x 16 points; point t has query tile t / 16 and key tile t % 16.  At every point the body holds a
  block of 512 query points (window 0), a block of 256 key points (window 1), the output block of the query tile
  (window 2) and a scratch buffer of one value per query point, which survives from point to point.  The body
  * refills the scratch with the top value when the key tile is the first (t % 16 = 0),
  * lowers every scratch entry by the least distance to the 256 key points of the block, and
  * copies the scratch into the output block when the key tile is the last (t % 16 = 15), which is also the only
    point of a query tile at which the output block is written back.
  So three kinds of point occur: first key tile, inner key tile, last key tile.  This file states, for each kind, what
  a run of the body leaves in the scratch and in the output block, as the lists of pieces its stores wrote.
-/
import proofs.«137223_j18863496364104_1_alg».proof.Proof.Gen.Kernel.Launch
import proofs.«137223_j18863496364104_1_alg».proof.Proof.Gen.Kernel.Skeleton
import proofs.«137223_j18863496364104_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement below is relative to them
variable (V : (c : Dev nD) → (b : Ref sig .tc) → Buf (Elt F) ((c : Thread nD τ).loc b))

/-! ## The blocks of the windows -/

/-- The block of window `w` at point `t`, cut out of the window's array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds the query block of the point at every point: it is fetched when the query tile
    changes and otherwise the block has not moved. -/
theorem query_before_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key window's buffer holds the key block of the point at every point (it is fetched at every point). -/
theorem key_before_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions of the body, over the grid -/

/-- "This is the first key tile": the body's first condition, as it computes it from the key-tile coordinate. -/
abbrev isFirst (i : grid1.Coords) : Prop := (Scalar.cmpi .ne (Scalar.extui (Scalar.cmpi .eq (BitVec.ofNat 32 (i 1).val) 0#32)) 0#32) = 1#1
/-- It holds exactly at the points whose key tile is 0. -/
theorem first_iff : ∀ t : Fin cfg1.N, isFirst (grid1.coords t) ↔ t.val % 16 = 0 :=
  (by decide +kernel : ∀ t : Fin grid1.N, isFirst (grid1.coords t) ↔ t.val % 16 = 0)

/-- "This is the last key tile": the body's second condition. -/
abbrev isLast (i : grid1.Coords) : Prop := k1_cond2 i = 1#1
/-- It holds exactly at the points whose key tile is 15. -/
theorem last_iff : ∀ t : Fin cfg1.N, isLast (grid1.coords t) ↔ t.val % 16 = 15 :=
  (by decide +kernel : ∀ t : Fin grid1.N, isLast (grid1.coords t) ↔ t.val % 16 = 15)

/-! ## Where the windows are idle -/

theorem query_live : ∀ t : Fin cfg1.N, cfg1.idle 0 (grid1.coords t) = false := by decide +kernel
theorem key_live : ∀ t : Fin cfg1.N, cfg1.idle 1 (grid1.coords t) = false := by decide +kernel
/-- Away from the last key tile the body stores nothing into the output block: the window is idle there, -/
theorem out_idle : ∀ t : Fin cfg1.N, ¬isLast (grid1.coords t) → cfg1.idle 2 (grid1.coords t) = true := by decide +kernel
/-- and the block is not written back there. -/
theorem out_noFlush : ∀ t : Fin cfg1.N, ¬isLast (grid1.coords t) → (cfg1.win 2).flush t = false := by decide +kernel
/-- At the last key tile the output block is live. -/
theorem out_live : ∀ t : Fin cfg1.N, isLast (grid1.coords t) → cfg1.idle 2 (grid1.coords t) = false := by decide +kernel

/-! ## The memrefs the body is called with -/

abbrev qM (t : Fin cfg1.N) : Memref sig .tc .vmem S8x512x3 .f32 := win1_0.stage (cfg1.slots t 0)
abbrev qW (t : Fin cfg1.N) : (qM t).IsWhole := hstage1_0 ((cfg1.slots t 0).cast nbuf1_0)
abbrev kM (t : Fin cfg1.N) : Memref sig .tc .vmem S8x256x3 .f32 := win1_1.stage (cfg1.slots t 1)
abbrev kW (t : Fin cfg1.N) : (kM t).IsWhole := hstage1_1 ((cfg1.slots t 1).cast nbuf1_1)
abbrev oM (t : Fin cfg1.N) : Memref sig .tc .vmem S8x512 .f32 := win1_2.stage (cfg1.slots t 2)
abbrev oW (t : Fin cfg1.N) : (oM t).IsWhole := hstage1_2 ((cfg1.slots t 2).cast nbuf1_2)
/-- The scratch: a whole buffer of the kernel's own, the same at every point. -/
abbrev accM : Memref sig .tc .vmem S8x512 .f32 := Memref.whole cc1_scratch0
/-- One view through which the scratch's contents are stated, and one for the output block's. -/
abbrev accV : View sig .tc .vmem S8x512 .f32 := accM.view
abbrev outV : View sig .tc .vmem S8x512 .f32 := (Memref.whole cc1_stg2_0 : Memref sig .tc .vmem S8x512 .f32).view

/-- The scoped buffers of the program's other pallas_call, each at some contents: this region never touches them, and
    they ride through it inside its invariant. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- With nothing known about the scratch, the region's invariant is: the scratch at some contents, the other call's
    buffers, and the generator register at some state. -/
theorem restOpen_in (c : Dev nD) :
    (Pipeline.ΦA spec1 c : sProp 𝕄)
      ⊢ iprop(((∃ d, owns (c : Thread nD τ) accM fullShare d) ∗ otherScoped c) ∗ (∃ r, prngReg c r)) := by
  unfold Pipeline.ΦA otherScoped; rw [scopedRest1_eq]; simp only [accM, owns_whole]
  iintro ⟨⟨H1, H2, H3, H4, H5, H6, H7, HS⟩, Hg⟩
  isplitl [H1 H2 H3 H4 H5 H6 H7 HS]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- And back: whatever the scratch holds, those three make the invariant again. -/
theorem restOpen_out (c : Dev nD) :
    iprop(((∃ d, owns (c : Thread nD τ) accM fullShare d) ∗ otherScoped (F := F) c) ∗ (∃ r, prngReg c r))
      ⊢ (Pipeline.ΦA spec1 c : sProp 𝕄) := by
  unfold Pipeline.ΦA otherScoped; rw [scopedRest1_eq]; simp only [accM, owns_whole]
  iintro ⟨⟨HS, H1, H2, H3, H4, H5, H6, H7⟩, Hg⟩
  isplitl [H1 H2 H3 H4 H5 H6 H7 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The body at each kind of point -/

set_option maxHeartbeats 1000000 in
/-- FIRST KEY TILE.  From the query and key blocks, the output block at anything (handed back untouched) and the
    scratch at anything, the body ends with the scratch overwritten by the pieces `LS` (the refill, then the
    lowered values), found by running it. -/
noncomputable def runFirst (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) :
    { LS : List (View.Piece (Elt F) S8x512 .f32) //
      ∀ (xo : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__rowmin_kernel i arg2 harg2 arg3 harg3 arg4 harg4 arg5 harg5) K } := by
  refine ⟨?_, fun xo E K => ?run⟩
  case run =>
    simp only [cc1__rowmin_kernel_eq_skeleton]; unfold cc1__rowmin_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- INNER KEY TILE.  The same with the scratch at the contents `xs` the point before left: it ends overwritten by
    the pieces `LS` (the lowered values). -/
noncomputable def runInner (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) :
    { LS : List (View.Piece (Elt F) S8x512 .f32) //
      ∀ (xo : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__rowmin_kernel i arg2 harg2 arg3 harg3 arg4 harg4 arg5 harg5) K } := by
  refine ⟨?_, fun xo E K => ?run⟩
  case run =>
    simp only [cc1__rowmin_kernel_eq_skeleton]; unfold cc1__rowmin_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- LAST KEY TILE.  The scratch at `xs`, the output block at anything: the scratch ends overwritten by `LS` (the
    lowered values) and the output block by `LO` (a copy of the scratch). -/
noncomputable def runLast (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) :
    Σ' (LO : List (View.Piece (Elt F) S8x512 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__rowmin_kernel i arg2 harg2 arg3 harg3 arg4 harg4 arg5 harg5) K } := by
  refine ⟨?_, ?_, fun E K => ?run⟩
  case run =>
    simp only [cc1__rowmin_kernel_eq_skeleton]; unfold cc1__rowmin_kernel_skel
    unfold owns
    iintro ⟨⟨%f0, %hf0, H0⟩, ⟨%f1, %hf1, H1⟩, ⟨%d4, %fo, -, HO⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.Kernel.Region1

end
-- ==== Proof.Bits.Region1.lean ====
/-
  The second pallas_call as a whole: what its scratch and its output block hold after every grid point, the proof data
  of its pipeline, and the body's obligation at every point.

  Point t belongs to query tile t / 16 and key tile t % 16.  After a point of the first key tile the scratch holds the
  refill lowered by that tile; after any later point it holds what the point before left, lowered by this point's key
  tile; at the last key tile the output block receives a copy.  The scratch is therefore defined by recursion on the
  point, and the region's invariant before a point that is not the very first says that the scratch holds exactly what
  the point before left.  Before the very first point, and after the last, the scratch is just some buffer.
-/
import proofs.«137223_j18863496364104_1_alg».proof.Proof.Bits.Runs1

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves, read back from the pieces its run found -/

/-- A point of the first key tile: the scratch afterwards. -/
def accFirst (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) : Vec F S8x512 .f32 :=
  accV.read (Elt F) (accV.writes (Elt F) accV.junk (runFirst c i arg2 harg2 arg3 harg3 arg4 harg4 arg5 harg5 hc0 hc1 x0 x1).1)
/-- Its pieces tile the scratch, so they cover it. -/
theorem accFirst_cover (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) (y : S8x512.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S8x512.size (by sl_kernel_rfl) y

/-- A point of an inner key tile: the scratch afterwards, from what it held before (`xs`). -/
def accInner (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) : Vec F S8x512 .f32 :=
  accV.read (Elt F) (accV.writes (Elt F) accV.junk (runInner c i arg2 harg2 arg3 harg3 arg4 harg4 arg5 harg5 hc0 hc1 x0 x1 xs).1)
theorem accInner_cover (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) (y : S8x512.Idx) :
    ∃ pc ∈ (runInner c i arg2 harg2 arg3 harg3 arg4 harg4 arg5 harg5 hc0 hc1 x0 x1 xs).1, y ∈ pc.1.set :=
  View.cover_of_tiledL (runInner c i arg2 harg2 arg3 harg3 arg4 harg4 arg5 harg5 hc0 hc1 x0 x1 xs).1 S8x512.size (by sl_kernel_rfl) y

/-- A point of the last key tile: the scratch afterwards, -/
def accLast (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) : Vec F S8x512 .f32 :=
  accV.read (Elt F) (accV.writes (Elt F) accV.junk (runLast c i arg2 harg2 arg3 harg3 arg4 harg4 arg5 harg5 hc0 hc1 x0 x1 xs).2.1)
theorem accLast_cover (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) (y : S8x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S8x512.size (by sl_kernel_rfl) y
/-- and the output block. -/
def outLast (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) : Vec F S8x512 .f32 :=
  outV.read (Elt F) (outV.writes (Elt F) outV.junk (runLast c i arg2 harg2 arg3 harg3 arg4 harg4 arg5 harg5 hc0 hc1 x0 x1 xs).1)
theorem outLast_cover (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) (y : S8x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S8x512.size (by sl_kernel_rfl) y

/-- The output block where the body does not store into it: a placeholder nothing consults (the window is idle and
    not written back at those points). -/
def idleOut : Vec F S8x512 .f32 := outV.read (Elt F) (outV.writes (Elt F) outV.junk [])

/-! ## Point by point -/

/-- What the output block (first component) and the scratch (second) hold after the body at point `n`. -/
def pointAfter (c : Dev nD) : (n : ℕ) → n < cfg1.N → Vec F S8x512 .f32 × Vec F S8x512 .f32
  | 0, hn => (idleOut, accFirst c (grid1.coords ⟨0, hn⟩) (qM ⟨0, hn⟩) (qW ⟨0, hn⟩) (kM ⟨0, hn⟩) (kW ⟨0, hn⟩) (oM ⟨0, hn⟩) (oW ⟨0, hn⟩) accM (Memref.isWhole_whole _) ((first_iff ⟨0, hn⟩).mpr (Nat.zero_mod _)) (fun h => (fun h => by (try dsimp only at h); omega) ((last_iff ⟨0, hn⟩).mp h)) (blockAt V c 0 ⟨0, hn⟩) (blockAt V c 1 ⟨0, hn⟩))
  | n + 1, hn =>
    if h0 : (n + 1) % 16 = 0 then
      if h1 : (n + 1) % 16 = 15 then
        False.elim (by omega)
      else
        (idleOut, accFirst c (grid1.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) ((first_iff ⟨n + 1, hn⟩).mpr h0) (fun h => h1 ((last_iff ⟨n + 1, hn⟩).mp h)) (blockAt V c 0 ⟨n + 1, hn⟩) (blockAt V c 1 ⟨n + 1, hn⟩))
    else
      if h1 : (n + 1) % 16 = 15 then
        (outLast c (grid1.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) ((last_iff ⟨n + 1, hn⟩).mpr h1) (blockAt V c 0 ⟨n + 1, hn⟩) (blockAt V c 1 ⟨n + 1, hn⟩) (pointAfter c n (Nat.lt_of_succ_lt hn)).2,
         accLast c (grid1.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) ((last_iff ⟨n + 1, hn⟩).mpr h1) (blockAt V c 0 ⟨n + 1, hn⟩) (blockAt V c 1 ⟨n + 1, hn⟩) (pointAfter c n (Nat.lt_of_succ_lt hn)).2)
      else
        (idleOut, accInner c (grid1.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) (fun h => h1 ((last_iff ⟨n + 1, hn⟩).mp h)) (blockAt V c 0 ⟨n + 1, hn⟩) (blockAt V c 1 ⟨n + 1, hn⟩) (pointAfter c n (Nat.lt_of_succ_lt hn)).2)

/-- At a point of the first key tile. -/
theorem pointAfter_first (c : Dev nD) (t : Fin cfg1.N) (h0 : t.val % 16 = 0) (h1 : ¬t.val % 16 = 15) :
    pointAfter V c t.val t.isLt = (idleOut, accFirst c (grid1.coords t) (qM t) (qW t) (kM t) (kW t) (oM t) (oW t) accM (Memref.isWhole_whole _) ((first_iff t).mpr h0) (fun h => h1 ((last_iff t).mp h)) (blockAt V c 0 t) (blockAt V c 1 t)) := by
  obtain ⟨n, hn⟩ := t
  cases n with
  | zero => exact rfl
  | succ n => exact (dif_pos h0).trans ((dif_neg h1).trans rfl)

/-- At a point of an inner key tile: over what the point before left in the scratch. -/
theorem pointAfter_inner (c : Dev nD) (t : Fin cfg1.N) (h0 : ¬t.val % 16 = 0) (h1 : ¬t.val % 16 = 15) :
    pointAfter V c t.val t.isLt = (idleOut, accInner c (grid1.coords t) (qM t) (qW t) (kM t) (kW t) (oM t) (oW t) accM (Memref.isWhole_whole _) (fun h => h0 ((first_iff t).mp h)) (fun h => h1 ((last_iff t).mp h)) (blockAt V c 0 t) (blockAt V c 1 t) (pointAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the last key tile. -/
theorem pointAfter_last (c : Dev nD) (t : Fin cfg1.N) (h0 : ¬t.val % 16 = 0) (h1 : t.val % 16 = 15) :
    pointAfter V c t.val t.isLt = (outLast c (grid1.coords t) (qM t) (qW t) (kM t) (kW t) (oM t) (oW t) accM (Memref.isWhole_whole _) (fun h => h0 ((first_iff t).mp h)) ((last_iff t).mpr h1) (blockAt V c 0 t) (blockAt V c 1 t) (pointAfter V c (t.val - 1) (Nat.lt_of_le_of_lt (Nat.sub_le _ _) t.isLt)).2,
      accLast c (grid1.coords t) (qM t) (qW t) (kM t) (kW t) (oM t) (oW t) accM (Memref.isWhole_whole _) (fun h => h0 ((first_iff t).mp h)) ((last_iff t).mpr h1) (blockAt V c 0 t) (blockAt V c 1 t) (pointAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch is carried from point to point -/

/-- Before position `n`: at the very start the region's plain invariant (the scratch at anything); afterwards the scratch
    at what point `n - 1` left, beside the other call's buffers and the generator register. -/
def carried (c : Dev nD) : (n : ℕ) → n ≤ cfg1.N → sProp 𝕄
  | 0, _ => Pipeline.ΦA spec1 c
  | n + 1, hn => iprop((owns (c : Thread nD τ) accM fullShare ((pointAfter V c n hn).2) ∗ otherScoped c) ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop((owns (c : Thread nD τ) accM fullShare ((pointAfter V c n hn).2) ∗ otherScoped c) ∗ (∃ r, prngReg c r)) := rfl

theorem carried_pos (c : Dev nD) (n : ℕ) (h : n ≤ cfg1.N) (hz : n ≠ 0) :
    carried V c n h = iprop((owns (c : Thread nD τ) accM fullShare ((pointAfter V c (n - 1) (by omega)).2) ∗ otherScoped c) ∗ (∃ r, prngReg c r)) := by
  cases n with
  | zero => exact absurd rfl hz
  | succ n => rfl

/-! ## The pipeline's proof data -/

/-- The arrays as the region finds them; after the body each input buffer at its block and the output buffer at
    `pointAfter`'s first component; the invariant `carried`; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => (pointAfter V c t.val t.isLt).1
  Φ t := carried V c t.val (Nat.le_of_lt_succ t.isLt)
  q _ := fullShare
  owed _ := 0

theorem A_eq (c : Dev nD) (w : Fin cfg1.W) : (dat V c).A w = V c (Pipeline.arrRef spec1 w) := by
  dsimp only [dat]

theorem carried_castSucc (c : Dev nD) (t : Fin cfg1.N) :
    (dat V c).Φ t.castSucc = carried V c t.val (Nat.le_of_lt t.isLt) := by
  dsimp only [dat]; simp only [Fin.coe_castSucc]

theorem after_query (c : Dev nD) (t : Fin cfg1.N) : (dat V c).after 0 t = blockAt V c 0 t := by dsimp only [dat]
theorem after_key (c : Dev nD) (t : Fin cfg1.N) : (dat V c).after 1 t = blockAt V c 1 t := by dsimp only [dat]
theorem after_out (c : Dev nD) (t : Fin cfg1.N) : (dat V c).after 2 t = (pointAfter V c t.val t.isLt).1 := by dsimp only [dat]

theorem before_query (c : Dev nD) (t : Fin cfg1.N) (d) : (dat V c).before 0 t d = blockAt V c 0 t :=
  query_before_of V (dat V c) (A_eq V c 0) (after_query V c) t d
theorem before_key (c : Dev nD) (t : Fin cfg1.N) (d) : (dat V c).before 1 t d = blockAt V c 1 t :=
  key_before_of V (dat V c) (A_eq V c 1) (after_key V c) t d

/-! ## The body's obligation at a point -/

/-- What the body is called with at point `t`: the invariant, the core owing nothing, and the three windows' current
    buffers at what they hold before the body. -/
def bodyPre (c : Dev nD) (t : Fin cfg1.N) : sProp 𝕄 :=
  iprop((dat V c).Φ t.castSucc ∗ (dat V c).owesAt () t.castSucc
    ∗ (∃ d, owns (c : Thread nD τ) (qM t) fullShare ((dat V c).before 0 t d))
    ∗ (∃ d, owns (c : Thread nD τ) (kM t) fullShare ((dat V c).before 1 t d))
    ∗ (∃ d, owns (c : Thread nD τ) (oM t) fullShare ((dat V c).before 2 t d)))

/-- What it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point.  The inputs' buffers hold their blocks; `t % 16` says which kind of point it is; the
    invariant hands over the scratch (at what the point before left, or at anything at the very first point, where the
    body overwrites it before reading), the run of that kind applies, and the scratch goes back into the invariant at
    this point's contents.  The output block is handed back untouched except at the last key tile. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_query, before_key]
  rw [show (dat V c).owesAt () t.succ = (dat V c).owesAt () t.castSucc from rfl]
  rw [show (dat V c).Φ t.succ = carried V c (t.val + 1) t.isLt from rfl, carried_succ]
  have hN : t.val < 128 := lt_of_lt_of_eq t.isLt (show cfg1.N = 128 from N_1)
  rw [show (dat V c).leavesExact 0 t = owns (c : Thread nD τ) (qM t) fullShare ((dat V c).after 0 t) from by
    unfold Dat.leavesExact; rw [query_live t], after_query]
  rw [show (dat V c).leavesExact 1 t = owns (c : Thread nD τ) (kM t) fullShare ((dat V c).after 1 t) from by
    unfold Dat.leavesExact; rw [key_live t], after_key]
  by_cases h0 : t.val % 16 = 0
  · have h1 : ¬t.val % 16 = 15 := by omega
    rw [Dat.leavesExact_idle (dat V c) 2 t (out_idle t (fun h => h1 ((last_iff t).mp h))) (out_noFlush t (fun h => h1 ((last_iff t).mp h)))]
    rw [pointAfter_first V c t h0 h1]
    unfold accFirst; (try dsimp only)
    by_cases hz : t.val = 0
    · rw [carried_castSucc V c t, carried_zero V c _ _ hz]
      refine (sep_mono (restOpen_in c) .rfl).trans ?_
      iintro ⟨⟨⟨HS, Hoth⟩, Hg⟩, Ho, ⟨%d0, H0⟩, ⟨%d1, H1⟩, ⟨%d2, H2⟩⟩
      iapply ((runFirst c (grid1.coords t) _ _ _ _ _ _ _ _ ((first_iff t).mpr h0) (fun h => h1 ((last_iff t).mp h)) (blockAt V c 0 t) (blockAt V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
    · rw [carried_castSucc V c t, carried_pos V c _ _ hz]
      iintro ⟨⟨⟨HS, Hoth⟩, Hg⟩, Ho, ⟨%d0, H0⟩, ⟨%d1, H1⟩, ⟨%d2, H2⟩⟩
      iapply ((runFirst c (grid1.coords t) _ _ _ _ _ _ _ _ ((first_iff t).mpr h0) (fun h => h1 ((last_iff t).mp h)) (blockAt V c 0 t) (blockAt V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (oM t) fullShare ((dat V c).after 2 t) from by
        unfold Dat.leavesExact; rw [out_live t ((last_iff t).mpr h1)], after_out]
      rw [pointAfter_last V c t h0 h1]
      unfold outLast accLast; (try dsimp only)
      rw [carried_castSucc V c t, carried_pos V c _ _ hz]
      iintro ⟨⟨⟨HS, Hoth⟩, Hg⟩, Ho, ⟨%d0, H0⟩, ⟨%d1, H1⟩, ⟨%d2, H2⟩⟩
      iapply ((runLast c (grid1.coords t) _ _ _ _ _ _ _ _ (fun h => h0 ((first_iff t).mp h)) ((last_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · rw [Dat.leavesExact_idle (dat V c) 2 t (out_idle t (fun h => h1 ((last_iff t).mp h))) (out_noFlush t (fun h => h1 ((last_iff t).mp h)))]
      rw [pointAfter_inner V c t h0 h1]
      unfold accInner; (try dsimp only)
      rw [carried_castSucc V c t, carried_pos V c _ _ hz]
      iintro ⟨⟨⟨HS, Hoth⟩, Hg⟩, Ho, ⟨%d0, H0⟩, ⟨%d1, H1⟩, ⟨%d2, H2⟩⟩
      iapply ((runInner c (grid1.coords t) _ _ _ _ _ _ _ _ (fun h => h0 ((first_iff t).mp h)) (fun h => h1 ((last_iff t).mp h)) (blockAt V c 0 t) (blockAt V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accInner_cover c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem carried_in (c : Dev nD) : Pipeline.ΦA spec1 c ⊢ (dat V c).Φ 0 := by
  rw [show (dat V c).Φ 0 = carried V c 0 (Nat.zero_le _) from rfl, carried_zero V c 0 _ rfl]
  try exact Idealize.SL.BI.Entails.refl _

/-- After any point the invariant gives the plain one back: what the scratch holds is forgotten. -/
theorem carried_out (c : Dev nD) (t : Fin (cfg1.N + 1)) (ht : t.val ≠ 0) : (dat V c).Φ t ⊢ Pipeline.ΦA spec1 c := by
  rw [show (dat V c).Φ t = carried V c t.val (Nat.le_of_lt_succ t.isLt) from rfl, carried_pos V c _ _ ht]
  refine .trans ?_ (restOpen_out c)
  iintro ⟨⟨HS, Hoth⟩, Hg⟩
  isplitl [HS Hoth]
  · isplitl [HS]; · iexists _; iexact HS
    iexact Hoth
  iexact Hg

/-- In particular after the last point. -/
theorem carried_last (c : Dev nD) : (dat V c).Φ (Fin.last cfg1.N) ⊢ Pipeline.ΦA spec1 c :=
  carried_out V c _ (by rw [Fin.val_last]; have : cfg1.N = 128 := N_1; omega)

end Cert.Kernel.Region1

end
-- ==== Proof.Bits.Launch.lean ====
/-
  The whole program: the first pallas_call, the second, then the host operations that average the two results.

  Between these three items every buffer that outlives a pallas_call holds known contents: at launch the memory the
  program is started on; after a pallas_call its arrays at what the write-backs of its output blocks leave (its input
  arrays unchanged) and everything else as before; after the host operations their results.  The run threads these
  contents through the three items and ends with every such buffer at the last of them.  Both arguments are inputs of
  both pallas_calls and no host operation writes them, so they end as launched.
-/
import proofs.«137223_j18863496364104_1_alg».proof.Proof.Bits.Region0
import proofs.«137223_j18863496364104_1_alg».proof.Proof.Bits.Region1
import proofs.«137223_j18863496364104_1_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m ((c : Dev nD), b)
/-- The same read at the TensorCore's references: what the first pallas_call finds. -/
abbrev V0 : (c : Dev nD) → (b : Ref sig .tc) → Buf (Elt F) ((c : Thread nD τ).loc b) := fun c b => W0 m c b

/-- After the first pallas_call: its arrays at what its pipeline leaves, every other buffer as before. -/
def W1 (c : Dev nD) : Valuation τ sig (Elt F) :=
  Pipeline.withArrays spec0 c (W0 m c) fun w => (Region0.dat (V0 m) c).arrAt w cfg0.N
theorem W1_arr (c : Dev nD) (w : Fin cfg0.W) :
    W1 m c (Proc.devRef .tc (Pipeline.arrRef spec0 w)) = (Region0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Region0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pallas_call, likewise. -/
def W2 (c : Dev nD) : Valuation τ sig (Elt F) :=
  Pipeline.withArrays spec1 c (W1 m c) fun w => (Region1.dat (V1 m) c).arrAt w cfg1.N
theorem W2_arr (c : Dev nD) (w : Fin cfg1.W) :
    W2 m c (Proc.devRef .tc (Pipeline.arrRef spec1 w)) = (Region1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Region1.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations. -/
abbrev W3 : Dev nD → Valuation τ sig (Elt F) := fun c => StableHlo.after hostOps2 (W2 m c)

/-! ## The arguments end as launched -/

/-- The first argument is the query array of the first pallas_call and the key array of the second; the host
    operations do not write it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := (W2_arr m c 1).trans (((Region1.dat (V1 m) c).arrAt_in 1 rfl _).trans (Region1.A_eq (V1 m) c 1))
    _ = W0 m c (Proc.devRef .tc main_arg0) := (W1_arr m c 0).trans (((Region0.dat (V0 m) c).arrAt_in 0 rfl _).trans (Region0.A_eq (V0 m) c 0))
    _ = m ((c : Thread nD τ).loc main_arg0) := rfl

/-- The second argument is the key array of the first pallas_call and the query array of the second. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := (W2_arr m c 0).trans (((Region1.dat (V1 m) c).arrAt_in 0 rfl _).trans (Region1.A_eq (V1 m) c 0))
    _ = W0 m c (Proc.devRef .tc main_arg1) := (W1_arr m c 1).trans (((Region0.dat (V0 m) c).arrAt_in 1 rfl _).trans (Region0.A_eq (V0 m) c 1))
    _ = m ((c : Thread nD τ).loc main_arg1) := rfl

/-! ## The proof data of both pipelines, and what rides beside the buffers -/

abbrev adm : (p : Fin 2) → (pcfgs (F := F) p).Adm := fun p => (cfgs p).toPCfg_adm
/-- Each pipeline's proof data at the contents its pallas_call is entered with. -/
def pdats : (p : Fin 2) → (c : Dev nD) → Dat τ (Elt F) Unit ℕ (UR sig nD τ) ℕ (Pipeline.pin (pcfgs (F := F)) adm p) c
  | ⟨0, _⟩ => fun c => Region0.dat (V0 m) c
  | ⟨1, _⟩ => fun c => Region1.dat (V1 m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of the thread: every buffer that outlives the pallas_calls at the final contents. -/
abbrev Tₙ (c : Dev nD) : sProp 𝕄 := iprop(StableHlo.held (c : Thread nD τ) (Pipeline.ucRefs τ sig) (W3 m c) ∗ ∃ r, prngReg c r)

/-! ## The two pallas_calls as items of the run -/

set_option backward.isDefEq.respectTransparency.types false in
/-- The first pallas_call: entered with every such buffer at the launch contents, left with them at `W1`.  Its arrays are
    split out of the buffers on entry and put back on exit; the scratch enters and leaves inside the plain invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Region0.carried_in (V0 m) c)
    unfold Pipeline.ΦA
    iintro ⟨Hp, -, Hr⟩
    isplitl [Hr]; · iexact Hr
    iexact Hp
  hout c := by
    rw [Pipeline.ownSems0_none]
    refine (Region0.carried_last (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Region1.carried_in (V1 m) c)
    unfold Pipeline.ΦA
    iintro ⟨Hp, -, Hr⟩
    isplitl [Hr]; · iexact Hr
    iexact Hp
  hout c := by
    rw [Pipeline.ownSems0_none]
    refine (Region1.carried_last (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's three items in order. -/
abbrev segs : List (Pipeline.Seg (pcfgs (F := F)) adm (pdats m) () defs₀ 𝒱₀ L lv) :=
  [ .region (reg0 m),
    .region (reg1 m),
    .host (Pipeline.HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (W2 m) R) ]

theorem main_run (c : Dev nD) : main (F := F) c = Pipeline.Seg.run (segs m) := (main_chain c).trans (by chain_rfl)

set_option backward.isDefEq.respectTransparency.types false in
/-- From any memory with every counter at zero, every weakly fair execution of the program on the TensorCores
    terminates without a fault, and in every final state each buffer that outlives the pallas_calls holds the last
    contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the program runs to the end without a fault and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m c),
     (h c _ (mem_uc main_arg1 (by decide))).trans (W3_main_arg1 m c)⟩) (run_all m ρ)

end Cert.Kernel.Whole

end
-- ==== Proof.Runs0.lean ====
/-
  The first pallas_call of the program, one grid point at a time.

  The grid has 8 x 16 points; point t has query tile t / 16 and key tile t % 16.  At every point the body holds a
  block of 512 query points (window 0), a block of 256 key points (window 1), the output block of the query tile
  (window 2) and a scratch buffer of one value per query point, which survives from point to point.  The body
  * refills the scratch with the top value when the key tile is the first (t % 16 = 0),
  * lowers every scratch entry by the least distance to the 256 key points of the block, and
  * copies the scratch into the output block when the key tile is the last (t % 16 = 15), which is also the only
    point of a query tile at which the output block is written back.
  So three kinds of point occur: first key tile, inner key tile, last key tile.  This file states, for each kind, what
  a run of the body leaves in the scratch and in the output block, as the lists of pieces its stores wrote.
-/
import proofs.«137223_j18863496364104_1_alg».proof.Proof.Gen.KernelIdeal.Launch
import proofs.«137223_j18863496364104_1_alg».proof.Proof.Gen.KernelIdeal.Skeleton
import proofs.«137223_j18863496364104_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement below is relative to them
variable (V : (c : Dev nD) → (b : Ref sig .tc) → Buf (Elt F) ((c : Thread nD τ).loc b))

/-! ## The blocks of the windows -/

/-- The block of window `w` at point `t`, cut out of the window's array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's buffer holds the query block of the point at every point: it is fetched when the query tile
    changes and otherwise the block has not moved. -/
theorem query_before_of {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key window's buffer holds the key block of the point at every point (it is fetched at every point). -/
theorem key_before_of {c : Dev nD} (dat : Dat τ (Elt F) Unit ℕ (UR sig nD τ) ℕ cfg0 c) (hA : dat.A 1 = V c (Pipeline.arrRef spec0 1))
    (hafter : ∀ t, dat.after 1 t = blockAt V c 1 t) (t : Fin cfg0.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions of the body, over the grid -/

/-- "This is the first key tile": the body's first condition, as it computes it from the key-tile coordinate. -/
abbrev isFirst (i : grid0.Coords) : Prop := (Scalar.cmpi .ne (Scalar.extui (Scalar.cmpi .eq (BitVec.ofNat 32 (i 1).val) 0#32)) 0#32) = 1#1
/-- It holds exactly at the points whose key tile is 0. -/
theorem first_iff : ∀ t : Fin cfg0.N, isFirst (grid0.coords t) ↔ t.val % 16 = 0 :=
  (by decide +kernel : ∀ t : Fin grid0.N, isFirst (grid0.coords t) ↔ t.val % 16 = 0)

/-- "This is the last key tile": the body's second condition. -/
abbrev isLast (i : grid0.Coords) : Prop := k0_cond2 i = 1#1
/-- It holds exactly at the points whose key tile is 15. -/
theorem last_iff : ∀ t : Fin cfg0.N, isLast (grid0.coords t) ↔ t.val % 16 = 15 :=
  (by decide +kernel : ∀ t : Fin grid0.N, isLast (grid0.coords t) ↔ t.val % 16 = 15)

/-! ## Where the windows are idle -/

theorem query_live : ∀ t : Fin cfg0.N, cfg0.idle 0 (grid0.coords t) = false := by decide +kernel
theorem key_live : ∀ t : Fin cfg0.N, cfg0.idle 1 (grid0.coords t) = false := by decide +kernel
/-- Away from the last key tile the body stores nothing into the output block: the window is idle there, -/
theorem out_idle : ∀ t : Fin cfg0.N, ¬isLast (grid0.coords t) → cfg0.idle 2 (grid0.coords t) = true := by decide +kernel
/-- and the block is not written back there. -/
theorem out_noFlush : ∀ t : Fin cfg0.N, ¬isLast (grid0.coords t) → (cfg0.win 2).flush t = false := by decide +kernel
/-- At the last key tile the output block is live. -/
theorem out_live : ∀ t : Fin cfg0.N, isLast (grid0.coords t) → cfg0.idle 2 (grid0.coords t) = false := by decide +kernel

/-! ## The memrefs the body is called with -/

abbrev qM (t : Fin cfg0.N) : Memref sig .tc .vmem S8x512x3 .f32 := win0_0.stage (cfg0.slots t 0)
abbrev qW (t : Fin cfg0.N) : (qM t).IsWhole := hstage0_0 ((cfg0.slots t 0).cast nbuf0_0)
abbrev kM (t : Fin cfg0.N) : Memref sig .tc .vmem S8x256x3 .f32 := win0_1.stage (cfg0.slots t 1)
abbrev kW (t : Fin cfg0.N) : (kM t).IsWhole := hstage0_1 ((cfg0.slots t 1).cast nbuf0_1)
abbrev oM (t : Fin cfg0.N) : Memref sig .tc .vmem S8x512 .f32 := win0_2.stage (cfg0.slots t 2)
abbrev oW (t : Fin cfg0.N) : (oM t).IsWhole := hstage0_2 ((cfg0.slots t 2).cast nbuf0_2)
/-- The scratch: a whole buffer of the kernel's own, the same at every point. -/
abbrev accM : Memref sig .tc .vmem S8x512 .f32 := Memref.whole cc0_scratch0
/-- One view through which the scratch's contents are stated, and one for the output block's. -/
abbrev accV : View sig .tc .vmem S8x512 .f32 := accM.view
abbrev outV : View sig .tc .vmem S8x512 .f32 := (Memref.whole cc0_stg2_0 : Memref sig .tc .vmem S8x512 .f32).view

/-- The scoped buffers of the program's other pallas_call, each at some contents: this region never touches them, and
    they ride through it inside its invariant. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- With nothing known about the scratch, the region's invariant is: the scratch at some contents, the other call's
    buffers, and the generator register at some state. -/
theorem restOpen_in (c : Dev nD) :
    (Pipeline.ΦA spec0 c : sProp 𝕄)
      ⊢ iprop(((∃ d, owns (c : Thread nD τ) accM fullShare d) ∗ otherScoped c) ∗ (∃ r, prngReg c r)) := by
  unfold Pipeline.ΦA otherScoped; rw [scopedRest0_eq]; simp only [accM, owns_whole]
  iintro ⟨⟨HS, H1, H2, H3, H4, H5, H6, H7⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- And back: whatever the scratch holds, those three make the invariant again. -/
theorem restOpen_out (c : Dev nD) :
    iprop(((∃ d, owns (c : Thread nD τ) accM fullShare d) ∗ otherScoped (F := F) c) ∗ (∃ r, prngReg c r))
      ⊢ (Pipeline.ΦA spec0 c : sProp 𝕄) := by
  unfold Pipeline.ΦA otherScoped; rw [scopedRest0_eq]; simp only [accM, owns_whole]
  iintro ⟨⟨HS, H1, H2, H3, H4, H5, H6, H7⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-! ## The body at each kind of point -/

set_option maxHeartbeats 1000000 in
/-- FIRST KEY TILE.  From the query and key blocks, the output block at anything (handed back untouched) and the
    scratch at anything, the body ends with the scratch overwritten by the pieces `LS` (the refill, then the
    lowered values), found by running it. -/
noncomputable def runFirst (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) :
    { LS : List (View.Piece (Elt F) S8x512 .f32) //
      ∀ (xo : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__rowmin_kernel i arg2 harg2 arg3 harg3 arg4 harg4 arg5 harg5) K } := by
  refine ⟨?_, fun xo E K => ?run⟩
  case run =>
    simp only [cc0__rowmin_kernel_eq_skeleton]; unfold cc0__rowmin_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- INNER KEY TILE.  The same with the scratch at the contents `xs` the point before left: it ends overwritten by
    the pieces `LS` (the lowered values). -/
noncomputable def runInner (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) :
    { LS : List (View.Piece (Elt F) S8x512 .f32) //
      ∀ (xo : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc0__rowmin_kernel i arg2 harg2 arg3 harg3 arg4 harg4 arg5 harg5) K } := by
  refine ⟨?_, fun xo E K => ?run⟩
  case run =>
    simp only [cc0__rowmin_kernel_eq_skeleton]; unfold cc0__rowmin_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- LAST KEY TILE.  The scratch at `xs`, the output block at anything: the scratch ends overwritten by `LS` (the
    lowered values) and the output block by `LO` (a copy of the scratch). -/
noncomputable def runLast (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) :
    Σ' (LO : List (View.Piece (Elt F) S8x512 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__rowmin_kernel i arg2 harg2 arg3 harg3 arg4 harg4 arg5 harg5) K } := by
  refine ⟨?_, ?_, fun E K => ?run⟩
  case run =>
    simp only [cc0__rowmin_kernel_eq_skeleton]; unfold cc0__rowmin_kernel_skel
    unfold owns
    iintro ⟨⟨%f0, %hf0, H0⟩, ⟨%f1, %hf1, H1⟩, ⟨%d4, %fo, -, HO⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.KernelIdeal.Region0

end
-- ==== Proof.Region0.lean ====
/-
  The first pallas_call as a whole: what its scratch and its output block hold after every grid point, the proof data
  of its pipeline, and the body's obligation at every point.

  Point t belongs to query tile t / 16 and key tile t % 16.  After a point of the first key tile the scratch holds the
  refill lowered by that tile; after any later point it holds what the point before left, lowered by this point's key
  tile; at the last key tile the output block receives a copy.  The scratch is therefore defined by recursion on the
  point, and the region's invariant before a point that is not the very first says that the scratch holds exactly what
  the point before left.  Before the very first point, and after the last, the scratch is just some buffer.
-/
import proofs.«137223_j18863496364104_1_alg».proof.Proof.Runs0

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves, read back from the pieces its run found -/

/-- A point of the first key tile: the scratch afterwards. -/
def accFirst (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) : Vec F S8x512 .f32 :=
  accV.read (Elt F) (accV.writes (Elt F) accV.junk (runFirst c i arg2 harg2 arg3 harg3 arg4 harg4 arg5 harg5 hc0 hc1 x0 x1).1)
/-- Its pieces tile the scratch, so they cover it. -/
theorem accFirst_cover (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) (y : S8x512.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S8x512.size (by sl_kernel_rfl) y

/-- A point of an inner key tile: the scratch afterwards, from what it held before (`xs`). -/
def accInner (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) : Vec F S8x512 .f32 :=
  accV.read (Elt F) (accV.writes (Elt F) accV.junk (runInner c i arg2 harg2 arg3 harg3 arg4 harg4 arg5 harg5 hc0 hc1 x0 x1 xs).1)
theorem accInner_cover (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) (y : S8x512.Idx) :
    ∃ pc ∈ (runInner c i arg2 harg2 arg3 harg3 arg4 harg4 arg5 harg5 hc0 hc1 x0 x1 xs).1, y ∈ pc.1.set :=
  View.cover_of_tiledL (runInner c i arg2 harg2 arg3 harg3 arg4 harg4 arg5 harg5 hc0 hc1 x0 x1 xs).1 S8x512.size (by sl_kernel_rfl) y

/-- A point of the last key tile: the scratch afterwards, -/
def accLast (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) : Vec F S8x512 .f32 :=
  accV.read (Elt F) (accV.writes (Elt F) accV.junk (runLast c i arg2 harg2 arg3 harg3 arg4 harg4 arg5 harg5 hc0 hc1 x0 x1 xs).2.1)
theorem accLast_cover (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) (y : S8x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S8x512.size (by sl_kernel_rfl) y
/-- and the output block. -/
def outLast (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) : Vec F S8x512 .f32 :=
  outV.read (Elt F) (outV.writes (Elt F) outV.junk (runLast c i arg2 harg2 arg3 harg3 arg4 harg4 arg5 harg5 hc0 hc1 x0 x1 xs).1)
theorem outLast_cover (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) (y : S8x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S8x512.size (by sl_kernel_rfl) y

/-- The output block where the body does not store into it: a placeholder nothing consults (the window is idle and
    not written back at those points). -/
def idleOut : Vec F S8x512 .f32 := outV.read (Elt F) (outV.writes (Elt F) outV.junk [])

/-! ## Point by point -/

/-- What the output block (first component) and the scratch (second) hold after the body at point `n`. -/
def pointAfter (c : Dev nD) : (n : ℕ) → n < cfg0.N → Vec F S8x512 .f32 × Vec F S8x512 .f32
  | 0, hn => (idleOut, accFirst c (grid0.coords ⟨0, hn⟩) (qM ⟨0, hn⟩) (qW ⟨0, hn⟩) (kM ⟨0, hn⟩) (kW ⟨0, hn⟩) (oM ⟨0, hn⟩) (oW ⟨0, hn⟩) accM (Memref.isWhole_whole _) ((first_iff ⟨0, hn⟩).mpr (Nat.zero_mod _)) (fun h => (fun h => by (try dsimp only at h); omega) ((last_iff ⟨0, hn⟩).mp h)) (blockAt V c 0 ⟨0, hn⟩) (blockAt V c 1 ⟨0, hn⟩))
  | n + 1, hn =>
    if h0 : (n + 1) % 16 = 0 then
      if h1 : (n + 1) % 16 = 15 then
        False.elim (by omega)
      else
        (idleOut, accFirst c (grid0.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) ((first_iff ⟨n + 1, hn⟩).mpr h0) (fun h => h1 ((last_iff ⟨n + 1, hn⟩).mp h)) (blockAt V c 0 ⟨n + 1, hn⟩) (blockAt V c 1 ⟨n + 1, hn⟩))
    else
      if h1 : (n + 1) % 16 = 15 then
        (outLast c (grid0.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) ((last_iff ⟨n + 1, hn⟩).mpr h1) (blockAt V c 0 ⟨n + 1, hn⟩) (blockAt V c 1 ⟨n + 1, hn⟩) (pointAfter c n (Nat.lt_of_succ_lt hn)).2,
         accLast c (grid0.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) ((last_iff ⟨n + 1, hn⟩).mpr h1) (blockAt V c 0 ⟨n + 1, hn⟩) (blockAt V c 1 ⟨n + 1, hn⟩) (pointAfter c n (Nat.lt_of_succ_lt hn)).2)
      else
        (idleOut, accInner c (grid0.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) (fun h => h1 ((last_iff ⟨n + 1, hn⟩).mp h)) (blockAt V c 0 ⟨n + 1, hn⟩) (blockAt V c 1 ⟨n + 1, hn⟩) (pointAfter c n (Nat.lt_of_succ_lt hn)).2)

/-- At a point of the first key tile. -/
theorem pointAfter_first (c : Dev nD) (t : Fin cfg0.N) (h0 : t.val % 16 = 0) (h1 : ¬t.val % 16 = 15) :
    pointAfter V c t.val t.isLt = (idleOut, accFirst c (grid0.coords t) (qM t) (qW t) (kM t) (kW t) (oM t) (oW t) accM (Memref.isWhole_whole _) ((first_iff t).mpr h0) (fun h => h1 ((last_iff t).mp h)) (blockAt V c 0 t) (blockAt V c 1 t)) := by
  obtain ⟨n, hn⟩ := t
  cases n with
  | zero => exact rfl
  | succ n => exact (dif_pos h0).trans ((dif_neg h1).trans rfl)

/-- At a point of an inner key tile: over what the point before left in the scratch. -/
theorem pointAfter_inner (c : Dev nD) (t : Fin cfg0.N) (h0 : ¬t.val % 16 = 0) (h1 : ¬t.val % 16 = 15) :
    pointAfter V c t.val t.isLt = (idleOut, accInner c (grid0.coords t) (qM t) (qW t) (kM t) (kW t) (oM t) (oW t) accM (Memref.isWhole_whole _) (fun h => h0 ((first_iff t).mp h)) (fun h => h1 ((last_iff t).mp h)) (blockAt V c 0 t) (blockAt V c 1 t) (pointAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the last key tile. -/
theorem pointAfter_last (c : Dev nD) (t : Fin cfg0.N) (h0 : ¬t.val % 16 = 0) (h1 : t.val % 16 = 15) :
    pointAfter V c t.val t.isLt = (outLast c (grid0.coords t) (qM t) (qW t) (kM t) (kW t) (oM t) (oW t) accM (Memref.isWhole_whole _) (fun h => h0 ((first_iff t).mp h)) ((last_iff t).mpr h1) (blockAt V c 0 t) (blockAt V c 1 t) (pointAfter V c (t.val - 1) (Nat.lt_of_le_of_lt (Nat.sub_le _ _) t.isLt)).2,
      accLast c (grid0.coords t) (qM t) (qW t) (kM t) (kW t) (oM t) (oW t) accM (Memref.isWhole_whole _) (fun h => h0 ((first_iff t).mp h)) ((last_iff t).mpr h1) (blockAt V c 0 t) (blockAt V c 1 t) (pointAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch is carried from point to point -/

/-- Before position `n`: at the very start the region's plain invariant (the scratch at anything); afterwards the scratch
    at what point `n - 1` left, beside the other call's buffers and the generator register. -/
def carried (c : Dev nD) : (n : ℕ) → n ≤ cfg0.N → sProp 𝕄
  | 0, _ => Pipeline.ΦA spec0 c
  | n + 1, hn => iprop((owns (c : Thread nD τ) accM fullShare ((pointAfter V c n hn).2) ∗ otherScoped c) ∗ (∃ r, prngReg c r))

theorem carried_zero (c : Dev nD) (n : ℕ) (h : n ≤ cfg0.N) (hz : n = 0) : carried V c n h = Pipeline.ΦA spec0 c := by
  subst hz; rfl

theorem carried_succ (c : Dev nD) (n : ℕ) (hn : n < cfg0.N) :
    carried V c (n + 1) hn = iprop((owns (c : Thread nD τ) accM fullShare ((pointAfter V c n hn).2) ∗ otherScoped c) ∗ (∃ r, prngReg c r)) := rfl

theorem carried_pos (c : Dev nD) (n : ℕ) (h : n ≤ cfg0.N) (hz : n ≠ 0) :
    carried V c n h = iprop((owns (c : Thread nD τ) accM fullShare ((pointAfter V c (n - 1) (by omega)).2) ∗ otherScoped c) ∗ (∃ r, prngReg c r)) := by
  cases n with
  | zero => exact absurd rfl hz
  | succ n => rfl

/-! ## The pipeline's proof data -/

/-- The arrays as the region finds them; after the body each input buffer at its block and the output buffer at
    `pointAfter`'s first component; the invariant `carried`; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => (pointAfter V c t.val t.isLt).1
  Φ t := carried V c t.val (Nat.le_of_lt_succ t.isLt)
  q _ := fullShare
  owed _ := 0

theorem A_eq (c : Dev nD) (w : Fin cfg0.W) : (dat V c).A w = V c (Pipeline.arrRef spec0 w) := by
  dsimp only [dat]

theorem carried_castSucc (c : Dev nD) (t : Fin cfg0.N) :
    (dat V c).Φ t.castSucc = carried V c t.val (Nat.le_of_lt t.isLt) := by
  dsimp only [dat]; simp only [Fin.coe_castSucc]

theorem after_query (c : Dev nD) (t : Fin cfg0.N) : (dat V c).after 0 t = blockAt V c 0 t := by dsimp only [dat]
theorem after_key (c : Dev nD) (t : Fin cfg0.N) : (dat V c).after 1 t = blockAt V c 1 t := by dsimp only [dat]
theorem after_out (c : Dev nD) (t : Fin cfg0.N) : (dat V c).after 2 t = (pointAfter V c t.val t.isLt).1 := by dsimp only [dat]

theorem before_query (c : Dev nD) (t : Fin cfg0.N) (d) : (dat V c).before 0 t d = blockAt V c 0 t :=
  query_before_of V (dat V c) (A_eq V c 0) (after_query V c) t d
theorem before_key (c : Dev nD) (t : Fin cfg0.N) (d) : (dat V c).before 1 t d = blockAt V c 1 t :=
  key_before_of V (dat V c) (A_eq V c 1) (after_key V c) t d

/-! ## The body's obligation at a point -/

/-- What the body is called with at point `t`: the invariant, the core owing nothing, and the three windows' current
    buffers at what they hold before the body. -/
def bodyPre (c : Dev nD) (t : Fin cfg0.N) : sProp 𝕄 :=
  iprop((dat V c).Φ t.castSucc ∗ (dat V c).owesAt () t.castSucc
    ∗ (∃ d, owns (c : Thread nD τ) (qM t) fullShare ((dat V c).before 0 t d))
    ∗ (∃ d, owns (c : Thread nD τ) (kM t) fullShare ((dat V c).before 1 t d))
    ∗ (∃ d, owns (c : Thread nD τ) (oM t) fullShare ((dat V c).before 2 t d)))

/-- What it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point.  The inputs' buffers hold their blocks; `t % 16` says which kind of point it is; the
    invariant hands over the scratch (at what the point before left, or at anything at the very first point, where the
    body overwrites it before reading), the run of that kind applies, and the scratch goes back into the invariant at
    this point's contents.  The output block is handed back untouched except at the last key tile. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_query, before_key]
  rw [show (dat V c).owesAt () t.succ = (dat V c).owesAt () t.castSucc from rfl]
  rw [show (dat V c).Φ t.succ = carried V c (t.val + 1) t.isLt from rfl, carried_succ]
  have hN : t.val < 128 := lt_of_lt_of_eq t.isLt (show cfg0.N = 128 from N_0)
  rw [show (dat V c).leavesExact 0 t = owns (c : Thread nD τ) (qM t) fullShare ((dat V c).after 0 t) from by
    unfold Dat.leavesExact; rw [query_live t], after_query]
  rw [show (dat V c).leavesExact 1 t = owns (c : Thread nD τ) (kM t) fullShare ((dat V c).after 1 t) from by
    unfold Dat.leavesExact; rw [key_live t], after_key]
  by_cases h0 : t.val % 16 = 0
  · have h1 : ¬t.val % 16 = 15 := by omega
    rw [Dat.leavesExact_idle (dat V c) 2 t (out_idle t (fun h => h1 ((last_iff t).mp h))) (out_noFlush t (fun h => h1 ((last_iff t).mp h)))]
    rw [pointAfter_first V c t h0 h1]
    unfold accFirst; (try dsimp only)
    by_cases hz : t.val = 0
    · rw [carried_castSucc V c t, carried_zero V c _ _ hz]
      refine (sep_mono (restOpen_in c) .rfl).trans ?_
      iintro ⟨⟨⟨HS, Hoth⟩, Hg⟩, Ho, ⟨%d0, H0⟩, ⟨%d1, H1⟩, ⟨%d2, H2⟩⟩
      iapply ((runFirst c (grid0.coords t) _ _ _ _ _ _ _ _ ((first_iff t).mpr h0) (fun h => h1 ((last_iff t).mp h)) (blockAt V c 0 t) (blockAt V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
    · rw [carried_castSucc V c t, carried_pos V c _ _ hz]
      iintro ⟨⟨⟨HS, Hoth⟩, Hg⟩, Ho, ⟨%d0, H0⟩, ⟨%d1, H1⟩, ⟨%d2, H2⟩⟩
      iapply ((runFirst c (grid0.coords t) _ _ _ _ _ _ _ _ ((first_iff t).mpr h0) (fun h => h1 ((last_iff t).mp h)) (blockAt V c 0 t) (blockAt V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (oM t) fullShare ((dat V c).after 2 t) from by
        unfold Dat.leavesExact; rw [out_live t ((last_iff t).mpr h1)], after_out]
      rw [pointAfter_last V c t h0 h1]
      unfold outLast accLast; (try dsimp only)
      rw [carried_castSucc V c t, carried_pos V c _ _ hz]
      iintro ⟨⟨⟨HS, Hoth⟩, Hg⟩, Ho, ⟨%d0, H0⟩, ⟨%d1, H1⟩, ⟨%d2, H2⟩⟩
      iapply ((runLast c (grid0.coords t) _ _ _ _ _ _ _ _ (fun h => h0 ((first_iff t).mp h)) ((last_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · rw [Dat.leavesExact_idle (dat V c) 2 t (out_idle t (fun h => h1 ((last_iff t).mp h))) (out_noFlush t (fun h => h1 ((last_iff t).mp h)))]
      rw [pointAfter_inner V c t h0 h1]
      unfold accInner; (try dsimp only)
      rw [carried_castSucc V c t, carried_pos V c _ _ hz]
      iintro ⟨⟨⟨HS, Hoth⟩, Hg⟩, Ho, ⟨%d0, H0⟩, ⟨%d1, H1⟩, ⟨%d2, H2⟩⟩
      iapply ((runInner c (grid0.coords t) _ _ _ _ _ _ _ _ (fun h => h0 ((first_iff t).mp h)) (fun h => h1 ((last_iff t).mp h)) (blockAt V c 0 t) (blockAt V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accInner_cover c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem carried_in (c : Dev nD) : Pipeline.ΦA spec0 c ⊢ (dat V c).Φ 0 := by
  rw [show (dat V c).Φ 0 = carried V c 0 (Nat.zero_le _) from rfl, carried_zero V c 0 _ rfl]
  try exact Idealize.SL.BI.Entails.refl _

/-- After any point the invariant gives the plain one back: what the scratch holds is forgotten. -/
theorem carried_out (c : Dev nD) (t : Fin (cfg0.N + 1)) (ht : t.val ≠ 0) : (dat V c).Φ t ⊢ Pipeline.ΦA spec0 c := by
  rw [show (dat V c).Φ t = carried V c t.val (Nat.le_of_lt_succ t.isLt) from rfl, carried_pos V c _ _ ht]
  refine .trans ?_ (restOpen_out c)
  iintro ⟨⟨HS, Hoth⟩, Hg⟩
  isplitl [HS Hoth]
  · isplitl [HS]; · iexists _; iexact HS
    iexact Hoth
  iexact Hg

/-- In particular after the last point. -/
theorem carried_last (c : Dev nD) : (dat V c).Φ (Fin.last cfg0.N) ⊢ Pipeline.ΦA spec0 c :=
  carried_out V c _ (by rw [Fin.val_last]; have : cfg0.N = 128 := N_0; omega)

end Cert.KernelIdeal.Region0

end
-- ==== Proof.Runs1.lean ====
/-
  The second pallas_call of the program, one grid point at a time.

  The grid has 8 x 16 points; point t has query tile t / 16 and key tile t % 16.  At every point the body holds a
  block of 512 query points (window 0), a block of 256 key points (window 1), the output block of the query tile
  (window 2) and a scratch buffer of one value per query point, which survives from point to point.  The body
  * refills the scratch with the top value when the key tile is the first (t % 16 = 0),
  * lowers every scratch entry by the least distance to the 256 key points of the block, and
  * copies the scratch into the output block when the key tile is the last (t % 16 = 15), which is also the only
    point of a query tile at which the output block is written back.
  So three kinds of point occur: first key tile, inner key tile, last key tile.  This file states, for each kind, what
  a run of the body leaves in the scratch and in the output block, as the lists of pieces its stores wrote.
-/
import proofs.«137223_j18863496364104_1_alg».proof.Proof.Gen.KernelIdeal.Launch
import proofs.«137223_j18863496364104_1_alg».proof.Proof.Gen.KernelIdeal.Skeleton
import proofs.«137223_j18863496364104_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: every statement below is relative to them
variable (V : (c : Dev nD) → (b : Ref sig .tc) → Buf (Elt F) ((c : Thread nD τ).loc b))

/-! ## The blocks of the windows -/

/-- The block of window `w` at point `t`, cut out of the window's array as the region finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds the query block of the point at every point: it is fetched when the query tile
    changes and otherwise the block has not moved. -/
theorem query_before_of {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The key window's buffer holds the key block of the point at every point (it is fetched at every point). -/
theorem key_before_of {c : Dev nD} (dat : Dat τ (Elt F) Unit ℕ (UR sig nD τ) ℕ cfg1 c) (hA : dat.A 1 = V c (Pipeline.arrRef spec1 1))
    (hafter : ∀ t, dat.after 1 t = blockAt V c 1 t) (t : Fin cfg1.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## The two conditions of the body, over the grid -/

/-- "This is the first key tile": the body's first condition, as it computes it from the key-tile coordinate. -/
abbrev isFirst (i : grid1.Coords) : Prop := (Scalar.cmpi .ne (Scalar.extui (Scalar.cmpi .eq (BitVec.ofNat 32 (i 1).val) 0#32)) 0#32) = 1#1
/-- It holds exactly at the points whose key tile is 0. -/
theorem first_iff : ∀ t : Fin cfg1.N, isFirst (grid1.coords t) ↔ t.val % 16 = 0 :=
  (by decide +kernel : ∀ t : Fin grid1.N, isFirst (grid1.coords t) ↔ t.val % 16 = 0)

/-- "This is the last key tile": the body's second condition. -/
abbrev isLast (i : grid1.Coords) : Prop := k1_cond2 i = 1#1
/-- It holds exactly at the points whose key tile is 15. -/
theorem last_iff : ∀ t : Fin cfg1.N, isLast (grid1.coords t) ↔ t.val % 16 = 15 :=
  (by decide +kernel : ∀ t : Fin grid1.N, isLast (grid1.coords t) ↔ t.val % 16 = 15)

/-! ## Where the windows are idle -/

theorem query_live : ∀ t : Fin cfg1.N, cfg1.idle 0 (grid1.coords t) = false := by decide +kernel
theorem key_live : ∀ t : Fin cfg1.N, cfg1.idle 1 (grid1.coords t) = false := by decide +kernel
/-- Away from the last key tile the body stores nothing into the output block: the window is idle there, -/
theorem out_idle : ∀ t : Fin cfg1.N, ¬isLast (grid1.coords t) → cfg1.idle 2 (grid1.coords t) = true := by decide +kernel
/-- and the block is not written back there. -/
theorem out_noFlush : ∀ t : Fin cfg1.N, ¬isLast (grid1.coords t) → (cfg1.win 2).flush t = false := by decide +kernel
/-- At the last key tile the output block is live. -/
theorem out_live : ∀ t : Fin cfg1.N, isLast (grid1.coords t) → cfg1.idle 2 (grid1.coords t) = false := by decide +kernel

/-! ## The memrefs the body is called with -/

abbrev qM (t : Fin cfg1.N) : Memref sig .tc .vmem S8x512x3 .f32 := win1_0.stage (cfg1.slots t 0)
abbrev qW (t : Fin cfg1.N) : (qM t).IsWhole := hstage1_0 ((cfg1.slots t 0).cast nbuf1_0)
abbrev kM (t : Fin cfg1.N) : Memref sig .tc .vmem S8x256x3 .f32 := win1_1.stage (cfg1.slots t 1)
abbrev kW (t : Fin cfg1.N) : (kM t).IsWhole := hstage1_1 ((cfg1.slots t 1).cast nbuf1_1)
abbrev oM (t : Fin cfg1.N) : Memref sig .tc .vmem S8x512 .f32 := win1_2.stage (cfg1.slots t 2)
abbrev oW (t : Fin cfg1.N) : (oM t).IsWhole := hstage1_2 ((cfg1.slots t 2).cast nbuf1_2)
/-- The scratch: a whole buffer of the kernel's own, the same at every point. -/
abbrev accM : Memref sig .tc .vmem S8x512 .f32 := Memref.whole cc1_scratch0
/-- One view through which the scratch's contents are stated, and one for the output block's. -/
abbrev accV : View sig .tc .vmem S8x512 .f32 := accM.view
abbrev outV : View sig .tc .vmem S8x512 .f32 := (Memref.whole cc1_stg2_0 : Memref sig .tc .vmem S8x512 .f32).view

/-- The scoped buffers of the program's other pallas_call, each at some contents: this region never touches them, and
    they ride through it inside its invariant. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- With nothing known about the scratch, the region's invariant is: the scratch at some contents, the other call's
    buffers, and the generator register at some state. -/
theorem restOpen_in (c : Dev nD) :
    (Pipeline.ΦA spec1 c : sProp 𝕄)
      ⊢ iprop(((∃ d, owns (c : Thread nD τ) accM fullShare d) ∗ otherScoped c) ∗ (∃ r, prngReg c r)) := by
  unfold Pipeline.ΦA otherScoped; rw [scopedRest1_eq]; simp only [accM, owns_whole]
  iintro ⟨⟨H1, H2, H3, H4, H5, H6, H7, HS⟩, Hg⟩
  isplitl [H1 H2 H3 H4 H5 H6 H7 HS]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- And back: whatever the scratch holds, those three make the invariant again. -/
theorem restOpen_out (c : Dev nD) :
    iprop(((∃ d, owns (c : Thread nD τ) accM fullShare d) ∗ otherScoped (F := F) c) ∗ (∃ r, prngReg c r))
      ⊢ (Pipeline.ΦA spec1 c : sProp 𝕄) := by
  unfold Pipeline.ΦA otherScoped; rw [scopedRest1_eq]; simp only [accM, owns_whole]
  iintro ⟨⟨HS, H1, H2, H3, H4, H5, H6, H7⟩, Hg⟩
  isplitl [H1 H2 H3 H4 H5 H6 H7 HS]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The body at each kind of point -/

set_option maxHeartbeats 1000000 in
/-- FIRST KEY TILE.  From the query and key blocks, the output block at anything (handed back untouched) and the
    scratch at anything, the body ends with the scratch overwritten by the pieces `LS` (the refill, then the
    lowered values), found by running it. -/
noncomputable def runFirst (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) :
    { LS : List (View.Piece (Elt F) S8x512 .f32) //
      ∀ (xo : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xo
            ∗ (∃ d, owns (c : Thread nD τ) arg5 fullShare d)
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__rowmin_kernel i arg2 harg2 arg3 harg3 arg4 harg4 arg5 harg5) K } := by
  refine ⟨?_, fun xo E K => ?run⟩
  case run =>
    simp only [cc1__rowmin_kernel_eq_skeleton]; unfold cc1__rowmin_kernel_skel
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- INNER KEY TILE.  The same with the scratch at the contents `xs` the point before left: it ends overwritten by
    the pieces `LS` (the lowered values). -/
noncomputable def runInner (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) :
    { LS : List (View.Piece (Elt F) S8x512 .f32) //
      ∀ (xo : Vec F S8x512 .f32) (E : Set ℕ) (K : PUnit → sProp 𝕄),
        iprop(owns (c : Thread nD τ) arg2 fullShare x0 ∗ owns (c : Thread nD τ) arg3 fullShare x1 ∗ owns (c : Thread nD τ) arg4 fullShare xo
            ∗ owns (c : Thread nD τ) arg5 fullShare xs
            ∗ (iprop(owns (c : Thread nD τ) arg2 fullShare x0 ∗ owns (c : Thread nD τ) arg3 fullShare x1 ∗ owns (c : Thread nD τ) arg4 fullShare xo
                ∗ (∃ f, arg5.view.loc (c : Thread nD τ) ↦[arg5.view.set]{fullShare} arg5.view.writes (Elt F) f LS)) -∗ K ⟨⟩))
          ⊢ wp frame (wpE (defs₀ (F := F)) Variants.none c none) E (cc1__rowmin_kernel i arg2 harg2 arg3 harg3 arg4 harg4 arg5 harg5) K } := by
  refine ⟨?_, fun xo E K => ?run⟩
  case run =>
    simp only [cc1__rowmin_kernel_eq_skeleton]; unfold cc1__rowmin_kernel_skel
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

set_option maxHeartbeats 1000000 in
/-- LAST KEY TILE.  The scratch at `xs`, the output block at anything: the scratch ends overwritten by `LS` (the
    lowered values) and the output block by `LO` (a copy of the scratch). -/
noncomputable def runLast (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) :
    Σ' (LO : List (View.Piece (Elt F) S8x512 .f32)), { LS : List (View.Piece (Elt F) S8x512 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__rowmin_kernel i arg2 harg2 arg3 harg3 arg4 harg4 arg5 harg5) K } := by
  refine ⟨?_, ?_, fun E K => ?run⟩
  case run =>
    simp only [cc1__rowmin_kernel_eq_skeleton]; unfold cc1__rowmin_kernel_skel
    unfold owns
    iintro ⟨⟨%f0, %hf0, H0⟩, ⟨%f1, %hf1, H1⟩, ⟨%d4, %fo, -, HO⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HO]; · iexists _; iexact HO
    iexists _; iexact HS

end Cert.KernelIdeal.Region1

end
-- ==== Proof.Region1.lean ====
/-
  The second pallas_call as a whole: what its scratch and its output block hold after every grid point, the proof data
  of its pipeline, and the body's obligation at every point.

  Point t belongs to query tile t / 16 and key tile t % 16.  After a point of the first key tile the scratch holds the
  refill lowered by that tile; after any later point it holds what the point before left, lowered by this point's key
  tile; at the last key tile the output block receives a copy.  The scratch is therefore defined by recursion on the
  point, and the region's invariant before a point that is not the very first says that the scratch holds exactly what
  the point before left.  Before the very first point, and after the last, the scratch is just some buffer.
-/
import proofs.«137223_j18863496364104_1_alg».proof.Proof.Runs1

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves, read back from the pieces its run found -/

/-- A point of the first key tile: the scratch afterwards. -/
def accFirst (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) : Vec F S8x512 .f32 :=
  accV.read (Elt F) (accV.writes (Elt F) accV.junk (runFirst c i arg2 harg2 arg3 harg3 arg4 harg4 arg5 harg5 hc0 hc1 x0 x1).1)
/-- Its pieces tile the scratch, so they cover it. -/
theorem accFirst_cover (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) (y : S8x512.Idx) :
    ∃ pc ∈ (runFirst c i arg2 harg2 arg3 harg3 arg4 harg4 arg5 harg5 hc0 hc1 x0 x1).1, y ∈ pc.1.set :=
  View.cover_of_tiledL (runFirst c i arg2 harg2 arg3 harg3 arg4 harg4 arg5 harg5 hc0 hc1 x0 x1).1 S8x512.size (by sl_kernel_rfl) y

/-- A point of an inner key tile: the scratch afterwards, from what it held before (`xs`). -/
def accInner (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) : Vec F S8x512 .f32 :=
  accV.read (Elt F) (accV.writes (Elt F) accV.junk (runInner c i arg2 harg2 arg3 harg3 arg4 harg4 arg5 harg5 hc0 hc1 x0 x1 xs).1)
theorem accInner_cover (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) (y : S8x512.Idx) :
    ∃ pc ∈ (runInner c i arg2 harg2 arg3 harg3 arg4 harg4 arg5 harg5 hc0 hc1 x0 x1 xs).1, y ∈ pc.1.set :=
  View.cover_of_tiledL (runInner c i arg2 harg2 arg3 harg3 arg4 harg4 arg5 harg5 hc0 hc1 x0 x1 xs).1 S8x512.size (by sl_kernel_rfl) y

/-- A point of the last key tile: the scratch afterwards, -/
def accLast (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) : Vec F S8x512 .f32 :=
  accV.read (Elt F) (accV.writes (Elt F) accV.junk (runLast c i arg2 harg2 arg3 harg3 arg4 harg4 arg5 harg5 hc0 hc1 x0 x1 xs).2.1)
theorem accLast_cover (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) (y : S8x512.Idx) :
    ∃ pc ∈ (runLast c i arg2 harg2 arg3 harg3 arg4 harg4 arg5 harg5 hc0 hc1 x0 x1 xs).2.1, y ∈ pc.1.set :=
  View.cover_of_tiledL (runLast c i arg2 harg2 arg3 harg3 arg4 harg4 arg5 harg5 hc0 hc1 x0 x1 xs).2.1 S8x512.size (by sl_kernel_rfl) y
/-- and the output block. -/
def outLast (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) : Vec F S8x512 .f32 :=
  outV.read (Elt F) (outV.writes (Elt F) outV.junk (runLast c i arg2 harg2 arg3 harg3 arg4 harg4 arg5 harg5 hc0 hc1 x0 x1 xs).1)
theorem outLast_cover (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) (y : S8x512.Idx) :
    ∃ pc ∈ (runLast c i arg2 harg2 arg3 harg3 arg4 harg4 arg5 harg5 hc0 hc1 x0 x1 xs).1, y ∈ pc.1.set :=
  View.cover_of_tiledL (runLast c i arg2 harg2 arg3 harg3 arg4 harg4 arg5 harg5 hc0 hc1 x0 x1 xs).1 S8x512.size (by sl_kernel_rfl) y

/-- The output block where the body does not store into it: a placeholder nothing consults (the window is idle and
    not written back at those points). -/
def idleOut : Vec F S8x512 .f32 := outV.read (Elt F) (outV.writes (Elt F) outV.junk [])

/-! ## Point by point -/

/-- What the output block (first component) and the scratch (second) hold after the body at point `n`. -/
def pointAfter (c : Dev nD) : (n : ℕ) → n < cfg1.N → Vec F S8x512 .f32 × Vec F S8x512 .f32
  | 0, hn => (idleOut, accFirst c (grid1.coords ⟨0, hn⟩) (qM ⟨0, hn⟩) (qW ⟨0, hn⟩) (kM ⟨0, hn⟩) (kW ⟨0, hn⟩) (oM ⟨0, hn⟩) (oW ⟨0, hn⟩) accM (Memref.isWhole_whole _) ((first_iff ⟨0, hn⟩).mpr (Nat.zero_mod _)) (fun h => (fun h => by (try dsimp only at h); omega) ((last_iff ⟨0, hn⟩).mp h)) (blockAt V c 0 ⟨0, hn⟩) (blockAt V c 1 ⟨0, hn⟩))
  | n + 1, hn =>
    if h0 : (n + 1) % 16 = 0 then
      if h1 : (n + 1) % 16 = 15 then
        False.elim (by omega)
      else
        (idleOut, accFirst c (grid1.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) ((first_iff ⟨n + 1, hn⟩).mpr h0) (fun h => h1 ((last_iff ⟨n + 1, hn⟩).mp h)) (blockAt V c 0 ⟨n + 1, hn⟩) (blockAt V c 1 ⟨n + 1, hn⟩))
    else
      if h1 : (n + 1) % 16 = 15 then
        (outLast c (grid1.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) ((last_iff ⟨n + 1, hn⟩).mpr h1) (blockAt V c 0 ⟨n + 1, hn⟩) (blockAt V c 1 ⟨n + 1, hn⟩) (pointAfter c n (Nat.lt_of_succ_lt hn)).2,
         accLast c (grid1.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) ((last_iff ⟨n + 1, hn⟩).mpr h1) (blockAt V c 0 ⟨n + 1, hn⟩) (blockAt V c 1 ⟨n + 1, hn⟩) (pointAfter c n (Nat.lt_of_succ_lt hn)).2)
      else
        (idleOut, accInner c (grid1.coords ⟨n + 1, hn⟩) (qM ⟨n + 1, hn⟩) (qW ⟨n + 1, hn⟩) (kM ⟨n + 1, hn⟩) (kW ⟨n + 1, hn⟩) (oM ⟨n + 1, hn⟩) (oW ⟨n + 1, hn⟩) accM (Memref.isWhole_whole _) (fun h => h0 ((first_iff ⟨n + 1, hn⟩).mp h)) (fun h => h1 ((last_iff ⟨n + 1, hn⟩).mp h)) (blockAt V c 0 ⟨n + 1, hn⟩) (blockAt V c 1 ⟨n + 1, hn⟩) (pointAfter c n (Nat.lt_of_succ_lt hn)).2)

/-- At a point of the first key tile. -/
theorem pointAfter_first (c : Dev nD) (t : Fin cfg1.N) (h0 : t.val % 16 = 0) (h1 : ¬t.val % 16 = 15) :
    pointAfter V c t.val t.isLt = (idleOut, accFirst c (grid1.coords t) (qM t) (qW t) (kM t) (kW t) (oM t) (oW t) accM (Memref.isWhole_whole _) ((first_iff t).mpr h0) (fun h => h1 ((last_iff t).mp h)) (blockAt V c 0 t) (blockAt V c 1 t)) := by
  obtain ⟨n, hn⟩ := t
  cases n with
  | zero => exact rfl
  | succ n => exact (dif_pos h0).trans ((dif_neg h1).trans rfl)

/-- At a point of an inner key tile: over what the point before left in the scratch. -/
theorem pointAfter_inner (c : Dev nD) (t : Fin cfg1.N) (h0 : ¬t.val % 16 = 0) (h1 : ¬t.val % 16 = 15) :
    pointAfter V c t.val t.isLt = (idleOut, accInner c (grid1.coords t) (qM t) (qW t) (kM t) (kW t) (oM t) (oW t) accM (Memref.isWhole_whole _) (fun h => h0 ((first_iff t).mp h)) (fun h => h1 ((last_iff t).mp h)) (blockAt V c 0 t) (blockAt V c 1 t) (pointAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of the last key tile. -/
theorem pointAfter_last (c : Dev nD) (t : Fin cfg1.N) (h0 : ¬t.val % 16 = 0) (h1 : t.val % 16 = 15) :
    pointAfter V c t.val t.isLt = (outLast c (grid1.coords t) (qM t) (qW t) (kM t) (kW t) (oM t) (oW t) accM (Memref.isWhole_whole _) (fun h => h0 ((first_iff t).mp h)) ((last_iff t).mpr h1) (blockAt V c 0 t) (blockAt V c 1 t) (pointAfter V c (t.val - 1) (Nat.lt_of_le_of_lt (Nat.sub_le _ _) t.isLt)).2,
      accLast c (grid1.coords t) (qM t) (qW t) (kM t) (kW t) (oM t) (oW t) accM (Memref.isWhole_whole _) (fun h => h0 ((first_iff t).mp h)) ((last_iff t).mpr h1) (blockAt V c 0 t) (blockAt V c 1 t) (pointAfter V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant: the scratch is carried from point to point -/

/-- Before position `n`: at the very start the region's plain invariant (the scratch at anything); afterwards the scratch
    at what point `n - 1` left, beside the other call's buffers and the generator register. -/
def carried (c : Dev nD) : (n : ℕ) → n ≤ cfg1.N → sProp 𝕄
  | 0, _ => Pipeline.ΦA spec1 c
  | n + 1, hn => iprop((owns (c : Thread nD τ) accM fullShare ((pointAfter V c n hn).2) ∗ otherScoped c) ∗ (∃ r, prngReg c r))

theorem carried_zero (c : Dev nD) (n : ℕ) (h : n ≤ cfg1.N) (hz : n = 0) : carried V c n h = Pipeline.ΦA spec1 c := by
  subst hz; rfl

theorem carried_succ (c : Dev nD) (n : ℕ) (hn : n < cfg1.N) :
    carried V c (n + 1) hn = iprop((owns (c : Thread nD τ) accM fullShare ((pointAfter V c n hn).2) ∗ otherScoped c) ∗ (∃ r, prngReg c r)) := rfl

theorem carried_pos (c : Dev nD) (n : ℕ) (h : n ≤ cfg1.N) (hz : n ≠ 0) :
    carried V c n h = iprop((owns (c : Thread nD τ) accM fullShare ((pointAfter V c (n - 1) (by omega)).2) ∗ otherScoped c) ∗ (∃ r, prngReg c r)) := by
  cases n with
  | zero => exact absurd rfl hz
  | succ n => rfl

/-! ## The pipeline's proof data -/

/-- The arrays as the region finds them; after the body each input buffer at its block and the output buffer at
    `pointAfter`'s first component; the invariant `carried`; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => (pointAfter V c t.val t.isLt).1
  Φ t := carried V c t.val (Nat.le_of_lt_succ t.isLt)
  q _ := fullShare
  owed _ := 0

theorem A_eq (c : Dev nD) (w : Fin cfg1.W) : (dat V c).A w = V c (Pipeline.arrRef spec1 w) := by
  dsimp only [dat]

theorem carried_castSucc (c : Dev nD) (t : Fin cfg1.N) :
    (dat V c).Φ t.castSucc = carried V c t.val (Nat.le_of_lt t.isLt) := by
  dsimp only [dat]; simp only [Fin.coe_castSucc]

theorem after_query (c : Dev nD) (t : Fin cfg1.N) : (dat V c).after 0 t = blockAt V c 0 t := by dsimp only [dat]
theorem after_key (c : Dev nD) (t : Fin cfg1.N) : (dat V c).after 1 t = blockAt V c 1 t := by dsimp only [dat]
theorem after_out (c : Dev nD) (t : Fin cfg1.N) : (dat V c).after 2 t = (pointAfter V c t.val t.isLt).1 := by dsimp only [dat]

theorem before_query (c : Dev nD) (t : Fin cfg1.N) (d) : (dat V c).before 0 t d = blockAt V c 0 t :=
  query_before_of V (dat V c) (A_eq V c 0) (after_query V c) t d
theorem before_key (c : Dev nD) (t : Fin cfg1.N) (d) : (dat V c).before 1 t d = blockAt V c 1 t :=
  key_before_of V (dat V c) (A_eq V c 1) (after_key V c) t d

/-! ## The body's obligation at a point -/

/-- What the body is called with at point `t`: the invariant, the core owing nothing, and the three windows' current
    buffers at what they hold before the body. -/
def bodyPre (c : Dev nD) (t : Fin cfg1.N) : sProp 𝕄 :=
  iprop((dat V c).Φ t.castSucc ∗ (dat V c).owesAt () t.castSucc
    ∗ (∃ d, owns (c : Thread nD τ) (qM t) fullShare ((dat V c).before 0 t d))
    ∗ (∃ d, owns (c : Thread nD τ) (kM t) fullShare ((dat V c).before 1 t d))
    ∗ (∃ d, owns (c : Thread nD τ) (oM t) fullShare ((dat V c).before 2 t d)))

/-- What it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point.  The inputs' buffers hold their blocks; `t % 16` says which kind of point it is; the
    invariant hands over the scratch (at what the point before left, or at anything at the very first point, where the
    body overwrites it before reading), the run of that kind applies, and the scratch goes back into the invariant at
    this point's contents.  The output block is handed back untouched except at the last key tile. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_query, before_key]
  rw [show (dat V c).owesAt () t.succ = (dat V c).owesAt () t.castSucc from rfl]
  rw [show (dat V c).Φ t.succ = carried V c (t.val + 1) t.isLt from rfl, carried_succ]
  have hN : t.val < 128 := lt_of_lt_of_eq t.isLt (show cfg1.N = 128 from N_1)
  rw [show (dat V c).leavesExact 0 t = owns (c : Thread nD τ) (qM t) fullShare ((dat V c).after 0 t) from by
    unfold Dat.leavesExact; rw [query_live t], after_query]
  rw [show (dat V c).leavesExact 1 t = owns (c : Thread nD τ) (kM t) fullShare ((dat V c).after 1 t) from by
    unfold Dat.leavesExact; rw [key_live t], after_key]
  by_cases h0 : t.val % 16 = 0
  · have h1 : ¬t.val % 16 = 15 := by omega
    rw [Dat.leavesExact_idle (dat V c) 2 t (out_idle t (fun h => h1 ((last_iff t).mp h))) (out_noFlush t (fun h => h1 ((last_iff t).mp h)))]
    rw [pointAfter_first V c t h0 h1]
    unfold accFirst; (try dsimp only)
    by_cases hz : t.val = 0
    · rw [carried_castSucc V c t, carried_zero V c _ _ hz]
      refine (sep_mono (restOpen_in c) .rfl).trans ?_
      iintro ⟨⟨⟨HS, Hoth⟩, Hg⟩, Ho, ⟨%d0, H0⟩, ⟨%d1, H1⟩, ⟨%d2, H2⟩⟩
      iapply ((runFirst c (grid1.coords t) _ _ _ _ _ _ _ _ ((first_iff t).mpr h0) (fun h => h1 ((last_iff t).mp h)) (blockAt V c 0 t) (blockAt V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
    · rw [carried_castSucc V c t, carried_pos V c _ _ hz]
      iintro ⟨⟨⟨HS, Hoth⟩, Hg⟩, Ho, ⟨%d0, H0⟩, ⟨%d1, H1⟩, ⟨%d2, H2⟩⟩
      iapply ((runFirst c (grid1.coords t) _ _ _ _ _ _ _ _ ((first_iff t).mpr h0) (fun h => h1 ((last_iff t).mp h)) (blockAt V c 0 t) (blockAt V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accFirst_cover c _ _ _ _ _ _ _ _ _ _ _ _ _)
          iexact Hoth
        iexact Hg
      isplitl [Ho]; · iexact Ho
      isplitl [H0]; · iexact H0
      isplitl [H1]; · iexact H1
      iexists _; iexact H2
  · have hz : t.val ≠ 0 := fun h => h0 (by rw [h])
    by_cases h1 : t.val % 16 = 15
    · rw [show (dat V c).leavesExact 2 t = owns (c : Thread nD τ) (oM t) fullShare ((dat V c).after 2 t) from by
        unfold Dat.leavesExact; rw [out_live t ((last_iff t).mpr h1)], after_out]
      rw [pointAfter_last V c t h0 h1]
      unfold outLast accLast; (try dsimp only)
      rw [carried_castSucc V c t, carried_pos V c _ _ hz]
      iintro ⟨⟨⟨HS, Hoth⟩, Hg⟩, Ho, ⟨%d0, H0⟩, ⟨%d1, H1⟩, ⟨%d2, H2⟩⟩
      iapply ((runLast c (grid1.coords t) _ _ _ _ _ _ _ _ (fun h => h0 ((first_iff t).mp h)) ((last_iff t).mpr h1) (blockAt V c 0 t) (blockAt V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hoth Hg]
      · isplitl [HS Hoth]
        · isplitl [HS]
          · unfold owns; iexists _; isplitr
            swap; · iexact HS
            ipureintro; exact View.read_writes_of_cover _ _ _ _ _ (accLast_cover c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (outLast_cover c _ _ _ _ _ _ _ _ _ _ _ _ _ _)
    · rw [Dat.leavesExact_idle (dat V c) 2 t (out_idle t (fun h => h1 ((last_iff t).mp h))) (out_noFlush t (fun h => h1 ((last_iff t).mp h)))]
      rw [pointAfter_inner V c t h0 h1]
      unfold accInner; (try dsimp only)
      rw [carried_castSucc V c t, carried_pos V c _ _ hz]
      iintro ⟨⟨⟨HS, Hoth⟩, Hg⟩, Ho, ⟨%d0, H0⟩, ⟨%d1, H1⟩, ⟨%d2, H2⟩⟩
      iapply ((runInner c (grid1.coords t) _ _ _ _ _ _ _ _ (fun h => h0 ((first_iff t).mp h)) (fun h => h1 ((last_iff t).mp h)) (blockAt V c 0 t) (blockAt V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hoth Hg]
      · isplitl [HS Hoth]
        · isplitl [HS]
          · unfold owns; iexists _; isplitr
            swap; · iexact HS
            ipureintro; exact View.read_writes_of_cover _ _ _ _ _ (accInner_cover c _ _ _ _ _ _ _ _ _ _ _ _ _ _)
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem carried_in (c : Dev nD) : Pipeline.ΦA spec1 c ⊢ (dat V c).Φ 0 := by
  rw [show (dat V c).Φ 0 = carried V c 0 (Nat.zero_le _) from rfl, carried_zero V c 0 _ rfl]
  try exact Idealize.SL.BI.Entails.refl _

/-- After any point the invariant gives the plain one back: what the scratch holds is forgotten. -/
theorem carried_out (c : Dev nD) (t : Fin (cfg1.N + 1)) (ht : t.val ≠ 0) : (dat V c).Φ t ⊢ Pipeline.ΦA spec1 c := by
  rw [show (dat V c).Φ t = carried V c t.val (Nat.le_of_lt_succ t.isLt) from rfl, carried_pos V c _ _ ht]
  refine .trans ?_ (restOpen_out c)
  iintro ⟨⟨HS, Hoth⟩, Hg⟩
  isplitl [HS Hoth]
  · isplitl [HS]; · iexists _; iexact HS
    iexact Hoth
  iexact Hg

/-- In particular after the last point. -/
theorem carried_last (c : Dev nD) : (dat V c).Φ (Fin.last cfg1.N) ⊢ Pipeline.ΦA spec1 c :=
  carried_out V c _ (by rw [Fin.val_last]; have : cfg1.N = 128 := N_1; omega)

end Cert.KernelIdeal.Region1

end
-- ==== Proof.Launch.lean ====
/-
  The whole program: the first pallas_call, the second, then the host operations that average the two results.

  Between these three items every buffer that outlives a pallas_call holds known contents: at launch the memory the
  program is started on; after a pallas_call its arrays at what the write-backs of its output blocks leave (its input
  arrays unchanged) and everything else as before; after the host operations their results.  The run threads these
  contents through the three items and ends with every such buffer at the last of them.  Both arguments are inputs of
  both pallas_calls and no host operation writes them, so they end as launched.
-/
import proofs.«137223_j18863496364104_1_alg».proof.Proof.Region0
import proofs.«137223_j18863496364104_1_alg».proof.Proof.Region1
import proofs.«137223_j18863496364104_1_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m ((c : Dev nD), b)
/-- The same read at the TensorCore's references: what the first pallas_call finds. -/
abbrev V0 : (c : Dev nD) → (b : Ref sig .tc) → Buf (Elt F) ((c : Thread nD τ).loc b) := fun c b => W0 m c b

/-- After the first pallas_call: its arrays at what its pipeline leaves, every other buffer as before. -/
def W1 (c : Dev nD) : Valuation τ sig (Elt F) :=
  Pipeline.withArrays spec0 c (W0 m c) fun w => (Region0.dat (V0 m) c).arrAt w cfg0.N
theorem W1_arr (c : Dev nD) (w : Fin cfg0.W) :
    W1 m c (Proc.devRef .tc (Pipeline.arrRef spec0 w)) = (Region0.dat (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (Region0.dat (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the second pallas_call, likewise. -/
def W2 (c : Dev nD) : Valuation τ sig (Elt F) :=
  Pipeline.withArrays spec1 c (W1 m c) fun w => (Region1.dat (V1 m) c).arrAt w cfg1.N
theorem W2_arr (c : Dev nD) (w : Fin cfg1.W) :
    W2 m c (Proc.devRef .tc (Pipeline.arrRef spec1 w)) = (Region1.dat (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (Region1.dat (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the host operations. -/
abbrev W3 : Dev nD → Valuation τ sig (Elt F) := fun c => StableHlo.after hostOps2 (W2 m c)

/-! ## The arguments end as launched -/

/-- The first argument is the query array of the first pallas_call and the key array of the second; the host
    operations do not write it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_writes_sub hostOps2 _ hostOps2_writes (by decide)
    _ = W1 m c (Proc.devRef .tc main_arg0) := (W2_arr m c 1).trans (((Region1.dat (V1 m) c).arrAt_in 1 rfl _).trans (Region1.A_eq (V1 m) c 1))
    _ = W0 m c (Proc.devRef .tc main_arg0) := (W1_arr m c 0).trans (((Region0.dat (V0 m) c).arrAt_in 0 rfl _).trans (Region0.A_eq (V0 m) c 0))
    _ = m ((c : Thread nD τ).loc main_arg0) := rfl

/-- The second argument is the key array of the first pallas_call and the query array of the second. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_writes_sub hostOps2 _ hostOps2_writes (by decide)
    _ = W1 m c (Proc.devRef .tc main_arg1) := (W2_arr m c 0).trans (((Region1.dat (V1 m) c).arrAt_in 0 rfl _).trans (Region1.A_eq (V1 m) c 0))
    _ = W0 m c (Proc.devRef .tc main_arg1) := (W1_arr m c 1).trans (((Region0.dat (V0 m) c).arrAt_in 1 rfl _).trans (Region0.A_eq (V0 m) c 1))
    _ = m ((c : Thread nD τ).loc main_arg1) := rfl

/-! ## The proof data of both pipelines, and what rides beside the buffers -/

abbrev adm : (p : Fin 2) → (pcfgs (F := F) p).Adm := fun p => (cfgs p).toPCfg_adm
/-- Each pipeline's proof data at the contents its pallas_call is entered with. -/
def pdats : (p : Fin 2) → (c : Dev nD) → Dat τ (Elt F) Unit ℕ (UR sig nD τ) ℕ (Pipeline.pin (pcfgs (F := F)) adm p) c
  | ⟨0, _⟩ => fun c => Region0.dat (V0 m) c
  | ⟨1, _⟩ => fun c => Region1.dat (V1 m) c
abbrev 𝒱₀ : Variants := Variants.none
/-- No core owes another anything. -/
abbrev L : GSem nD τ sig → Finset Unit := fun _ => ∅
abbrev lv : GSem nD τ sig → Unit → ℕ := fun _ _ => 0
/-- Beside the buffers: the generator register at some state and the core owing nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of the thread: every buffer that outlives the pallas_calls at the final contents. -/
abbrev Tₙ (c : Dev nD) : sProp 𝕄 := iprop(StableHlo.held (c : Thread nD τ) (Pipeline.ucRefs τ sig) (W3 m c) ∗ ∃ r, prngReg c r)

/-! ## The two pallas_calls as items of the run -/

set_option backward.isDefEq.respectTransparency.types false in
/-- The first pallas_call: entered with every such buffer at the launch contents, left with them at `W1`.  Its arrays are
    split out of the buffers on entry and put back on exit; the scratch enters and leaves inside the plain invariant. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Region0.body_obligation (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Region0.carried_in (V0 m) c)
    unfold Pipeline.ΦA
    iintro ⟨Hp, -, Hr⟩
    isplitl [Hr]; · iexact Hr
    iexact Hp
  hout c := by
    rw [Pipeline.ownSems0_none]
    refine (Region0.carried_last (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pallas_call: entered at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Region1.body_obligation (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Region1.carried_in (V1 m) c)
    unfold Pipeline.ΦA
    iintro ⟨Hp, -, Hr⟩
    isplitl [Hr]; · iexact Hr
    iexact Hp
  hout c := by
    rw [Pipeline.ownSems0_none]
    refine (Region1.carried_last (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's three items in order. -/
abbrev segs : List (Pipeline.Seg (pcfgs (F := F)) adm (pdats m) () defs₀ 𝒱₀ L lv) :=
  [ .region (reg0 m),
    .region (reg1 m),
    .host (Pipeline.HostSeg.ofOps _ _ _ _ _ (Pipeline.ucRefs τ sig) hostOps2
      (fun op h => Pipeline.sub_ucRefs op ((List.forall_iff_forall_mem.mp hostOps2_sub) op h))
      (fun op h => (List.forall_iff_forall_mem.mp hostOps2_fresh) op h) (W2 m) R) ]

theorem main_run (c : Dev nD) : main (F := F) c = Pipeline.Seg.run (segs m) := (main_chain c).trans (by chain_rfl)

set_option backward.isDefEq.respectTransparency.types false in
/-- From any memory with every counter at zero, every weakly fair execution of the program on the TensorCores
    terminates without a fault, and in every final state each buffer that outlives the pallas_calls holds the last
    contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c => by
      show iprop(StableHlo.held (c : Thread nD τ) (Pipeline.ucRefs τ sig) (W3 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- The frame: the program runs to the end without a fault and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W3_main_arg0 m c),
     (h c _ (mem_uc main_arg1 (by decide))).trans (W3_main_arg1 m c)⟩) (run_all m ρ)

end Cert.KernelIdeal.Whole

end
-- ==== Proof.Pieces0.lean ====
/-
  What the body's stores leave, as values.

  Every load and every store of the body goes through the whole of its buffer: the rectangle at offset zero with the
  buffer's own sizes.  A load through it reads the buffer's contents, one store through it leaves its payload, and a
  store through it made last hides whatever was stored before.  So the lists of pieces the three kinds of point
  write read back as the body's arithmetic applied to the blocks themselves: at an inner or last key tile the
  scratch ends at the lowered values of what it held; at the first key tile it ends at the lowered values of the
  refill, which the body had just stored and read back; and at the last key tile the output block receives what the
  scratch has just been given.
-/
import proofs.«137223_j18863496364104_1_alg».proof.Proof.Region0
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole rank-2 buffer's rectangle are all zero, -/
theorem zeroOff2 : (![0, 0] : Fin 2 → Nat) = fun _ => 0 := funext fun a => by fin_cases a <;> rfl
/-- and so are a whole rank-3 buffer's. -/
theorem zeroOff3 : (![0, 0, 0] : Fin 3 → Nat) = fun _ => 0 := funext fun a => by fin_cases a <;> rfl

/-- INNER KEY TILE: the one store of the point leaves the lowered values of what the scratch held. -/
theorem accInner_eq (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) :
    accInner c i arg2 harg2 arg3 harg3 arg4 harg4 arg5 harg5 hc0 hc1 x0 x1 xs = k0_pay2 x0 x1 xs := by
  unfold accInner
  rw [View.read_writes_eq_canon _ _ _ (accInner_cover c i arg2 harg2 arg3 harg3 arg4 harg4 arg5 harg5 hc0 hc1 x0 x1 xs)]
  unfold runInner
  dsimp only
  sl_unfold_words
  rw [View.canon_unit_zero zeroOff2]
  simp only [View.readAt_eq_ld, harg2.read_unread, harg3.read_unread, harg5.read_unread, View.ld_unit_zero (S := S8x512x3) zeroOff3, View.ld_unit_zero (S := S8x256x3) zeroOff3, View.ld_unit_zero (S := S8x512) zeroOff2]

/-- FIRST KEY TILE: the refill is stored, read back, lowered and stored again; the last store hides the first. -/
theorem accFirst_eq (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) :
    accFirst c i arg2 harg2 arg3 harg3 arg4 harg4 arg5 harg5 hc0 hc1 x0 x1 = k0_pay2 x0 x1 (k0_pay1 (F := F)) := by
  unfold accFirst
  rw [View.read_writes_eq_canon _ _ _ (accFirst_cover c i arg2 harg2 arg3 harg3 arg4 harg4 arg5 harg5 hc0 hc1 x0 x1)]
  unfold runFirst
  dsimp only
  sl_unfold_words
  rw [View.canon_cons_unit_zero (S := S8x512) zeroOff2, View.readCov_unit_zero (S := S8x512) _ zeroOff2]
  simp only [View.readAt_eq_ld, harg2.read_unread, harg3.read_unread, View.ld_unit_zero (S := S8x512x3) zeroOff3, View.ld_unit_zero (S := S8x256x3) zeroOff3, View.ld_unit_zero (S := S8x512) zeroOff2]

/-- LAST KEY TILE, the scratch: as at an inner key tile. -/
theorem accLast_eq (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) :
    accLast c i arg2 harg2 arg3 harg3 arg4 harg4 arg5 harg5 hc0 hc1 x0 x1 xs = k0_pay2 x0 x1 xs := by
  unfold accLast
  rw [View.read_writes_eq_canon _ _ _ (accLast_cover c i arg2 harg2 arg3 harg3 arg4 harg4 arg5 harg5 hc0 hc1 x0 x1 xs)]
  unfold runLast
  dsimp only
  sl_unfold_words
  rw [View.canon_unit_zero zeroOff2]
  simp only [View.readAt_eq_ld, harg2.read_unread, harg3.read_unread, harg5.read_unread, View.ld_unit_zero (S := S8x512x3) zeroOff3, View.ld_unit_zero (S := S8x256x3) zeroOff3, View.ld_unit_zero (S := S8x512) zeroOff2]

/-- LAST KEY TILE, the output block: a copy of what the scratch has just been given. -/
theorem outLast_eq (c : Dev nD) (i : grid0.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) :
    outLast c i arg2 harg2 arg3 harg3 arg4 harg4 arg5 harg5 hc0 hc1 x0 x1 xs = k0_pay2 x0 x1 xs := by
  unfold outLast
  rw [View.read_writes_eq_canon _ _ _ (outLast_cover c i arg2 harg2 arg3 harg3 arg4 harg4 arg5 harg5 hc0 hc1 x0 x1 xs)]
  unfold runLast
  dsimp only
  sl_unfold_words
  rw [View.canon_unit_zero zeroOff2, View.readCov_unit_zero (S := S8x512) _ zeroOff2]
  simp only [View.readAt_eq_ld, harg2.read_unread, harg3.read_unread, harg5.read_unread, View.ld_unit_zero (S := S8x512x3) zeroOff3, View.ld_unit_zero (S := S8x256x3) zeroOff3, View.ld_unit_zero (S := S8x512) zeroOff2]

end Cert.KernelIdeal.Region0

end
-- ==== Proof.Blocks0.lean ====
/-
  The blocks of the query and key windows at explicit coordinates.

  The grid has 8 x 16 points; point t has query tile t / 16 and key tile t % 16.  The query window cuts the first
  cloud array into blocks of 512 points and takes block t / 16 on the point axis; the key window cuts the second
  into blocks of 256 points and takes block t % 16; neither window moves on the cloud axis or the coordinate axis.
  An element of a block sits in the array, on each axis, at the block index times the block's size plus its own
  coordinate: so entry (b, r, d) of the query block is entry (b, 512 · (t / 16) + r, d) of the first array, and
  entry (b, l, d) of the key block is entry (b, 256 · (t % 16) + l, d) of the second.
-/
import proofs.«137223_j18863496364104_1_alg».proof.Proof.Region0
import Idealize.ShloMosaic.Lib.ValueIdx
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The query window's block index at every point: the query tile on the point axis, zero elsewhere. -/
theorem query_index : ∀ t : Fin cfg0.N, win0_0.index t (0 : Fin 3) = 0 ∧ win0_0.index t (1 : Fin 3) = t.val / 16
    ∧ win0_0.index t (2 : Fin 3) = 0 :=
  (by decide +kernel : ∀ t : Fin grid0.N, win0_0.index t (0 : Fin 3) = 0 ∧ win0_0.index t (1 : Fin 3) = t.val / 16
    ∧ win0_0.index t (2 : Fin 3) = 0)

/-- The key window's block index at every point: the key tile on the point axis, zero elsewhere. -/
theorem key_index : ∀ t : Fin cfg0.N, win0_1.index t (0 : Fin 3) = 0 ∧ win0_1.index t (1 : Fin 3) = t.val % 16
    ∧ win0_1.index t (2 : Fin 3) = 0 :=
  (by decide +kernel : ∀ t : Fin grid0.N, win0_1.index t (0 : Fin 3) = 0 ∧ win0_1.index t (1 : Fin 3) = t.val % 16
    ∧ win0_1.index t (2 : Fin 3) = 0)

/-- Row `r` of query tile `t / 16` is a row of the array. -/
theorem query_row_lt (t : Fin cfg0.N) (r : Fin 512) : 512 * (t.val / 16) + r.val < 4096 := by
  have hN : t.val < 128 := lt_of_lt_of_eq t.isLt (show cfg0.N = 128 from N_0)
  have hr := r.isLt
  omega

/-- Row `l` of key tile `t % 16` is a row of the array. -/
theorem key_row_lt (t : Fin cfg0.N) (l : Fin 256) : 256 * (t.val % 16) + l.val < 4096 := by
  have hl := l.isLt
  omega

/-- Entry `(b, r, d)` of the query block at point `t` is entry `(b, 512 · (t / 16) + r, d)` of the first array. -/
theorem query_block_apply (c : Dev nD) (t : Fin cfg0.N) (b : Fin 8) (r : Fin 512) (d : Fin 3) :
    blockAt V c 0 t (ix3 b r d)
      = V c (Pipeline.arrRef spec0 0) (ix3 b ⟨512 * (t.val / 16) + r.val, query_row_lt t r⟩ d) := by
  obtain ⟨e0, e1, e2⟩ := query_index t
  unfold blockAt
  show V c (Pipeline.arrRef spec0 0) (((cfg0.win 0).blk t).view.emb (ix3 b r d)) = _
  refine congrArg (V c (Pipeline.arrRef spec0 0)) (funext fun a => Fin.ext ?_)
  match a with
  | ⟨0, _⟩ => show win0_0.index t (0 : Fin 3) * 8 + 1 * b.val = b.val; rw [e0]; omega
  | ⟨1, _⟩ => show win0_0.index t (1 : Fin 3) * 512 + 1 * r.val = 512 * (t.val / 16) + r.val; rw [e1]; omega
  | ⟨2, _⟩ => show win0_0.index t (2 : Fin 3) * 3 + 1 * d.val = d.val; rw [e2]; omega

/-- Entry `(b, l, d)` of the key block at point `t` is entry `(b, 256 · (t % 16) + l, d)` of the second array. -/
theorem key_block_apply (c : Dev nD) (t : Fin cfg0.N) (b : Fin 8) (l : Fin 256) (d : Fin 3) :
    blockAt V c 1 t (ix3 b l d)
      = V c (Pipeline.arrRef spec0 1) (ix3 b ⟨256 * (t.val % 16) + l.val, key_row_lt t l⟩ d) := by
  obtain ⟨e0, e1, e2⟩ := key_index t
  unfold blockAt
  show V c (Pipeline.arrRef spec0 1) (((cfg0.win 1).blk t).view.emb (ix3 b l d)) = _
  refine congrArg (V c (Pipeline.arrRef spec0 1)) (funext fun a => Fin.ext ?_)
  match a with
  | ⟨0, _⟩ => show win0_1.index t (0 : Fin 3) * 8 + 1 * b.val = b.val; rw [e0]; omega
  | ⟨1, _⟩ => show win0_1.index t (1 : Fin 3) * 256 + 1 * l.val = 256 * (t.val % 16) + l.val; rw [e1]; omega
  | ⟨2, _⟩ => show win0_1.index t (2 : Fin 3) * 3 + 1 * d.val = d.val; rw [e2]; omega

end Cert.KernelIdeal.Region0

end
-- ==== Proof.Spec.lean ====
/-
  The quantity both programs compute, stated once over the argument arrays and importing neither program.

  A batch holds 8 clouds of 4096 points with 3 coordinates each, every entry an extended real.  For a query
  cloud `q` and a key cloud `k` of one batch entry, the expanded squared distance of query point `n` and key
  point `m` is  |q n|² + |k m|² − 2 · ⟨q n, k m⟩,  and `rowmin q k` gives every query point its least such
  distance over all 4096 key points.  The chamfer loss is assembled from `rowmin pred target` and
  `rowmin target pred`.

  The expansion is symmetric in its two points: swapping them exchanges the two squared norms (addition
  commutes) and the factors inside the inner product (multiplication commutes).  Neither law fails at an
  infinite entry, so `dist_swap` holds for all extended reals and no finiteness hypothesis is needed.
-/
import Mathlib
import Idealize.ShloMosaic.PureOps.Ideal
import Idealize.ShloMosaic.Lib.ValueIdx

noncomputable section

namespace Cert.Chamfer

open Idealize.ShloMosaic Idealize.ShloMosaic.ValueIdx

/-- A batch of point clouds: entry `(b, n, d)` is coordinate `d` of point `n` of cloud `b`. -/
abbrev Cloud : Type := (⟨3, ![8, 4096, 3]⟩ : Shape).Idx → EReal

/-- One extended real per point of every cloud of the batch. -/
abbrev Rows : Type := (⟨2, ![8, 4096]⟩ : Shape).Idx → EReal

/-- The factor 2 of the cross term, kept as the float word both programs spell it with. -/
def two : EReal := Ideal.ofBits .f32 0x40000000#32

/-- The squared norm of point `n` of cloud `b`: the sum of the squares of its three coordinates. -/
def sq (x : Cloud) (b : Fin 8) (n : Fin 4096) : EReal :=
  ∑ d : Fin 3, x (ix3 b n d) * x (ix3 b n d)

/-- The inner product of point `n` of `q` with point `m` of `k`, both of cloud `b`. -/
def dot (q k : Cloud) (b : Fin 8) (n m : Fin 4096) : EReal :=
  ∑ d : Fin 3, q (ix3 b n d) * k (ix3 b m d)

/-- The expanded squared distance |q n|² + |k m|² − 2 · ⟨q n, k m⟩. -/
def dist (q k : Cloud) (b : Fin 8) (n m : Fin 4096) : EReal :=
  sq q b n + sq k b m - two * dot q k b n m

/-- Every point of `q` with its least expanded squared distance to a point of `k` in the same cloud:
    the infimum over all 4096 key points (the empty infimum, and the value both programs start from, is ⊤). -/
def rowmin (q k : Cloud) : Rows :=
  fun i => (Finset.univ : Finset (Fin 4096)).inf fun m => dist q k (i 0) (i 1) m

/-- The inner product does not depend on which point is called the query. -/
theorem dot_swap (q k : Cloud) (b : Fin 8) (n m : Fin 4096) : dot q k b n m = dot k q b m n := by
  unfold dot
  exact Finset.sum_congr rfl fun d _ => mul_comm _ _

/-- The expanded squared distance is symmetric: the two squared norms change places and so do the factors of
    the inner product. -/
theorem dist_swap (q k : Cloud) (b : Fin 8) (n m : Fin 4096) : dist q k b n m = dist k q b m n := by
  unfold dist
  rw [dot_swap q k b n m, add_comm (sq q b n) (sq k b m)]

/-- The same infimum restricted to the key points below `256 * j`: what an accumulation over key tiles of 256
    points has seen after `j` tiles. -/
def rowminUpTo (q k : Cloud) (j : ℕ) : Rows :=
  fun i => ((Finset.univ : Finset (Fin 4096)).filter fun m => m.val < 256 * j).inf fun m => dist q k (i 0) (i 1) m

/-- Before any tile nothing has been seen: the empty infimum. -/
theorem rowminUpTo_zero (q k : Cloud) : rowminUpTo q k 0 = fun _ => ⊤ := by
  funext i
  unfold rowminUpTo
  rw [show ((Finset.univ : Finset (Fin 4096)).filter fun m => m.val < 256 * 0) = ∅ from
    Finset.filter_eq_empty_iff.mpr fun m _ => by omega]
  exact Finset.inf_empty

/-- After all sixteen tiles every key point has been seen. -/
theorem rowminUpTo_all (q k : Cloud) : rowminUpTo q k 16 = rowmin q k := by
  funext i
  unfold rowminUpTo rowmin
  rw [show ((Finset.univ : Finset (Fin 4096)).filter fun m => m.val < 256 * 16) = Finset.univ from
    Finset.filter_eq_self.mpr fun m _ => by have := m.isLt; omega]

/-- The word both programs start a minimum from denotes the top of the extended reals. -/
theorem inf_word : Ideal.ofBits .f32 0x7F800000#32 = (⊤ : EReal) := by
  simp [Ideal.ofBits, Ideal.ieee]

end Cert.Chamfer

end
-- ==== Proof.Payload.lean ====
/-
  The arithmetic of one grid step of the row-minimum kernel, read entry by entry at the extended reals.

  One step holds a block of 512 query points, a block of 256 key points and the running minimum kept for each
  query point.  For query point `r` and key point `l` of cloud `b` the step forms
  |x0 r|² + |x1 l|² − 2 · ⟨x0 r, x1 l⟩, takes the least of these over the 256 key points of the block, and
  keeps the smaller of that and the running minimum.  Before the first key block the running minimum is ⊤.

  The last statement is the tiling law of the specification: the key points below 256 (j + 1) are those below
  256 j together with the 256 points 256 j + l, and an infimum over a union is the smaller of the two infima.
-/
import proofs.«137223_j18863496364104_1_alg».proof.Proof.Spec
import proofs.«137223_j18863496364104_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.Chamfer.Tile

open Idealize.ShloMosaic Idealize.ShloMosaic.ValueIdx

/-- The value the running minimum starts from is ⊤ at every entry. -/
theorem fill0_apply (b : Fin 8) (r : Fin 512) :
    Cert.KernelIdeal.Gen.k0_pay1 (F := Ideal) (ix2 b r) = (⊤ : EReal) := by
  unfold Cert.KernelIdeal.Gen.k0_pay1
  rw [shapeCast_self]
  exact Cert.Chamfer.inf_word

/-- The same for the second call of the kernel. -/
theorem fill1_apply (b : Fin 8) (r : Fin 512) :
    Cert.KernelIdeal.Gen.k1_pay1 (F := Ideal) (ix2 b r) = (⊤ : EReal) := by
  unfold Cert.KernelIdeal.Gen.k1_pay1
  rw [shapeCast_self]
  exact Cert.Chamfer.inf_word

/-! ## The operations of the step that are not entrywise, each read at an entry -/

/-- The sum over the three coordinates of a point, read at the point: the lane sum of a block of 512 points. -/
theorem laneSum_q (v : FVec Ideal Cert.KernelIdeal.S8x512x3 .f32)
    (h : Cert.KernelIdeal.S8x512x3.Reduces [2] Cert.KernelIdeal.S8x512) (hφ : FKind.Formats .f32)
    (hacc : (0x00000000#32 : BitVec 32) = 0x00000000#32) (b : Fin 8) (r : Fin 512) :
    multiReduction (F := Ideal) .add [2] Cert.KernelIdeal.S8x512 v 0x00000000#32 h hφ hacc (ix2 b r)
      = ∑ d : Fin 3, v (ix3 b r d) := by
  refine (Ideal.multiReduction_add_single v 0x00000000#32 h hφ hacc (ix2 b r)).trans ?_
  exact Finset.sum_congr rfl fun d _ => congrArg v (funext fun a => Fin.ext (by
    match a with
    | ⟨0, _⟩ => rfl
    | ⟨1, _⟩ => rfl
    | ⟨2, _⟩ => rfl))

/-- The same for a block of 256 points. -/
theorem laneSum_k (v : FVec Ideal Cert.KernelIdeal.S8x256x3 .f32)
    (h : Cert.KernelIdeal.S8x256x3.Reduces [2] Cert.KernelIdeal.S8x256) (hφ : FKind.Formats .f32)
    (hacc : (0x00000000#32 : BitVec 32) = 0x00000000#32) (b : Fin 8) (l : Fin 256) :
    multiReduction (F := Ideal) .add [2] Cert.KernelIdeal.S8x256 v 0x00000000#32 h hφ hacc (ix2 b l)
      = ∑ d : Fin 3, v (ix3 b l d) := by
  refine (Ideal.multiReduction_add_single v 0x00000000#32 h hφ hacc (ix2 b l)).trans ?_
  exact Finset.sum_congr rfl fun d _ => congrArg v (funext fun a => Fin.ext (by
    match a with
    | ⟨0, _⟩ => rfl
    | ⟨1, _⟩ => rfl
    | ⟨2, _⟩ => rfl))

/-- The least entry of a row of 256, started from the word of +∞, is the infimum over the row. -/
theorem laneMin (v : FVec Ideal Cert.KernelIdeal.S8x512x256 .f32)
    (h : Cert.KernelIdeal.S8x512x256.Reduces [2] Cert.KernelIdeal.S8x512) (hφ : FKind.Formats .f32)
    (hacc : (0x7F800000#32 : BitVec 32) = 0x7F800000#32) (b : Fin 8) (r : Fin 512) :
    multiReduction (F := Ideal) .minimumf [2] Cert.KernelIdeal.S8x512 v 0x7F800000#32 h hφ hacc (ix2 b r)
      = (Finset.univ : Finset (Fin 256)).inf fun l => v (ix3 b r l) := by
  refine (multiReduction_minimumf_eq_fold v 0x7F800000#32 h hφ hacc (ix2 b r)).trans ?_
  refine (h.fold_filter_drop_single FloatOps.minimumf (FloatOps.ofBits .f32 0x7F800000#32) v (ix2 b r)).trans ?_
  have e : (v ∘ h.lift (ix2 b r)) = fun l : Fin 256 => v (ix3 b r l) :=
    funext fun l => congrArg v (funext fun a => Fin.ext (by
      match a with
      | ⟨0, _⟩ => rfl
      | ⟨1, _⟩ => rfl
      | ⟨2, _⟩ => rfl))
  show Finset.fold (fun x y : EReal => min x y) (Ideal.ofBits .f32 0x7F800000#32) (v ∘ h.lift (ix2 b r))
    (Finset.univ : Finset (Fin 256)) = _
  rw [e, Cert.Chamfer.inf_word]
  rfl

/-- The left operand's index of the product at an entry and a contraction coordinate, axis by axis. -/
theorem lhs_0 (i : Cert.KernelIdeal.S8x512x256.Idx) (q : Cert.KernelIdeal.dot_S8x512x3_S8x256x3_S8x512x256_2_2_1_1_0_0.contr.Idx) : (Cert.KernelIdeal.dot_S8x512x3_S8x256x3_S8x512x256_2_2_1_1_0_0.lhsIdx i q 0).val = (i 0).val := by
  unfold DotDims.lhsIdx
  rw [dif_pos (show (0 : Fin Cert.KernelIdeal.S8x512x3.rank) ∈ Cert.KernelIdeal.dot_S8x512x3_S8x256x3_S8x512x256_2_2_1_1_0_0.lhsBatch by decide)]
  rfl
theorem lhs_1 (i : Cert.KernelIdeal.S8x512x256.Idx) (q : Cert.KernelIdeal.dot_S8x512x3_S8x256x3_S8x512x256_2_2_1_1_0_0.contr.Idx) : (Cert.KernelIdeal.dot_S8x512x3_S8x256x3_S8x512x256_2_2_1_1_0_0.lhsIdx i q 1).val = (i 1).val := by
  unfold DotDims.lhsIdx
  rw [dif_neg (show ¬(1 : Fin Cert.KernelIdeal.S8x512x3.rank) ∈ Cert.KernelIdeal.dot_S8x512x3_S8x256x3_S8x512x256_2_2_1_1_0_0.lhsBatch by decide),
    dif_pos (show (1 : Fin Cert.KernelIdeal.S8x512x3.rank) ∈ Cert.KernelIdeal.dot_S8x512x3_S8x256x3_S8x512x256_2_2_1_1_0_0.lhsNonContracting by decide)]
  rfl
theorem lhs_2 (i : Cert.KernelIdeal.S8x512x256.Idx) (q : Cert.KernelIdeal.dot_S8x512x3_S8x256x3_S8x512x256_2_2_1_1_0_0.contr.Idx) :
    (Cert.KernelIdeal.dot_S8x512x3_S8x256x3_S8x512x256_2_2_1_1_0_0.lhsIdx i q 2).val = (q ⟨0, by decide⟩).val :=
  Cert.KernelIdeal.dot_S8x512x3_S8x256x3_S8x512x256_2_2_1_1_0_0.lhsIdx_val_of_single rfl i q
/-- The right operand's index likewise. -/
theorem rhs_0 (i : Cert.KernelIdeal.S8x512x256.Idx) (q : Cert.KernelIdeal.dot_S8x512x3_S8x256x3_S8x512x256_2_2_1_1_0_0.contr.Idx) : (Cert.KernelIdeal.dot_S8x512x3_S8x256x3_S8x512x256_2_2_1_1_0_0.rhsIdx i q 0).val = (i 0).val := by
  unfold DotDims.rhsIdx
  rw [dif_pos (show (0 : Fin Cert.KernelIdeal.S8x256x3.rank) ∈ Cert.KernelIdeal.dot_S8x512x3_S8x256x3_S8x512x256_2_2_1_1_0_0.rhsBatch by decide)]
  rfl
theorem rhs_1 (i : Cert.KernelIdeal.S8x512x256.Idx) (q : Cert.KernelIdeal.dot_S8x512x3_S8x256x3_S8x512x256_2_2_1_1_0_0.contr.Idx) : (Cert.KernelIdeal.dot_S8x512x3_S8x256x3_S8x512x256_2_2_1_1_0_0.rhsIdx i q 1).val = (i 2).val := by
  unfold DotDims.rhsIdx
  rw [dif_neg (show ¬(1 : Fin Cert.KernelIdeal.S8x256x3.rank) ∈ Cert.KernelIdeal.dot_S8x512x3_S8x256x3_S8x512x256_2_2_1_1_0_0.rhsBatch by decide),
    dif_pos (show (1 : Fin Cert.KernelIdeal.S8x256x3.rank) ∈ Cert.KernelIdeal.dot_S8x512x3_S8x256x3_S8x512x256_2_2_1_1_0_0.rhsNonContracting by decide)]
  rfl
theorem rhs_2 (i : Cert.KernelIdeal.S8x512x256.Idx) (q : Cert.KernelIdeal.dot_S8x512x3_S8x256x3_S8x512x256_2_2_1_1_0_0.contr.Idx) :
    (Cert.KernelIdeal.dot_S8x512x3_S8x256x3_S8x512x256_2_2_1_1_0_0.rhsIdx i q 2).val = (q ⟨0, by decide⟩).val :=
  Cert.KernelIdeal.dot_S8x512x3_S8x256x3_S8x512x256_2_2_1_1_0_0.rhsIdx_val_of_single rfl i q

/-- The product of the two blocks into a zero accumulator, read at an entry: the inner product of query point
    `r` and key point `l` of cloud `b`. -/
theorem matmul_read (x0 : FVec Ideal Cert.KernelIdeal.S8x512x3 .bf16) (x1 : FVec Ideal Cert.KernelIdeal.S8x256x3 .bf16)
    (b : Fin 8) (r : Fin 512) (l : Fin 256) :
    matmul Cert.KernelIdeal.dot_S8x512x3_S8x256x3_S8x512x256_2_2_1_1_0_0 none x0 x1 (constant (F := Ideal) Cert.KernelIdeal.S8x512x256 .f32 0x00000000#32) (ix3 b r l)
      = ∑ d : Fin 3, x0 (ix3 b r d) * x1 (ix3 b l d) := by
  refine (Ideal.matmul_constant_zero_apply Cert.KernelIdeal.dot_S8x512x3_S8x256x3_S8x512x256_2_2_1_1_0_0 none x0 x1 (ix3 b r l)).trans ?_
  rw [← Equiv.sum_comp (contrEquiv1 Cert.KernelIdeal.dot_S8x512x3_S8x256x3_S8x512x256_2_2_1_1_0_0 3 rfl rfl).symm]
  refine Finset.sum_congr rfl fun k _ => ?_
  have hk := contrEquiv1_symm_val Cert.KernelIdeal.dot_S8x512x3_S8x256x3_S8x512x256_2_2_1_1_0_0 3 rfl rfl k
  have el : Cert.KernelIdeal.dot_S8x512x3_S8x256x3_S8x512x256_2_2_1_1_0_0.lhsIdx (ix3 b r l) ((contrEquiv1 Cert.KernelIdeal.dot_S8x512x3_S8x256x3_S8x512x256_2_2_1_1_0_0 3 rfl rfl).symm k) = ix3 b r k :=
    funext fun a => Fin.ext (by
      match a with
      | ⟨0, _⟩ => exact lhs_0 _ _
      | ⟨1, _⟩ => exact lhs_1 _ _
      | ⟨2, _⟩ => exact (lhs_2 _ _).trans hk)
  have er : Cert.KernelIdeal.dot_S8x512x3_S8x256x3_S8x512x256_2_2_1_1_0_0.rhsIdx (ix3 b r l) ((contrEquiv1 Cert.KernelIdeal.dot_S8x512x3_S8x256x3_S8x512x256_2_2_1_1_0_0 3 rfl rfl).symm k) = ix3 b l k :=
    funext fun a => Fin.ext (by
      match a with
      | ⟨0, _⟩ => exact rhs_0 _ _
      | ⟨1, _⟩ => exact rhs_1 _ _
      | ⟨2, _⟩ => exact (rhs_2 _ _).trans hk)
  rw [el, er]

/-- A value per point viewed as a column, [8,512] as [8,512,1], reads the point's value. -/
theorem column_q {α : Type} (v : Cert.KernelIdeal.S8x512.Idx → α) (h : Cert.KernelIdeal.S8x512.ShapeCasts Cert.KernelIdeal.S8x512x1)
    (b : Fin 8) (r : Fin 512) (u : Fin 1) :
    shapeCast Cert.KernelIdeal.S8x512x1 v h (ix3 b r u) = v (ix2 b r) :=
  shapeCast_apply v h _ _ (by
    have hu : u.val = 0 := by omega
    rw [Shape.rowMajor_val_three, Shape.rowMajor_val_two]
    show b.val * 512 + r.val = (b.val * 512 + r.val) * 1 + u.val
    omega)

/-- A value per point viewed as a row, [8,256] as [8,1,256], reads the point's value. -/
theorem row_k {α : Type} (v : Cert.KernelIdeal.S8x256.Idx → α) (h : Cert.KernelIdeal.S8x256.ShapeCasts Cert.KernelIdeal.S8x1x256)
    (b : Fin 8) (u : Fin 1) (l : Fin 256) :
    shapeCast Cert.KernelIdeal.S8x1x256 v h (ix3 b u l) = v (ix2 b l) :=
  shapeCast_apply v h _ _ (by
    have hu : u.val = 0 := by omega
    rw [Shape.rowMajor_val_three, Shape.rowMajor_val_two]
    show b.val * 256 + l.val = (b.val * 1 + u.val) * 256 + l.val
    omega)

/-- The column repeated along the keys: entry (b, r, l) reads the column at (b, r). -/
theorem spread_q {α : Type} (v : Cert.KernelIdeal.S8x512x1.Idx → α) (h : Cert.KernelIdeal.S8x512x1.Broadcasts Cert.KernelIdeal.S8x512x256)
    (b : Fin 8) (r : Fin 512) (l : Fin 256) :
    broadcastTo Cert.KernelIdeal.S8x512x256 v h (ix3 b r l) = v (ix3 b r (0 : Fin 1)) :=
  broadcastTo_apply v h (ix3 b r l) (ix3 b r (0 : Fin 1)) fun ax => by
    match ax with
    | ⟨0, _⟩ => rfl
    | ⟨1, _⟩ => rfl
    | ⟨2, _⟩ => rfl

/-- The row repeated along the queries: entry (b, r, l) reads the row at (b, l). -/
theorem spread_k {α : Type} (v : Cert.KernelIdeal.S8x1x256.Idx → α) (h : Cert.KernelIdeal.S8x1x256.Broadcasts Cert.KernelIdeal.S8x512x256)
    (b : Fin 8) (r : Fin 512) (l : Fin 256) :
    broadcastTo Cert.KernelIdeal.S8x512x256 v h (ix3 b r l) = v (ix3 b (0 : Fin 1) l) :=
  broadcastTo_apply v h (ix3 b r l) (ix3 b (0 : Fin 1) l) fun ax => by
    match ax with
    | ⟨0, _⟩ => rfl
    | ⟨1, _⟩ => rfl
    | ⟨2, _⟩ => rfl

/-! ## One step of the kernel -/

/-- The least expanded squared distance of query point `r` to the 256 key points of the block, in cloud `b`. -/
def tileMin (x0 : Vec Ideal Cert.KernelIdeal.S8x512x3 .f32) (x1 : Vec Ideal Cert.KernelIdeal.S8x256x3 .f32)
    (b : Fin 8) (r : Fin 512) : EReal :=
  (Finset.univ : Finset (Fin 256)).inf fun l =>
    (∑ d : Fin 3, x0 (ix3 b r d) * x0 (ix3 b r d)) + (∑ d : Fin 3, x1 (ix3 b l d) * x1 (ix3 b l d))
      - Cert.Chamfer.two * ∑ d : Fin 3, x0 (ix3 b r d) * x1 (ix3 b l d)

/-- One step at an entry: the smaller of the running minimum and the least expanded squared distance to the key
    points of the block. -/
theorem step0_apply (x0 : Vec Ideal Cert.KernelIdeal.S8x512x3 .f32) (x1 : Vec Ideal Cert.KernelIdeal.S8x256x3 .f32)
    (s : Vec Ideal Cert.KernelIdeal.S8x512 .f32) (b : Fin 8) (r : Fin 512) :
    Cert.KernelIdeal.Gen.k0_pay2 (F := Ideal) x0 x1 s (ix2 b r) = min (s (ix2 b r)) (tileMin x0 x1 b r) := by
  unfold Cert.KernelIdeal.Gen.k0_pay2
  rw [shapeCast_self, minimumf_apply]
  refine congrArg (min (s (ix2 b r))) ?_
  refine (laneMin _ _ _ _ b r).trans ?_
  unfold tileMin
  refine Finset.inf_congr rfl fun l _ => ?_
  rw [subf_apply, addf_apply, mulf_apply, broadcast_apply]
  have hA := (spread_q _ Cert.KernelIdeal.Gen.broadcasts_S8x512x1_S8x512x256 b r l).trans
    ((column_q _ Cert.KernelIdeal.Gen.shapeCasts_S8x512_S8x512x1 b r (0 : Fin 1)).trans
      (laneSum_q (mulf x0 x0) Cert.KernelIdeal.Gen.reduces_S8x512x3_S8x512 (.inl rfl) rfl b r))
  have hB := (spread_k _ Cert.KernelIdeal.Gen.broadcasts_S8x1x256_S8x512x256 b r l).trans
    ((row_k _ Cert.KernelIdeal.Gen.shapeCasts_S8x256_S8x1x256 b (0 : Fin 1) l).trans
      (laneSum_k (mulf x1 x1) Cert.KernelIdeal.Gen.reduces_S8x256x3_S8x256 (.inl rfl) rfl b l))
  have hC := matmul_read (truncf .bf16 x0 Cert.KernelIdeal.Gen.bitsLt_bf16_f32) (truncf .bf16 x1 Cert.KernelIdeal.Gen.bitsLt_bf16_f32) b r l
  exact congrArg₂ (· - ·) (congrArg₂ (· + ·) hA hB) (congrArg₂ (· * ·) rfl hC)

/-- The same for the second call of the kernel. -/
theorem step1_apply (x0 : Vec Ideal Cert.KernelIdeal.S8x512x3 .f32) (x1 : Vec Ideal Cert.KernelIdeal.S8x256x3 .f32)
    (s : Vec Ideal Cert.KernelIdeal.S8x512 .f32) (b : Fin 8) (r : Fin 512) :
    Cert.KernelIdeal.Gen.k1_pay2 (F := Ideal) x0 x1 s (ix2 b r) = min (s (ix2 b r)) (tileMin x0 x1 b r) := by
  unfold Cert.KernelIdeal.Gen.k1_pay2
  rw [shapeCast_self, minimumf_apply]
  refine congrArg (min (s (ix2 b r))) ?_
  refine (laneMin _ _ _ _ b r).trans ?_
  unfold tileMin
  refine Finset.inf_congr rfl fun l _ => ?_
  rw [subf_apply, addf_apply, mulf_apply, broadcast_apply]
  have hA := (spread_q _ Cert.KernelIdeal.Gen.broadcasts_S8x512x1_S8x512x256 b r l).trans
    ((column_q _ Cert.KernelIdeal.Gen.shapeCasts_S8x512_S8x512x1 b r (0 : Fin 1)).trans
      (laneSum_q (mulf x0 x0) Cert.KernelIdeal.Gen.reduces_S8x512x3_S8x512 (.inl rfl) rfl b r))
  have hB := (spread_k _ Cert.KernelIdeal.Gen.broadcasts_S8x1x256_S8x512x256 b r l).trans
    ((row_k _ Cert.KernelIdeal.Gen.shapeCasts_S8x256_S8x1x256 b (0 : Fin 1) l).trans
      (laneSum_k (mulf x1 x1) Cert.KernelIdeal.Gen.reduces_S8x256x3_S8x256 (.inl rfl) rfl b l))
  have hC := matmul_read (truncf .bf16 x0 Cert.KernelIdeal.Gen.bitsLt_bf16_f32) (truncf .bf16 x1 Cert.KernelIdeal.Gen.bitsLt_bf16_f32) b r l
  exact congrArg₂ (· - ·) (congrArg₂ (· + ·) hA hB) (congrArg₂ (· * ·) rfl hC)

/-! ## The tiling law of the specification -/

/-- The tiling law: after one more key tile the running infimum is the smaller of what it was and the infimum
    over the 256 key points of the new tile. -/
theorem rowminUpTo_succ (q k : Cert.Chamfer.Cloud) (j : ℕ) (hj : j < 16) (b : Fin 8) (n : Fin 4096) :
    Cert.Chamfer.rowminUpTo q k (j + 1) (ix2 b n) =
      min (Cert.Chamfer.rowminUpTo q k j (ix2 b n))
        ((Finset.univ : Finset (Fin 256)).inf fun l =>
          Cert.Chamfer.dist q k b n ⟨256 * j + l.val, by have := l.isLt; omega⟩) := by
  unfold Cert.Chamfer.rowminUpTo
  have hset : ((Finset.univ : Finset (Fin 4096)).filter fun m => m.val < 256 * (j + 1)) =
      ((Finset.univ : Finset (Fin 4096)).filter fun m => m.val < 256 * j) ∪
        (Finset.univ : Finset (Fin 256)).image
          (fun l => (⟨256 * j + l.val, by have := l.isLt; omega⟩ : Fin 4096)) := by
    ext m
    simp only [Finset.mem_filter, Finset.mem_univ, true_and, Finset.mem_union, Finset.mem_image]
    constructor
    · intro h
      by_cases h' : m.val < 256 * j
      · exact Or.inl h'
      · exact Or.inr ⟨⟨m.val - 256 * j, by omega⟩, Fin.ext (by show 256 * j + (m.val - 256 * j) = m.val; omega)⟩
    · rintro (h | ⟨l, rfl⟩)
      · omega
      · have := l.isLt
        show 256 * j + l.val < 256 * (j + 1)
        omega
  rw [hset, Finset.inf_union, Finset.inf_image]
  rfl

end Cert.Chamfer.Tile

end
-- ==== Proof.Value0.lean ====
/-
  The first pallas_call read as values: what the scratch and the output block hold after every grid point, and
  what the output array holds after the last.

  Point t belongs to query tile t / 16 and key tile t % 16.  After point t the scratch holds, for query point r of
  the tile and cloud b, the least expanded squared distance from point 512 (t / 16) + r of the query cloud to the
  key points below 256 (t % 16 + 1): at the first key tile the refill ⊤ is lowered by the tile's infimum, at a later
  one what the point before left is.  At the last key tile all 4096 key points have been seen and the output block
  receives the row minimum; the eight output blocks tile the array.
-/
import proofs.«137223_j18863496364104_1_alg».proof.Proof.Region0
import proofs.«137223_j18863496364104_1_alg».proof.Proof.Pieces0
import proofs.«137223_j18863496364104_1_alg».proof.Proof.Blocks0
import proofs.«137223_j18863496364104_1_alg».proof.Proof.Payload
import proofs.«137223_j18863496364104_1_alg».proof.Proof.Spec
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## One point -/

/-- The tile's least distance, read in the two clouds: query point `r` of the block is point 512 (t / 16) + r of the
    query cloud, key point `l` of the block is point 256 (t % 16) + l of the key cloud. -/
theorem tile_dist (c : Dev nD) (t : Fin cfg0.N) (b : Fin 8) (r : Fin 512) :
    Cert.Chamfer.Tile.tileMin (blockAt V c 0 t) (blockAt V c 1 t) b r
      = (Finset.univ : Finset (Fin 256)).inf fun l =>
          Cert.Chamfer.dist (V c (Pipeline.arrRef spec0 0)) (V c (Pipeline.arrRef spec0 1)) b ⟨512 * (t.val / 16) + r.val, by have := t.isLt; have : cfg0.N = 128 := N_0; have := r.isLt; omega⟩
            ⟨256 * (t.val % 16) + l.val, by have := l.isLt; omega⟩ := by
  unfold Cert.Chamfer.Tile.tileMin
  refine Finset.inf_congr rfl fun l _ => ?_
  unfold Cert.Chamfer.dist Cert.Chamfer.sq Cert.Chamfer.dot
  simp only [query_block_apply V c t, key_block_apply V c t]

/-- One step over a scratch that holds the infimum over the key points below 256 (t % 16) leaves the infimum over
    those below 256 (t % 16 + 1). -/
theorem payload_rows (c : Dev nD) (t : Fin cfg0.N) (xs : Vec Ideal S8x512 .f32) (b : Fin 8) (r : Fin 512)
    (hxs : xs (ix2 b r) = Cert.Chamfer.rowminUpTo (V c (Pipeline.arrRef spec0 0)) (V c (Pipeline.arrRef spec0 1)) (t.val % 16) (ix2 b ⟨512 * (t.val / 16) + r.val, by have := t.isLt; have : cfg0.N = 128 := N_0; have := r.isLt; omega⟩)) :
    k0_pay2 (F := Ideal) (blockAt V c 0 t) (blockAt V c 1 t) xs (ix2 b r)
      = Cert.Chamfer.rowminUpTo (V c (Pipeline.arrRef spec0 0)) (V c (Pipeline.arrRef spec0 1)) (t.val % 16 + 1) (ix2 b ⟨512 * (t.val / 16) + r.val, by have := t.isLt; have : cfg0.N = 128 := N_0; have := r.isLt; omega⟩) := by
  have hj : t.val % 16 < 16 := Nat.mod_lt _ (by decide)
  refine (Cert.Chamfer.Tile.step0_apply (blockAt V c 0 t) (blockAt V c 1 t) xs b r).trans ?_
  rw [hxs, tile_dist V c t b r]
  exact (Cert.Chamfer.Tile.rowminUpTo_succ (V c (Pipeline.arrRef spec0 0)) (V c (Pipeline.arrRef spec0 1)) (t.val % 16) hj b _).symm

/-- What the point before left, restated at this point: a point that is not of the first key tile has the query tile of
    the point before it, and one more key tile behind it. -/
theorem carry_rows (c : Dev nD) (t : Fin cfg0.N) (h0 : ¬t.val % 16 = 0) (hlt : t.val - 1 < cfg0.N) (b : Fin 8) (r : Fin 512)
    (hp : (pointAfter V c (t.val - 1) hlt).2 (ix2 b r)
      = Cert.Chamfer.rowminUpTo (V c (Pipeline.arrRef spec0 0)) (V c (Pipeline.arrRef spec0 1)) ((t.val - 1) % 16 + 1)
          (ix2 b ⟨512 * ((t.val - 1) / 16) + r.val, by have : cfg0.N = 128 := N_0; have := r.isLt; omega⟩)) :
    (pointAfter V c (t.val - 1) hlt).2 (ix2 b r)
      = Cert.Chamfer.rowminUpTo (V c (Pipeline.arrRef spec0 0)) (V c (Pipeline.arrRef spec0 1)) (t.val % 16) (ix2 b ⟨512 * (t.val / 16) + r.val, by have := t.isLt; have : cfg0.N = 128 := N_0; have := r.isLt; omega⟩) := by
  have hN : cfg0.N = 128 := N_0
  have hr := r.isLt
  have ht := t.isLt
  have ej : (t.val - 1) % 16 + 1 = t.val % 16 := by omega
  have en : (⟨512 * ((t.val - 1) / 16) + r.val, by omega⟩ : Fin 4096) = ⟨512 * (t.val / 16) + r.val, by omega⟩ :=
    Fin.ext (by show 512 * ((t.val - 1) / 16) + r.val = 512 * (t.val / 16) + r.val; omega)
  rw [hp, ej, en]

/-! ## The scratch after every point -/

/-- After point `t` the scratch holds, at query point `r` of the tile, the least distance to the key points below
    256 (t % 16 + 1).  By induction on the point: a point of the first key tile starts from the refill, any other from
    what the point before it, of the same query tile, left. -/
theorem scratch_eq (c : Dev nD) (t : Fin cfg0.N) (b : Fin 8) (r : Fin 512) :
    (pointAfter V c t.val t.isLt).2 (ix2 b r)
      = Cert.Chamfer.rowminUpTo (V c (Pipeline.arrRef spec0 0)) (V c (Pipeline.arrRef spec0 1)) (t.val % 16 + 1) (ix2 b ⟨512 * (t.val / 16) + r.val, by have := t.isLt; have : cfg0.N = 128 := N_0; have := r.isLt; omega⟩) := by
  have hN : cfg0.N = 128 := N_0
  suffices H : ∀ (n : ℕ) (t : Fin cfg0.N), t.val = n → ∀ (b : Fin 8) (r : Fin 512),
      (pointAfter V c t.val t.isLt).2 (ix2 b r)
        = Cert.Chamfer.rowminUpTo (V c (Pipeline.arrRef spec0 0)) (V c (Pipeline.arrRef spec0 1)) (t.val % 16 + 1) (ix2 b ⟨512 * (t.val / 16) + r.val, by have := t.isLt; have : cfg0.N = 128 := N_0; have := r.isLt; omega⟩) from H t.val t rfl b r
  intro n
  induction n using Nat.strong_induction_on with
  | _ n ih =>
    intro t ht b r
    have htN : t.val < 128 := lt_of_lt_of_eq t.isLt hN
    by_cases h0 : t.val % 16 = 0
    · have h1 : ¬t.val % 16 = 15 := by omega
      rw [pointAfter_first V c t h0 h1]
      dsimp only
      rw [accFirst_eq c (grid0.coords t) (qM t) (qW t) (kM t) (kW t) (oM t) (oW t) accM (Memref.isWhole_whole _)
        ((first_iff t).mpr h0) (fun h => h1 ((last_iff t).mp h)) (blockAt V c 0 t) (blockAt V c 1 t)]
      refine payload_rows V c t _ b r ?_
      rw [Cert.Chamfer.Tile.fill0_apply, h0, Cert.Chamfer.rowminUpTo_zero]
    · have hlt : t.val - 1 < cfg0.N := Nat.lt_of_le_of_lt (Nat.sub_le _ _) t.isLt
      have hprev := carry_rows V c t h0 hlt b r (ih (t.val - 1) (by omega) ⟨t.val - 1, hlt⟩ rfl b r)
      by_cases h1 : t.val % 16 = 15
      · rw [pointAfter_last V c t h0 h1]
        dsimp only
        rw [accLast_eq c (grid0.coords t) (qM t) (qW t) (kM t) (kW t) (oM t) (oW t) accM (Memref.isWhole_whole _)
          (fun h => h0 ((first_iff t).mp h)) ((last_iff t).mpr h1) (blockAt V c 0 t) (blockAt V c 1 t)
          (pointAfter V c (t.val - 1) hlt).2]
        exact payload_rows V c t _ b r hprev
      · rw [pointAfter_inner V c t h0 h1]
        dsimp only
        rw [accInner_eq c (grid0.coords t) (qM t) (qW t) (kM t) (kW t) (oM t) (oW t) accM (Memref.isWhole_whole _)
          (fun h => h0 ((first_iff t).mp h)) (fun h => h1 ((last_iff t).mp h)) (blockAt V c 0 t) (blockAt V c 1 t)
          (pointAfter V c (t.val - 1) hlt).2]
        exact payload_rows V c t _ b r hprev

/-! ## The output block at the last key tile -/

/-- At a point of the last key tile the output block receives the same payload as the scratch: all 4096 key points
    have been seen, so it is the row minimum. -/
theorem out_eq (c : Dev nD) (t : Fin cfg0.N) (h : t.val % 16 = 15) (b : Fin 8) (r : Fin 512) :
    (pointAfter V c t.val t.isLt).1 (ix2 b r)
      = Cert.Chamfer.rowmin (V c (Pipeline.arrRef spec0 0)) (V c (Pipeline.arrRef spec0 1)) (ix2 b ⟨512 * (t.val / 16) + r.val, by have := t.isLt; have : cfg0.N = 128 := N_0; have := r.isLt; omega⟩) := by
  have hN : cfg0.N = 128 := N_0
  have h0 : ¬t.val % 16 = 0 := by omega
  have hlt : t.val - 1 < cfg0.N := Nat.lt_of_le_of_lt (Nat.sub_le _ _) t.isLt
  have hprev := carry_rows V c t h0 hlt b r (scratch_eq V c ⟨t.val - 1, hlt⟩ b r)
  rw [pointAfter_last V c t h0 h]
  dsimp only
  rw [outLast_eq c (grid0.coords t) (qM t) (qW t) (kM t) (kW t) (oM t) (oW t) accM (Memref.isWhole_whole _)
    (fun h' => h0 ((first_iff t).mp h')) ((last_iff t).mpr h) (blockAt V c 0 t) (blockAt V c 1 t)
    (pointAfter V c (t.val - 1) hlt).2]
  refine (payload_rows V c t _ b r hprev).trans ?_
  rw [h]
  exact congrFun (Cert.Chamfer.rowminUpTo_all (V c (Pipeline.arrRef spec0 0)) (V c (Pipeline.arrRef spec0 1))) _

/-! ## From the output blocks to the output array -/

/-- The output window's block index at every point: the query tile on the point axis, zero on the cloud axis. -/
theorem out_index : ∀ t : Fin cfg0.N, win0_2.index t (0 : Fin 2) = 0 ∧ win0_2.index t (1 : Fin 2) = t.val / 16 :=
  (by decide +kernel : ∀ t : Fin grid0.N, win0_2.index t (0 : Fin 2) = 0 ∧ win0_2.index t (1 : Fin 2) = t.val / 16)

/-- What a point of the last key tile writes back is its block of the row minimum. -/
theorem flushed_rows (c : Dev nD) (t : Fin cfg0.N) (h : (cfg0.win 2).flush t = true) :
    (dat V c).flushed 2 t
      = ((cfg0.win 2).blk t).view.read (Elt Ideal) (Cert.Chamfer.rowmin (V c (Pipeline.arrRef spec0 0)) (V c (Pipeline.arrRef spec0 1))) := by
  have h15 : t.val % 16 = 15 := (flush0_2 t).mp h
  have hN : cfg0.N = 128 := N_0
  have htN : t.val < 128 := lt_of_lt_of_eq t.isLt hN
  obtain ⟨i0, i1⟩ := out_index t
  show (cfg0.win 2).cut (grid0.coords t) ((dat V c).after 2 t) = _
  rw [after_out]
  funext y
  have hb : (y 0).val < 8 := (y 0).isLt
  have hr : (y 1).val < 512 := (y 1).isLt
  show (pointAfter V c t.val t.isLt).1 ((cfg0.win 2).xinj (grid0.coords t) y)
    = Cert.Chamfer.rowmin (V c (Pipeline.arrRef spec0 0)) (V c (Pipeline.arrRef spec0 1)) (((cfg0.win 2).blk t).view.emb y)
  have ex : (cfg0.win 2).xinj (grid0.coords t) y = ix2 (⟨(y 0).val, hb⟩ : Fin 8) (⟨(y 1).val, hr⟩ : Fin 512) :=
    funext fun a => Fin.ext (by
      match a with
      | ⟨0, _⟩ => rfl
      | ⟨1, _⟩ => rfl)
  have ee : ((cfg0.win 2).blk t).view.emb y
      = ix2 (⟨(y 0).val, hb⟩ : Fin 8) (⟨512 * (t.val / 16) + (y 1).val, by omega⟩ : Fin 4096) :=
    funext fun a => Fin.ext (by
      match a with
      | ⟨0, _⟩ => show win0_2.index t (0 : Fin 2) * 8 + 1 * (y 0).val = (y 0).val; rw [i0]; omega
      | ⟨1, _⟩ => show win0_2.index t (1 : Fin 2) * 512 + 1 * (y 1).val = 512 * (t.val / 16) + (y 1).val; rw [i1]; omega)
  rw [ex, ee]
  exact out_eq V c t h15 ⟨(y 0).val, hb⟩ ⟨(y 1).val, hr⟩

/-- An entry of the array lies in a point's output block iff each coordinate lies in the block's range on its axis. -/
theorem mem_out_block (t : Fin cfg0.N) (i : S8x4096.Idx) :
    i ∈ ((cfg0.win 2).blk t).view.set
      ↔ ∀ a : Fin 2, win0_2.index t a * S8x512.size a ≤ (i a).val
          ∧ (i a).val < win0_2.index t a * S8x512.size a + S8x512.size a := by
  show i ∈ ((View.whole main_v0).slice (win0_2.rect t)).set ↔ _
  rw [View.set_slice_whole, Rect.mem_set_unit]
  exact Iff.rfl

/-- After the last point the output array holds the row minimum: row `n` lies in the block written back at the point
    of the last key tile of query tile `n / 512`. -/
theorem final_rows (c : Dev nD) :
    (dat (F := Ideal) V c).arrAt 2 cfg0.N
      = Cert.Chamfer.rowmin (V c (Pipeline.arrRef spec0 0)) (V c (Pipeline.arrRef spec0 1)) :=
  (dat V c).arrAt_eq_of_cover 2 (Cert.Chamfer.rowmin (V c (Pipeline.arrRef spec0 0)) (V c (Pipeline.arrRef spec0 1))) (flushed_rows V c) fun i => by
    have hN : cfg0.N = 128 := N_0
    have hi0 : (i 0).val < 8 := (i 0).isLt
    have hi1 : (i 1).val < 4096 := (i 1).isLt
    have hlt : 16 * ((i 1).val / 512) + 15 < cfg0.N := by omega
    refine ⟨⟨16 * ((i 1).val / 512) + 15, hlt⟩, (flush0_2 _).mpr (by show (16 * ((i 1).val / 512) + 15) % 16 = 15; omega), ?_⟩
    rw [mem_out_block]
    obtain ⟨e0, e1⟩ := out_index ⟨16 * ((i 1).val / 512) + 15, hlt⟩
    have e1' : win0_2.index ⟨16 * ((i 1).val / 512) + 15, hlt⟩ (1 : Fin 2) = (16 * ((i 1).val / 512) + 15) / 16 := e1
    intro a
    match a with
    | ⟨0, _⟩ =>
      show win0_2.index ⟨16 * ((i 1).val / 512) + 15, hlt⟩ (0 : Fin 2) * 8 ≤ (i 0).val
        ∧ (i 0).val < win0_2.index ⟨16 * ((i 1).val / 512) + 15, hlt⟩ (0 : Fin 2) * 8 + 8
      rw [e0]; omega
    | ⟨1, _⟩ =>
      show win0_2.index ⟨16 * ((i 1).val / 512) + 15, hlt⟩ (1 : Fin 2) * 512 ≤ (i 1).val
        ∧ (i 1).val < win0_2.index ⟨16 * ((i 1).val / 512) + 15, hlt⟩ (1 : Fin 2) * 512 + 512
      rw [e1']; omega

end Cert.KernelIdeal.Region0

end
-- ==== Proof.Pieces1.lean ====
/-
  What the body's stores leave, as values.

  Every load and every store of the body goes through the whole of its buffer: the rectangle at offset zero with the
  buffer's own sizes.  A load through it reads the buffer's contents, one store through it leaves its payload, and a
  store through it made last hides whatever was stored before.  So the lists of pieces the three kinds of point
  write read back as the body's arithmetic applied to the blocks themselves: at an inner or last key tile the
  scratch ends at the lowered values of what it held; at the first key tile it ends at the lowered values of the
  refill, which the body had just stored and read back; and at the last key tile the output block receives what the
  scratch has just been given.
-/
import proofs.«137223_j18863496364104_1_alg».proof.Proof.Region1
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole rank-2 buffer's rectangle are all zero, -/
theorem zeroOff2 : (![0, 0] : Fin 2 → Nat) = fun _ => 0 := funext fun a => by fin_cases a <;> rfl
/-- and so are a whole rank-3 buffer's. -/
theorem zeroOff3 : (![0, 0, 0] : Fin 3 → Nat) = fun _ => 0 := funext fun a => by fin_cases a <;> rfl

/-- INNER KEY TILE: the one store of the point leaves the lowered values of what the scratch held. -/
theorem accInner_eq (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : ¬isLast i)
    (x0 : Vec F S8x512x3 .f32) (x1 : Vec F S8x256x3 .f32) (xs : Vec F S8x512 .f32) :
    accInner c i arg2 harg2 arg3 harg3 arg4 harg4 arg5 harg5 hc0 hc1 x0 x1 xs = k1_pay2 x0 x1 xs := by
  unfold accInner
  rw [View.read_writes_eq_canon _ _ _ (accInner_cover c i arg2 harg2 arg3 harg3 arg4 harg4 arg5 harg5 hc0 hc1 x0 x1 xs)]
  unfold runInner
  dsimp only
  sl_unfold_words
  rw [View.canon_unit_zero zeroOff2]
  simp only [View.readAt_eq_ld, harg2.read_unread, harg3.read_unread, harg5.read_unread, View.ld_unit_zero (S := S8x512x3) zeroOff3, View.ld_unit_zero (S := S8x256x3) zeroOff3, View.ld_unit_zero (S := S8x512) zeroOff2]

/-- FIRST KEY TILE: the refill is stored, read back, lowered and stored again; the last store hides the first. -/
theorem accFirst_eq (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : isFirst i) (hc1 : ¬isLast i)
    (x0 : Vec F S8x512x3 .f32) (x1 : Vec F S8x256x3 .f32) :
    accFirst c i arg2 harg2 arg3 harg3 arg4 harg4 arg5 harg5 hc0 hc1 x0 x1 = k1_pay2 x0 x1 (k1_pay1 (F := F)) := by
  unfold accFirst
  rw [View.read_writes_eq_canon _ _ _ (accFirst_cover c i arg2 harg2 arg3 harg3 arg4 harg4 arg5 harg5 hc0 hc1 x0 x1)]
  unfold runFirst
  dsimp only
  sl_unfold_words
  rw [View.canon_cons_unit_zero (S := S8x512) zeroOff2, View.readCov_unit_zero (S := S8x512) _ zeroOff2]
  simp only [View.readAt_eq_ld, harg2.read_unread, harg3.read_unread, View.ld_unit_zero (S := S8x512x3) zeroOff3, View.ld_unit_zero (S := S8x256x3) zeroOff3, View.ld_unit_zero (S := S8x512) zeroOff2]

/-- LAST KEY TILE, the scratch: as at an inner key tile. -/
theorem accLast_eq (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) :
    accLast c i arg2 harg2 arg3 harg3 arg4 harg4 arg5 harg5 hc0 hc1 x0 x1 xs = k1_pay2 x0 x1 xs := by
  unfold accLast
  rw [View.read_writes_eq_canon _ _ _ (accLast_cover c i arg2 harg2 arg3 harg3 arg4 harg4 arg5 harg5 hc0 hc1 x0 x1 xs)]
  unfold runLast
  dsimp only
  sl_unfold_words
  rw [View.canon_unit_zero zeroOff2]
  simp only [View.readAt_eq_ld, harg2.read_unread, harg3.read_unread, harg5.read_unread, View.ld_unit_zero (S := S8x512x3) zeroOff3, View.ld_unit_zero (S := S8x256x3) zeroOff3, View.ld_unit_zero (S := S8x512) zeroOff2]

/-- LAST KEY TILE, the output block: a copy of what the scratch has just been given. -/
theorem outLast_eq (c : Dev nD) (i : grid1.Coords) (arg2 : Memref sig .tc .vmem S8x512x3 .f32) (harg2 : arg2.IsWhole) (arg3 : Memref sig .tc .vmem S8x256x3 .f32) (harg3 : arg3.IsWhole) (arg4 : Memref sig .tc .vmem S8x512 .f32) (harg4 : arg4.IsWhole) (arg5 : Memref sig .tc .vmem S8x512 .f32) (harg5 : arg5.IsWhole) (hc0 : ¬isFirst i) (hc1 : isLast i)
    (x0 : Vec F S8x512x3 .f32) (x1 : Vec F S8x256x3 .f32) (xs : Vec F S8x512 .f32) :
    outLast c i arg2 harg2 arg3 harg3 arg4 harg4 arg5 harg5 hc0 hc1 x0 x1 xs = k1_pay2 x0 x1 xs := by
  unfold outLast
  rw [View.read_writes_eq_canon _ _ _ (outLast_cover c i arg2 harg2 arg3 harg3 arg4 harg4 arg5 harg5 hc0 hc1 x0 x1 xs)]
  unfold runLast
  dsimp only
  sl_unfold_words
  rw [View.canon_unit_zero zeroOff2, View.readCov_unit_zero (S := S8x512) _ zeroOff2]
  simp only [View.readAt_eq_ld, harg2.read_unread, harg3.read_unread, harg5.read_unread, View.ld_unit_zero (S := S8x512x3) zeroOff3, View.ld_unit_zero (S := S8x256x3) zeroOff3, View.ld_unit_zero (S := S8x512) zeroOff2]

end Cert.KernelIdeal.Region1

end
-- ==== Proof.Blocks1.lean ====
/-
  The blocks of the query and key windows at explicit coordinates.

  The grid has 8 x 16 points; point t has query tile t / 16 and key tile t % 16.  The query window cuts the first
  cloud array into blocks of 512 points and takes block t / 16 on the point axis; the key window cuts the second
  into blocks of 256 points and takes block t % 16; neither window moves on the cloud axis or the coordinate axis.
  An element of a block sits in the array, on each axis, at the block index times the block's size plus its own
  coordinate: so entry (b, r, d) of the query block is entry (b, 512 · (t / 16) + r, d) of the first array, and
  entry (b, l, d) of the key block is entry (b, 256 · (t % 16) + l, d) of the second.
-/
import proofs.«137223_j18863496364104_1_alg».proof.Proof.Region1
import Idealize.ShloMosaic.Lib.ValueIdx
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- The query window's block index at every point: the query tile on the point axis, zero elsewhere. -/
theorem query_index : ∀ t : Fin cfg1.N, win1_0.index t (0 : Fin 3) = 0 ∧ win1_0.index t (1 : Fin 3) = t.val / 16
    ∧ win1_0.index t (2 : Fin 3) = 0 :=
  (by decide +kernel : ∀ t : Fin grid1.N, win1_0.index t (0 : Fin 3) = 0 ∧ win1_0.index t (1 : Fin 3) = t.val / 16
    ∧ win1_0.index t (2 : Fin 3) = 0)

/-- The key window's block index at every point: the key tile on the point axis, zero elsewhere. -/
theorem key_index : ∀ t : Fin cfg1.N, win1_1.index t (0 : Fin 3) = 0 ∧ win1_1.index t (1 : Fin 3) = t.val % 16
    ∧ win1_1.index t (2 : Fin 3) = 0 :=
  (by decide +kernel : ∀ t : Fin grid1.N, win1_1.index t (0 : Fin 3) = 0 ∧ win1_1.index t (1 : Fin 3) = t.val % 16
    ∧ win1_1.index t (2 : Fin 3) = 0)

/-- Row `r` of query tile `t / 16` is a row of the array. -/
theorem query_row_lt (t : Fin cfg1.N) (r : Fin 512) : 512 * (t.val / 16) + r.val < 4096 := by
  have hN : t.val < 128 := lt_of_lt_of_eq t.isLt (show cfg1.N = 128 from N_1)
  have hr := r.isLt
  omega

/-- Row `l` of key tile `t % 16` is a row of the array. -/
theorem key_row_lt (t : Fin cfg1.N) (l : Fin 256) : 256 * (t.val % 16) + l.val < 4096 := by
  have hl := l.isLt
  omega

/-- Entry `(b, r, d)` of the query block at point `t` is entry `(b, 512 · (t / 16) + r, d)` of the first array. -/
theorem query_block_apply (c : Dev nD) (t : Fin cfg1.N) (b : Fin 8) (r : Fin 512) (d : Fin 3) :
    blockAt V c 0 t (ix3 b r d)
      = V c (Pipeline.arrRef spec1 0) (ix3 b ⟨512 * (t.val / 16) + r.val, query_row_lt t r⟩ d) := by
  obtain ⟨e0, e1, e2⟩ := query_index t
  unfold blockAt
  show V c (Pipeline.arrRef spec1 0) (((cfg1.win 0).blk t).view.emb (ix3 b r d)) = _
  refine congrArg (V c (Pipeline.arrRef spec1 0)) (funext fun a => Fin.ext ?_)
  match a with
  | ⟨0, _⟩ => show win1_0.index t (0 : Fin 3) * 8 + 1 * b.val = b.val; rw [e0]; omega
  | ⟨1, _⟩ => show win1_0.index t (1 : Fin 3) * 512 + 1 * r.val = 512 * (t.val / 16) + r.val; rw [e1]; omega
  | ⟨2, _⟩ => show win1_0.index t (2 : Fin 3) * 3 + 1 * d.val = d.val; rw [e2]; omega

/-- Entry `(b, l, d)` of the key block at point `t` is entry `(b, 256 · (t % 16) + l, d)` of the second array. -/
theorem key_block_apply (c : Dev nD) (t : Fin cfg1.N) (b : Fin 8) (l : Fin 256) (d : Fin 3) :
    blockAt V c 1 t (ix3 b l d)
      = V c (Pipeline.arrRef spec1 1) (ix3 b ⟨256 * (t.val % 16) + l.val, key_row_lt t l⟩ d) := by
  obtain ⟨e0, e1, e2⟩ := key_index t
  unfold blockAt
  show V c (Pipeline.arrRef spec1 1) (((cfg1.win 1).blk t).view.emb (ix3 b l d)) = _
  refine congrArg (V c (Pipeline.arrRef spec1 1)) (funext fun a => Fin.ext ?_)
  match a with
  | ⟨0, _⟩ => show win1_1.index t (0 : Fin 3) * 8 + 1 * b.val = b.val; rw [e0]; omega
  | ⟨1, _⟩ => show win1_1.index t (1 : Fin 3) * 256 + 1 * l.val = 256 * (t.val % 16) + l.val; rw [e1]; omega
  | ⟨2, _⟩ => show win1_1.index t (2 : Fin 3) * 3 + 1 * d.val = d.val; rw [e2]; omega

end Cert.KernelIdeal.Region1

end
-- ==== Proof.Value1.lean ====
/-
  The second pallas_call read as values: what the scratch and the output block hold after every grid point, and
  what the output array holds after the last.

  Point t belongs to query tile t / 16 and key tile t % 16.  After point t the scratch holds, for query point r of
  the tile and cloud b, the least expanded squared distance from point 512 (t / 16) + r of the query cloud to the
  key points below 256 (t % 16 + 1): at the first key tile the refill ⊤ is lowered by the tile's infimum, at a later
  one what the point before left is.  At the last key tile all 4096 key points have been seen and the output block
  receives the row minimum; the eight output blocks tile the array.
-/
import proofs.«137223_j18863496364104_1_alg».proof.Proof.Region1
import proofs.«137223_j18863496364104_1_alg».proof.Proof.Pieces1
import proofs.«137223_j18863496364104_1_alg».proof.Proof.Blocks1
import proofs.«137223_j18863496364104_1_alg».proof.Proof.Payload
import proofs.«137223_j18863496364104_1_alg».proof.Proof.Spec
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## One point -/

/-- The tile's least distance, read in the two clouds: query point `r` of the block is point 512 (t / 16) + r of the
    query cloud, key point `l` of the block is point 256 (t % 16) + l of the key cloud. -/
theorem tile_dist (c : Dev nD) (t : Fin cfg1.N) (b : Fin 8) (r : Fin 512) :
    Cert.Chamfer.Tile.tileMin (blockAt V c 0 t) (blockAt V c 1 t) b r
      = (Finset.univ : Finset (Fin 256)).inf fun l =>
          Cert.Chamfer.dist (V c (Pipeline.arrRef spec1 0)) (V c (Pipeline.arrRef spec1 1)) b ⟨512 * (t.val / 16) + r.val, by have := t.isLt; have : cfg1.N = 128 := N_1; have := r.isLt; omega⟩
            ⟨256 * (t.val % 16) + l.val, by have := l.isLt; omega⟩ := by
  unfold Cert.Chamfer.Tile.tileMin
  refine Finset.inf_congr rfl fun l _ => ?_
  unfold Cert.Chamfer.dist Cert.Chamfer.sq Cert.Chamfer.dot
  simp only [query_block_apply V c t, key_block_apply V c t]

/-- One step over a scratch that holds the infimum over the key points below 256 (t % 16) leaves the infimum over
    those below 256 (t % 16 + 1). -/
theorem payload_rows (c : Dev nD) (t : Fin cfg1.N) (xs : Vec Ideal S8x512 .f32) (b : Fin 8) (r : Fin 512)
    (hxs : xs (ix2 b r) = Cert.Chamfer.rowminUpTo (V c (Pipeline.arrRef spec1 0)) (V c (Pipeline.arrRef spec1 1)) (t.val % 16) (ix2 b ⟨512 * (t.val / 16) + r.val, by have := t.isLt; have : cfg1.N = 128 := N_1; have := r.isLt; omega⟩)) :
    k1_pay2 (F := Ideal) (blockAt V c 0 t) (blockAt V c 1 t) xs (ix2 b r)
      = Cert.Chamfer.rowminUpTo (V c (Pipeline.arrRef spec1 0)) (V c (Pipeline.arrRef spec1 1)) (t.val % 16 + 1) (ix2 b ⟨512 * (t.val / 16) + r.val, by have := t.isLt; have : cfg1.N = 128 := N_1; have := r.isLt; omega⟩) := by
  have hj : t.val % 16 < 16 := Nat.mod_lt _ (by decide)
  refine (Cert.Chamfer.Tile.step1_apply (blockAt V c 0 t) (blockAt V c 1 t) xs b r).trans ?_
  rw [hxs, tile_dist V c t b r]
  exact (Cert.Chamfer.Tile.rowminUpTo_succ (V c (Pipeline.arrRef spec1 0)) (V c (Pipeline.arrRef spec1 1)) (t.val % 16) hj b _).symm

/-- What the point before left, restated at this point: a point that is not of the first key tile has the query tile of
    the point before it, and one more key tile behind it. -/
theorem carry_rows (c : Dev nD) (t : Fin cfg1.N) (h0 : ¬t.val % 16 = 0) (hlt : t.val - 1 < cfg1.N) (b : Fin 8) (r : Fin 512)
    (hp : (pointAfter V c (t.val - 1) hlt).2 (ix2 b r)
      = Cert.Chamfer.rowminUpTo (V c (Pipeline.arrRef spec1 0)) (V c (Pipeline.arrRef spec1 1)) ((t.val - 1) % 16 + 1)
          (ix2 b ⟨512 * ((t.val - 1) / 16) + r.val, by have : cfg1.N = 128 := N_1; have := r.isLt; omega⟩)) :
    (pointAfter V c (t.val - 1) hlt).2 (ix2 b r)
      = Cert.Chamfer.rowminUpTo (V c (Pipeline.arrRef spec1 0)) (V c (Pipeline.arrRef spec1 1)) (t.val % 16) (ix2 b ⟨512 * (t.val / 16) + r.val, by have := t.isLt; have : cfg1.N = 128 := N_1; have := r.isLt; omega⟩) := by
  have hN : cfg1.N = 128 := N_1
  have hr := r.isLt
  have ht := t.isLt
  have ej : (t.val - 1) % 16 + 1 = t.val % 16 := by omega
  have en : (⟨512 * ((t.val - 1) / 16) + r.val, by omega⟩ : Fin 4096) = ⟨512 * (t.val / 16) + r.val, by omega⟩ :=
    Fin.ext (by show 512 * ((t.val - 1) / 16) + r.val = 512 * (t.val / 16) + r.val; omega)
  rw [hp, ej, en]

/-! ## The scratch after every point -/

/-- After point `t` the scratch holds, at query point `r` of the tile, the least distance to the key points below
    256 (t % 16 + 1).  By induction on the point: a point of the first key tile starts from the refill, any other from
    what the point before it, of the same query tile, left. -/
theorem scratch_eq (c : Dev nD) (t : Fin cfg1.N) (b : Fin 8) (r : Fin 512) :
    (pointAfter V c t.val t.isLt).2 (ix2 b r)
      = Cert.Chamfer.rowminUpTo (V c (Pipeline.arrRef spec1 0)) (V c (Pipeline.arrRef spec1 1)) (t.val % 16 + 1) (ix2 b ⟨512 * (t.val / 16) + r.val, by have := t.isLt; have : cfg1.N = 128 := N_1; have := r.isLt; omega⟩) := by
  have hN : cfg1.N = 128 := N_1
  suffices H : ∀ (n : ℕ) (t : Fin cfg1.N), t.val = n → ∀ (b : Fin 8) (r : Fin 512),
      (pointAfter V c t.val t.isLt).2 (ix2 b r)
        = Cert.Chamfer.rowminUpTo (V c (Pipeline.arrRef spec1 0)) (V c (Pipeline.arrRef spec1 1)) (t.val % 16 + 1) (ix2 b ⟨512 * (t.val / 16) + r.val, by have := t.isLt; have : cfg1.N = 128 := N_1; have := r.isLt; omega⟩) from H t.val t rfl b r
  intro n
  induction n using Nat.strong_induction_on with
  | _ n ih =>
    intro t ht b r
    have htN : t.val < 128 := lt_of_lt_of_eq t.isLt hN
    by_cases h0 : t.val % 16 = 0
    · have h1 : ¬t.val % 16 = 15 := by omega
      rw [pointAfter_first V c t h0 h1]
      dsimp only
      rw [accFirst_eq c (grid1.coords t) (qM t) (qW t) (kM t) (kW t) (oM t) (oW t) accM (Memref.isWhole_whole _)
        ((first_iff t).mpr h0) (fun h => h1 ((last_iff t).mp h)) (blockAt V c 0 t) (blockAt V c 1 t)]
      refine payload_rows V c t _ b r ?_
      rw [Cert.Chamfer.Tile.fill1_apply, h0, Cert.Chamfer.rowminUpTo_zero]
    · have hlt : t.val - 1 < cfg1.N := Nat.lt_of_le_of_lt (Nat.sub_le _ _) t.isLt
      have hprev := carry_rows V c t h0 hlt b r (ih (t.val - 1) (by omega) ⟨t.val - 1, hlt⟩ rfl b r)
      by_cases h1 : t.val % 16 = 15
      · rw [pointAfter_last V c t h0 h1]
        dsimp only
        rw [accLast_eq c (grid1.coords t) (qM t) (qW t) (kM t) (kW t) (oM t) (oW t) accM (Memref.isWhole_whole _)
          (fun h => h0 ((first_iff t).mp h)) ((last_iff t).mpr h1) (blockAt V c 0 t) (blockAt V c 1 t)
          (pointAfter V c (t.val - 1) hlt).2]
        exact payload_rows V c t _ b r hprev
      · rw [pointAfter_inner V c t h0 h1]
        dsimp only
        rw [accInner_eq c (grid1.coords t) (qM t) (qW t) (kM t) (kW t) (oM t) (oW t) accM (Memref.isWhole_whole _)
          (fun h => h0 ((first_iff t).mp h)) (fun h => h1 ((last_iff t).mp h)) (blockAt V c 0 t) (blockAt V c 1 t)
          (pointAfter V c (t.val - 1) hlt).2]
        exact payload_rows V c t _ b r hprev

/-! ## The output block at the last key tile -/

/-- At a point of the last key tile the output block receives the same payload as the scratch: all 4096 key points
    have been seen, so it is the row minimum. -/
theorem out_eq (c : Dev nD) (t : Fin cfg1.N) (h : t.val % 16 = 15) (b : Fin 8) (r : Fin 512) :
    (pointAfter V c t.val t.isLt).1 (ix2 b r)
      = Cert.Chamfer.rowmin (V c (Pipeline.arrRef spec1 0)) (V c (Pipeline.arrRef spec1 1)) (ix2 b ⟨512 * (t.val / 16) + r.val, by have := t.isLt; have : cfg1.N = 128 := N_1; have := r.isLt; omega⟩) := by
  have hN : cfg1.N = 128 := N_1
  have h0 : ¬t.val % 16 = 0 := by omega
  have hlt : t.val - 1 < cfg1.N := Nat.lt_of_le_of_lt (Nat.sub_le _ _) t.isLt
  have hprev := carry_rows V c t h0 hlt b r (scratch_eq V c ⟨t.val - 1, hlt⟩ b r)
  rw [pointAfter_last V c t h0 h]
  dsimp only
  rw [outLast_eq c (grid1.coords t) (qM t) (qW t) (kM t) (kW t) (oM t) (oW t) accM (Memref.isWhole_whole _)
    (fun h' => h0 ((first_iff t).mp h')) ((last_iff t).mpr h) (blockAt V c 0 t) (blockAt V c 1 t)
    (pointAfter V c (t.val - 1) hlt).2]
  refine (payload_rows V c t _ b r hprev).trans ?_
  rw [h]
  exact congrFun (Cert.Chamfer.rowminUpTo_all (V c (Pipeline.arrRef spec1 0)) (V c (Pipeline.arrRef spec1 1))) _

/-! ## From the output blocks to the output array -/

/-- The output window's block index at every point: the query tile on the point axis, zero on the cloud axis. -/
theorem out_index : ∀ t : Fin cfg1.N, win1_2.index t (0 : Fin 2) = 0 ∧ win1_2.index t (1 : Fin 2) = t.val / 16 :=
  (by decide +kernel : ∀ t : Fin grid1.N, win1_2.index t (0 : Fin 2) = 0 ∧ win1_2.index t (1 : Fin 2) = t.val / 16)

/-- What a point of the last key tile writes back is its block of the row minimum. -/
theorem flushed_rows (c : Dev nD) (t : Fin cfg1.N) (h : (cfg1.win 2).flush t = true) :
    (dat V c).flushed 2 t
      = ((cfg1.win 2).blk t).view.read (Elt Ideal) (Cert.Chamfer.rowmin (V c (Pipeline.arrRef spec1 0)) (V c (Pipeline.arrRef spec1 1))) := by
  have h15 : t.val % 16 = 15 := (flush1_2 t).mp h
  have hN : cfg1.N = 128 := N_1
  have htN : t.val < 128 := lt_of_lt_of_eq t.isLt hN
  obtain ⟨i0, i1⟩ := out_index t
  show (cfg1.win 2).cut (grid1.coords t) ((dat V c).after 2 t) = _
  rw [after_out]
  funext y
  have hb : (y 0).val < 8 := (y 0).isLt
  have hr : (y 1).val < 512 := (y 1).isLt
  show (pointAfter V c t.val t.isLt).1 ((cfg1.win 2).xinj (grid1.coords t) y)
    = Cert.Chamfer.rowmin (V c (Pipeline.arrRef spec1 0)) (V c (Pipeline.arrRef spec1 1)) (((cfg1.win 2).blk t).view.emb y)
  have ex : (cfg1.win 2).xinj (grid1.coords t) y = ix2 (⟨(y 0).val, hb⟩ : Fin 8) (⟨(y 1).val, hr⟩ : Fin 512) :=
    funext fun a => Fin.ext (by
      match a with
      | ⟨0, _⟩ => rfl
      | ⟨1, _⟩ => rfl)
  have ee : ((cfg1.win 2).blk t).view.emb y
      = ix2 (⟨(y 0).val, hb⟩ : Fin 8) (⟨512 * (t.val / 16) + (y 1).val, by omega⟩ : Fin 4096) :=
    funext fun a => Fin.ext (by
      match a with
      | ⟨0, _⟩ => show win1_2.index t (0 : Fin 2) * 8 + 1 * (y 0).val = (y 0).val; rw [i0]; omega
      | ⟨1, _⟩ => show win1_2.index t (1 : Fin 2) * 512 + 1 * (y 1).val = 512 * (t.val / 16) + (y 1).val; rw [i1]; omega)
  rw [ex, ee]
  exact out_eq V c t h15 ⟨(y 0).val, hb⟩ ⟨(y 1).val, hr⟩

/-- An entry of the array lies in a point's output block iff each coordinate lies in the block's range on its axis. -/
theorem mem_out_block (t : Fin cfg1.N) (i : S8x4096.Idx) :
    i ∈ ((cfg1.win 2).blk t).view.set
      ↔ ∀ a : Fin 2, win1_2.index t a * S8x512.size a ≤ (i a).val
          ∧ (i a).val < win1_2.index t a * S8x512.size a + S8x512.size a := by
  show i ∈ ((View.whole main_v1).slice (win1_2.rect t)).set ↔ _
  rw [View.set_slice_whole, Rect.mem_set_unit]
  exact Iff.rfl

/-- After the last point the output array holds the row minimum: row `n` lies in the block written back at the point
    of the last key tile of query tile `n / 512`. -/
theorem final_rows (c : Dev nD) :
    (dat (F := Ideal) V c).arrAt 2 cfg1.N
      = Cert.Chamfer.rowmin (V c (Pipeline.arrRef spec1 0)) (V c (Pipeline.arrRef spec1 1)) :=
  (dat V c).arrAt_eq_of_cover 2 (Cert.Chamfer.rowmin (V c (Pipeline.arrRef spec1 0)) (V c (Pipeline.arrRef spec1 1))) (flushed_rows V c) fun i => by
    have hN : cfg1.N = 128 := N_1
    have hi0 : (i 0).val < 8 := (i 0).isLt
    have hi1 : (i 1).val < 4096 := (i 1).isLt
    have hlt : 16 * ((i 1).val / 512) + 15 < cfg1.N := by omega
    refine ⟨⟨16 * ((i 1).val / 512) + 15, hlt⟩, (flush1_2 _).mpr (by show (16 * ((i 1).val / 512) + 15) % 16 = 15; omega), ?_⟩
    rw [mem_out_block]
    obtain ⟨e0, e1⟩ := out_index ⟨16 * ((i 1).val / 512) + 15, hlt⟩
    have e1' : win1_2.index ⟨16 * ((i 1).val / 512) + 15, hlt⟩ (1 : Fin 2) = (16 * ((i 1).val / 512) + 15) / 16 := e1
    intro a
    match a with
    | ⟨0, _⟩ =>
      show win1_2.index ⟨16 * ((i 1).val / 512) + 15, hlt⟩ (0 : Fin 2) * 8 ≤ (i 0).val
        ∧ (i 0).val < win1_2.index ⟨16 * ((i 1).val / 512) + 15, hlt⟩ (0 : Fin 2) * 8 + 8
      rw [e0]; omega
    | ⟨1, _⟩ =>
      show win1_2.index ⟨16 * ((i 1).val / 512) + 15, hlt⟩ (1 : Fin 2) * 512 ≤ (i 1).val
        ∧ (i 1).val < win1_2.index ⟨16 * ((i 1).val / 512) + 15, hlt⟩ (1 : Fin 2) * 512 + 512
      rw [e1']; omega

end Cert.KernelIdeal.Region1

end
-- ==== Proof.RefBridge.lean ====
/-
  The reference program read as the specification.

  The reference builds the full table of expanded squared distances
  D(b,n,m) = |p_n|² + |t_m|² − 2·⟨p_n,t_m⟩ once, takes its minimum along the key axis and along the query
  axis, and feeds the two [8,4096] arrays of row minima to a short tail of sums and divisions.  This module
  names that tail as one function of the two arrays, reads the table entry by entry as `dist`, and reads
  each minimum as the infimum `rowmin` of the specification: a fold of `min` from ⊤ over all 4096 entries
  of one line of the table is the infimum of that line, and the line along the query axis is, by the
  symmetry of the expansion, a line of the table with the two clouds exchanged.
-/
import proofs.«137223_j18863496364104_1_alg».proof.Proof.Spec
import proofs.«137223_j18863496364104_1_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

noncomputable section

namespace Cert.Chamfer.Ref

open Cert.ReferenceIdeal Cert.ReferenceIdeal.Gen Idealize.ShloMosaic Idealize.ShloMosaic.TcCoe Idealize.SL.Sem
  Idealize.ShloMosaic.StableHlo Idealize.ShloMosaic.ValueIdx

/-- What both programs do with the two arrays of row minima: sum each over its 4096 points and divide by
    4096, add the two means, sum over the 8 clouds and divide by 8.  Carried as one function and never
    opened. -/
def tail (A B : (⟨Cert.ReferenceIdeal.S8x4096, .f32⟩ : BufTy).Contents (Elt Ideal)) :
    (⟨Cert.ReferenceIdeal.S_, .f32⟩ : BufTy).Contents (Elt Ideal) :=
  Host.divf (F := Ideal)
    (Host.reduceAdd (F := Ideal)
      (addf
        (Host.divf (F := Ideal)
          (Host.reduceAdd (F := Ideal) A (constant (F := Ideal) S_ .f32 0x00000000#32) reducesTo_S8x4096_S8_d1 h_S_)
          (broadcastInDim S8 ![] bcast_S_S8 (constant (F := Ideal) S_ .f32 0x45800000#32)))
        (Host.divf (F := Ideal)
          (Host.reduceAdd (F := Ideal) B (constant (F := Ideal) S_ .f32 0x00000000#32) reducesTo_S8x4096_S8_d1 h_S_)
          (broadcastInDim S8 ![] bcast_S_S8 (constant (F := Ideal) S_ .f32 0x45800000#32))))
      (constant (F := Ideal) S_ .f32 0x00000000#32) reducesTo_S8_S_d0 h_S_)
    (constant (F := Ideal) S_ .f32 0x41000000#32)

/-- The reference's result is the tail applied to its two arrays of minima. -/
theorem result_eq_tail (x0 x1 : (⟨Cert.ReferenceIdeal.S8x4096x3, .f32⟩ : BufTy).Contents (Elt Ideal)) :
    Cert.ReferenceIdeal.Read.val_main_v23 (F := Ideal) x0 x1
      = tail (Cert.ReferenceIdeal.Read.val_main_v13 (F := Ideal) x0 x1)
             (Cert.ReferenceIdeal.Read.val_main_v14 (F := Ideal) x0 x1) := rfl

/-! ## The table of expanded squared distances, entry by entry -/

/-- Entry `(b, n, m)` of the reference's table is the expanded squared distance of point `n` of the first
    cloud and point `m` of the second: the two broadcasts carry the squared norms to the entry, the
    contraction is the inner product over the three coordinates, and each sum starts from the zero word. -/
theorem v12_apply (x0 x1 : (⟨Cert.ReferenceIdeal.S8x4096x3, .f32⟩ : BufTy).Contents (Elt Ideal))
    (b : Fin 8) (n m : Fin 4096) :
    Cert.ReferenceIdeal.Read.val_main_v12 (F := Ideal) x0 x1 (ix3 b n m) = Cert.Chamfer.dist x0 x1 b n m := by
  have e7 : Read.idx_main_v7 (ix3 b n m) = ix3 b n (0 : Fin 1) :=
    funext fun a => Fin.ext (by match a with | ⟨0, _⟩ => rfl | ⟨1, _⟩ => rfl | ⟨2, _⟩ => rfl)
  have e5 : Read.idx_main_v5 (ix3 b n (0 : Fin 1)) = ix2 b n :=
    funext fun a => Fin.ext (by match a with | ⟨0, _⟩ => rfl | ⟨1, _⟩ => rfl)
  have e8 : Read.idx_main_v8 (ix3 b n m) = ix3 b (0 : Fin 1) m :=
    funext fun a => Fin.ext (by match a with | ⟨0, _⟩ => rfl | ⟨1, _⟩ => rfl | ⟨2, _⟩ => rfl)
  have e6 : Read.idx_main_v6 (ix3 b (0 : Fin 1) m) = ix2 b m :=
    funext fun a => Fin.ext (by match a with | ⟨0, _⟩ => rfl | ⟨1, _⟩ => rfl)
  have e1 : ∀ k : Fin 3, Read.idx_main_v1 (ix2 b n) k = ix3 b n k := fun k =>
    funext fun a => Fin.ext (by match a with | ⟨0, _⟩ => rfl | ⟨1, _⟩ => rfl | ⟨2, _⟩ => rfl)
  have e3 : ∀ k : Fin 3, Read.idx_main_v3 (ix2 b m) k = ix3 b m k := fun k =>
    funext fun a => Fin.ext (by match a with | ⟨0, _⟩ => rfl | ⟨1, _⟩ => rfl | ⟨2, _⟩ => rfl)
  have el : ∀ k : Fin 3, Read.lidx_main_v4 (ix3 b n m) k = ix3 b n k := fun k =>
    funext fun a => Fin.ext (by match a with | ⟨0, _⟩ => rfl | ⟨1, _⟩ => rfl | ⟨2, _⟩ => rfl)
  have er : ∀ k : Fin 3, Read.ridx_main_v4 (ix3 b n m) k = ix3 b m k := fun k =>
    funext fun a => Fin.ext (by match a with | ⟨0, _⟩ => rfl | ⟨1, _⟩ => rfl | ⟨2, _⟩ => rfl)
  rw [Read.val_main_v12_apply, Read.val_main_v9_apply, Read.val_main_v7_apply, e7, Read.val_main_v5_apply, e5,
    Read.val_main_v1_apply, Read.val_main_v8_apply, e8, Read.val_main_v6_apply, e6, Read.val_main_v3_apply,
    Read.val_main_v11_apply, Read.val_main_v10_apply, Read.val_main_cst_1_apply, Read.val_main_v4_apply,
    Read.val_main_cst_apply, Read.val_main_cst_0_apply]
  simp only [e1, e3, el, er, Read.val_main_v0_apply, Read.val_main_v2_apply, Ideal.addf_def, Ideal.subf_def,
    Ideal.mulf_def, Ideal.ofBits_def, Ideal.ofBits_zero_f32, zero_add]
  rfl

/-! ## A minimum along one axis of the table is an infimum -/

/-- A fold of `min` from ⊤ is the infimum. -/
theorem fold_min_top {ι : Type} (s : Finset ι) (f : ι → EReal) : s.fold min ⊤ f = s.inf f := by
  induction s using Finset.cons_induction with
  | empty => rfl
  | cons a s ha ih => rw [Finset.fold_cons, Finset.inf_cons, ih]

/-- The minimum along the LAST axis of a [8,4096,4096] table, started from a word that denotes ⊤: at `(b, n)`
    it is the infimum over `m` of the entries `(b, n, m)`.  The entries that reduce to `(b, n)` are
    `(b, n)` with each coordinate `m` inserted last, and the operation commutes and associates, so the
    order the entries are met in does not matter. -/
theorem min_last (y : (⟨Cert.ReferenceIdeal.S8x4096x4096, .f32⟩ : BufTy).Contents (Elt Ideal))
    (init : (⟨Cert.ReferenceIdeal.S_, .f32⟩ : BufTy).Contents (Elt Ideal))
    (hinit : init (Shape.Idx.first h_S_) = (⊤ : EReal)) (b : Fin 8) (n : Fin 4096) :
    Host.reduce (FloatOps.minimumf (F := Ideal) (φ := .f32)) y init reducesTo_S8x4096x4096_S8x4096_d2 h_S_ (ix2 b n)
      = (Finset.univ : Finset (Fin 4096)).inf fun m => y (ix3 b n m) := by
  have h : S8x4096x4096.Reduces [2] S8x4096 := by decide
  have e : ∀ m : Fin 4096, h.lift (ix2 b n) m = ix3 b n m := fun m =>
    funext fun c => Fin.ext (by match c with | ⟨0, _⟩ => rfl | ⟨1, _⟩ => rfl | ⟨2, _⟩ => rfl)
  rw [Host.reduce_eq_fold_single (FloatOps.minimumf (F := Ideal) (φ := .f32)) y init reducesTo_S8x4096x4096_S8x4096_d2 h h_S_ (ix2 b n), hinit]
  show (Finset.univ : Finset (Fin 4096)).fold min ⊤ (fun m => y (h.lift (ix2 b n) m)) = _
  exact (fold_min_top _ _).trans (Finset.inf_congr rfl fun m _ => congrArg y (e m))

/-- The minimum along the MIDDLE axis: at `(b, m)` it is the infimum over `n` of the entries `(b, n, m)`. -/
theorem min_mid (y : (⟨Cert.ReferenceIdeal.S8x4096x4096, .f32⟩ : BufTy).Contents (Elt Ideal))
    (init : (⟨Cert.ReferenceIdeal.S_, .f32⟩ : BufTy).Contents (Elt Ideal))
    (hinit : init (Shape.Idx.first h_S_) = (⊤ : EReal)) (b : Fin 8) (m : Fin 4096) :
    Host.reduce (FloatOps.minimumf (F := Ideal) (φ := .f32)) y init reducesTo_S8x4096x4096_S8x4096_d1 h_S_ (ix2 b m)
      = (Finset.univ : Finset (Fin 4096)).inf fun n => y (ix3 b n m) := by
  have h : S8x4096x4096.Reduces [1] S8x4096 := by decide
  have e : ∀ n : Fin 4096, h.lift (ix2 b m) n = ix3 b n m := fun n =>
    funext fun c => Fin.ext (by match c with | ⟨0, _⟩ => rfl | ⟨1, _⟩ => rfl | ⟨2, _⟩ => rfl)
  rw [Host.reduce_eq_fold_single (FloatOps.minimumf (F := Ideal) (φ := .f32)) y init reducesTo_S8x4096x4096_S8x4096_d1 h h_S_ (ix2 b m), hinit]
  show (Finset.univ : Finset (Fin 4096)).fold min ⊤ (fun n => y (h.lift (ix2 b m) n)) = _
  exact (fold_min_top _ _).trans (Finset.inf_congr rfl fun n _ => congrArg y (e n))

/-- The reference's minimum over the key axis gives every point of the first cloud its least expanded
    squared distance to the second. -/
theorem v13_eq (x0 x1 : (⟨Cert.ReferenceIdeal.S8x4096x3, .f32⟩ : BufTy).Contents (Elt Ideal)) :
    Cert.ReferenceIdeal.Read.val_main_v13 (F := Ideal) x0 x1 = Cert.Chamfer.rowmin x0 x1 := by
  funext i
  obtain ⟨b, n, rfl⟩ : ∃ (b : Fin 8) (n : Fin 4096), i = ix2 b n := ⟨i 0, i 1, eq_ix2 i⟩
  unfold Read.val_main_v13
  rw [min_last _ _ ((Read.val_main_cst_2_apply _).trans Cert.Chamfer.inf_word)]
  unfold Cert.Chamfer.rowmin
  exact Finset.inf_congr rfl fun m _ => v12_apply x0 x1 b n m

/-- The reference's minimum over the query axis gives every point of the second cloud its least expanded
    squared distance to the first: entry `(b, n, m)` of the table is, by the symmetry of the expansion,
    the distance of point `m` of the second cloud and point `n` of the first. -/
theorem v14_eq (x0 x1 : (⟨Cert.ReferenceIdeal.S8x4096x3, .f32⟩ : BufTy).Contents (Elt Ideal)) :
    Cert.ReferenceIdeal.Read.val_main_v14 (F := Ideal) x0 x1 = Cert.Chamfer.rowmin x1 x0 := by
  funext i
  obtain ⟨b, m, rfl⟩ : ∃ (b : Fin 8) (m : Fin 4096), i = ix2 b m := ⟨i 0, i 1, eq_ix2 i⟩
  unfold Read.val_main_v14
  rw [min_mid _ _ ((Read.val_main_cst_3_apply _).trans Cert.Chamfer.inf_word)]
  unfold Cert.Chamfer.rowmin
  exact Finset.inf_congr rfl fun n _ => (v12_apply x0 x1 b n m).trans (Cert.Chamfer.dist_swap x0 x1 b n m)

/-- The reference's result: the shared tail applied to the two arrays of least distances. -/
theorem reference_result (x0 x1 : (⟨Cert.ReferenceIdeal.S8x4096x3, .f32⟩ : BufTy).Contents (Elt Ideal)) :
    Cert.ReferenceIdeal.Read.val_main_v23 (F := Ideal) x0 x1
      = tail (Cert.Chamfer.rowmin x0 x1) (Cert.Chamfer.rowmin x1 x0) := by
  rw [result_eq_tail, v13_eq, v14_eq]

end Cert.Chamfer.Ref

end
-- ==== Proof.Result.lean ====
/-
  The whole program's result as a value.

  After the two pallas_calls the first result array holds, for every point of the first cloud, its least expanded
  squared distance to the second cloud, and the second result array the same with the clouds exchanged.  The host
  operations that follow are the tail both programs share: the mean of each array over its points, the sum of the
  two means, the mean over the clouds.  So the program ends with its result buffer at that tail of the two arrays
  of least distances of the launch arguments, and with both arguments as launched.
-/
import proofs.«137223_j18863496364104_1_alg».proof.Proof.Launch
import proofs.«137223_j18863496364104_1_alg».proof.Proof.Value0
import proofs.«137223_j18863496364104_1_alg».proof.Proof.Value1
import proofs.«137223_j18863496364104_1_alg».proof.Proof.RefBridge
import proofs.«137223_j18863496364104_1_alg».proof.Proof.Spec
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable (m : (ℓ : Loc nD τ sig) → Buf (Elt Ideal) ℓ) (ρ : Dev nD → PrngReg)

/-- The host operations after the two pallas_calls are the shared tail, applied to the two result arrays as the
    second pallas_call leaves them. -/
theorem W3_result (c : Dev nD) :
    W3 m c (Proc.devRef .tc main_v10)
      = Cert.Chamfer.Ref.tail (W2 m c (Proc.devRef .tc main_v0)) (W2 m c (Proc.devRef .tc main_v1)) := by
  show StableHlo.after hostOps2 (W2 m c) (Proc.devRef .tc main_v10) = _
  after_results
  rfl

/-- The first result array is written by the first pallas_call only: it ends at the least distances from the first
    cloud to the second. -/
theorem W2_v0 (c : Dev nD) :
    W2 m c (Proc.devRef .tc main_v0)
      = Cert.Chamfer.rowmin (m ((c : Thread nD τ).loc main_arg0)) (m ((c : Thread nD τ).loc main_arg1)) :=
  calc W2 m c (Proc.devRef .tc main_v0)
    _ = W1 m c (Proc.devRef .tc main_v0) := W2_of_ne m c main_v0 (by decide)
    _ = (Region0.dat (V0 m) c).arrAt 2 cfg0.N := W1_arr m c 2
    _ = Cert.Chamfer.rowmin (V0 m c (Pipeline.arrRef spec0 0)) (V0 m c (Pipeline.arrRef spec0 1)) :=
        Region0.final_rows (V0 m) c
    _ = Cert.Chamfer.rowmin (m ((c : Thread nD τ).loc main_arg0)) (m ((c : Thread nD τ).loc main_arg1)) := rfl

/-- The second pallas_call finds the second argument, its query array, as launched: the first pallas_call only
    read it. -/
theorem V1_main_arg1 (c : Dev nD) :
    (V1 m c (Pipeline.arrRef spec1 0) : Cert.Chamfer.Cloud) = m ((c : Thread nD τ).loc main_arg1) :=
  (W1_arr m c 1).trans (((Region0.dat (V0 m) c).arrAt_in 1 rfl _).trans (Region0.A_eq (V0 m) c 1))

/-- And the first argument, its key array, likewise. -/
theorem V1_main_arg0 (c : Dev nD) :
    (V1 m c (Pipeline.arrRef spec1 1) : Cert.Chamfer.Cloud) = m ((c : Thread nD τ).loc main_arg0) :=
  (W1_arr m c 0).trans (((Region0.dat (V0 m) c).arrAt_in 0 rfl _).trans (Region0.A_eq (V0 m) c 0))

/-- The second result array is written by the second pallas_call: it ends at the least distances from the second
    cloud to the first. -/
theorem W2_v1 (c : Dev nD) :
    W2 m c (Proc.devRef .tc main_v1)
      = Cert.Chamfer.rowmin (m ((c : Thread nD τ).loc main_arg1)) (m ((c : Thread nD τ).loc main_arg0)) :=
  calc W2 m c (Proc.devRef .tc main_v1)
    _ = (Region1.dat (V1 m) c).arrAt 2 cfg1.N := W2_arr m c 2
    _ = Cert.Chamfer.rowmin (V1 m c (Pipeline.arrRef spec1 0)) (V1 m c (Pipeline.arrRef spec1 1)) :=
        Region1.final_rows (V1 m) c
    _ = Cert.Chamfer.rowmin (m ((c : Thread nD τ).loc main_arg1)) (m ((c : Thread nD τ).loc main_arg0)) :=
        congrArg₂ Cert.Chamfer.rowmin (V1_main_arg1 m c) (V1_main_arg0 m c)

/-- The program's result: the shared tail of the two arrays of least distances of the launch arguments. -/
def result (c : Dev nD) : Buf (Elt Ideal) ((c.tc : Thread nD τ).loc main_v10) :=
  Cert.Chamfer.Ref.tail
    (Cert.Chamfer.rowmin (m ((c : Thread nD τ).loc main_arg0)) (m ((c : Thread nD τ).loc main_arg1)))
    (Cert.Chamfer.rowmin (m ((c : Thread nD τ).loc main_arg1)) (m ((c : Thread nD τ).loc main_arg0)))

/-- The result buffer ends at it. -/
theorem W3_value (c : Dev nD) : W3 m c (Proc.devRef .tc main_v10) = result m c := by
  rw [W3_result, W2_v0, W2_v1]
  rfl

/-- From any memory with every counter at zero the program runs to the end without a fault, its result buffer ends
    at `result`, and both arguments end as launched. -/
theorem run_value : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v10 (by decide))).trans (W3_value m c),
     (h c _ (mem_uc main_arg0 (by decide))).trans (W3_main_arg0 m c),
     (h c _ (mem_uc main_arg1 (by decide))).trans (W3_main_arg1 m c)⟩) (run_all m ρ)

end Cert.KernelIdeal.Whole

end
-- ==== Proof.lean ====
/-
  Chamfer distance between two batches of point clouds, computed two ways.

  For clouds pred and target (8 clouds of 4096 points in 3 coordinates) write
      D(b, n, m) = |pred n|² + |target m|² − 2 · ⟨pred n, target m⟩
  for the expanded squared distance of point n of pred and point m of target in cloud b.  Both programs return
      mean over b of ( mean over n of min over m of D  +  mean over m of min over n of D ).

  The reference builds D once and takes its minimum along each of the two point axes.  The kernel runs one tiled
  "least distance to the other cloud" kernel twice, with the roles of the clouds exchanged: a tile of 512 query
  points is compared with sixteen successive tiles of 256 key points, the least value seen so far is kept in a scratch
  buffer that starts from the top value, and after the sixteenth tile it is written out.  Read over the extended
  reals, where every float operation is exact and a change of float format is the identity, the two computations
  agree because
    * a minimum over 4096 key points is the minimum of the minima over its sixteen tiles, and
    * with the roles exchanged the distance is the same number: the two squared norms change places under a
      commutative sum, and the inner product's factors change places under a commutative product.
  Neither law needs a finite entry, so the precondition is never opened.  The averaging operations that follow the
  minima are the same in both programs and are carried as one function applied to equal arguments.

  The three frames: each program runs to its end without a fault and leaves both arguments as it found them.  For the
  two kernel programs this is the run of the two pallas_calls and the host operations after them, in which the scratch
  buffer's contents are tracked from grid point to grid point; for the reference it is its run with the result dropped.
  The idealized kernel is the kernel's own text read over the extended reals, so nothing is owed for the idealization.
-/
import proofs.«137223_j18863496364104_1_alg».proof.Defs
import proofs.«137223_j18863496364104_1_alg».proof.Proof.Gen.Kernel
import proofs.«137223_j18863496364104_1_alg».proof.Proof.Gen.KernelIdeal
import proofs.«137223_j18863496364104_1_alg».proof.Proof.Gen.ReferenceIdeal
import proofs.«137223_j18863496364104_1_alg».proof.Proof.Gen.Pre_finite_inputs
import proofs.«137223_j18863496364104_1_alg».proof.Proof.Gen.ReferenceIdeal.Run
import proofs.«137223_j18863496364104_1_alg».proof.Proof.Gen.ReferenceIdeal.Read
import proofs.«137223_j18863496364104_1_alg».proof.Proof.Bits.Launch
import proofs.«137223_j18863496364104_1_alg».proof.Proof.Launch
import proofs.«137223_j18863496364104_1_alg».proof.Proof.Result
import proofs.«137223_j18863496364104_1_alg».proof.Proof.RefBridge

noncomputable section

namespace Cert.Proof

open Idealize.ShloMosaic Idealize.SL.Sem

/-- The kernel as printed runs to its end and leaves both clouds as it found them. -/
theorem frame_kernel : Cert.frame_Kernel := fun m ρ _ => Cert.Kernel.Whole.frame m ρ

/-- So does the kernel read over the extended reals. -/
theorem frame_kernelIdeal : Cert.frame_KernelIdeal := fun m ρ _ => Cert.KernelIdeal.Whole.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's text itself: no operation was rewritten. -/
theorem preserves : Cert.preserves_Kernel_KernelIdeal := trivial

/-- Over the extended reals both programs end at the averaged sum of the two one-sided least distances of the same
    two clouds: the kernel by its run, the reference by its own, the clouds agreeing by hypothesis. -/
theorem algebraic : Cert.algebraic_KernelIdeal_ReferenceIdeal := by
  intro m ρ m' ρ' _ hagree
  refine ⟨fun c => Cert.KernelIdeal.Whole.result m c, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Chamfer.Ref.reference_result, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
